-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096x1 : Shape := ⟨4, ![4, 128, 4096, 1]⟩
abbrev S256x256 : Shape := ⟨2, ![256, 256]⟩
abbrev S256 : Shape := ⟨1, ![256]⟩
abbrev S2x4x4096x16 : Shape := ⟨4, ![2, 4, 4096, 16]⟩
abbrev S_ : Shape := ⟨0, ![]⟩

class Facts : Prop where
  bcast_S_S4x128x4096x1 : S_.BroadcastsInDim S4x128x4096x1 (![] : Fin 0 → Fin S4x128x4096x1.rank)
  reducesTo_S4x128x4096x1_S_d0_1_2_3 : S4x128x4096x1.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x128x4096x1 .f32) (main_arg1 : FVec F S256x256 .f32) (main_arg2 : FVec F S256 .f32) (main_arg3 : FVec F S256 .f32) (main_arg4 : FVec F S256 .f32) (main_arg5 : IVec S2x4x4096x16 32) : IVec S_ 1 :=
  let main_v0 : FVec F S4x128x4096x1 .f32 := Host.absf main_arg0
  let main_cst : FVec F S_ .f32 := constant S_ .f32 0x7F800000#32
  let main_v1 : FVec F S4x128x4096x1 .f32 := broadcastInDim S4x128x4096x1 ![] bcast_S_S4x128x4096x1 main_cst
  let main_v2 : IVec S4x128x4096x1 1 := cmpf .olt main_v0 main_v1
  let main_c : IVec S_ 1 := constantI S_ 1 1#1
  let main_v3 : IVec S_ 1 := (fun x v => Host.reduce IntOp.andi x v reducesTo_S4x128x4096x1_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S4x128x4096x1 : Shape := ⟨4, ![4, 128, 4096, 1]⟩
abbrev S256x256 : Shape := ⟨2, ![256, 256]⟩
abbrev S256 : Shape := ⟨1, ![256]⟩
abbrev S2x4x4096x16 : Shape := ⟨4, ![2, 4, 4096, 16]⟩
abbrev S4x128x4096 : Shape := ⟨3, ![4, 128, 4096]⟩
abbrev S4x4096x128 : Shape := ⟨3, ![4, 4096, 128]⟩
abbrev S1x4x4096x16 : Shape := ⟨4, ![1, 4, 4096, 16]⟩
abbrev S4x4096x16 : Shape := ⟨3, ![4, 4096, 16]⟩
abbrev S4x65536 : Shape := ⟨2, ![4, 65536]⟩
abbrev S4x65536x1 : Shape := ⟨3, ![4, 65536, 1]⟩
abbrev S_ : Shape := ⟨0, ![]⟩
abbrev S1 : Shape := ⟨1, ![1]⟩
abbrev S1x1x1 : Shape := ⟨3, ![1, 1, 1]⟩
abbrev S4x65536x128 : Shape := ⟨3, ![4, 65536, 128]⟩
abbrev S4x4096x16x128 : Shape := ⟨4, ![4, 4096, 16, 128]⟩
abbrev S4x4096x16x256 : Shape := ⟨4, ![4, 4096, 16, 256]⟩
abbrev S262144x256 : Shape := ⟨2, ![262144, 256]⟩
abbrev S1x256 : Shape := ⟨2, ![1, 256]⟩
abbrev S4096x256 : Shape := ⟨2, ![4096, 256]⟩
abbrev S16384x16x256 : Shape := ⟨3, ![16384, 16, 256]⟩
abbrev S1x1x256 : Shape := ⟨3, ![1, 1, 256]⟩
abbrev S16384x256 : Shape := ⟨2, ![16384, 256]⟩
abbrev S512x16x256 : Shape := ⟨3, ![512, 16, 256]⟩
abbrev S512x256 : Shape := ⟨2, ![512, 256]⟩
abbrev S4x4096x256 : Shape := ⟨3, ![4, 4096, 256]⟩
abbrev S4x256x4096 : Shape := ⟨3, ![4, 256, 4096]⟩
abbrev S4x256x4096x1 : Shape := ⟨4, ![4, 256, 4096, 1]⟩

abbrev nBuf : Space → Nat
  | .hbm => 92
  | .vmem => 16
  | .smem => 0
  | _ => 0

abbrev bufTy : (tb : Table) → Fin (tcTables nBuf tb) → BufTy
  | .hbm, ⟨0, _⟩ => ⟨S4x128x4096x1, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S2x4x4096x16, .i32⟩
  | .hbm, ⟨6, _⟩ => ⟨S4x128x4096, .f32⟩
  | .hbm, ⟨7, _⟩ => ⟨S4x4096x128, .f32⟩
  | .hbm, ⟨8, _⟩ => ⟨S1x4x4096x16, .i32⟩
  | .hbm, ⟨9, _⟩ => ⟨S4x4096x16, .i32⟩
  | .hbm, ⟨10, _⟩ => ⟨S4x65536, .i32⟩
  | .hbm, ⟨11, _⟩ => ⟨S4x65536x1, .i32⟩
  | .hbm, ⟨12, _⟩ => ⟨S_, .i32⟩
  | .hbm, ⟨13, _⟩ => ⟨S4x65536x1, .i32⟩
  | .hbm, ⟨14, _⟩ => ⟨S4x65536x1, .i1⟩
  | .hbm, ⟨15, _⟩ => ⟨S_, .i32⟩
  | .hbm, ⟨16, _⟩ => ⟨S4x65536x1, .i32⟩
  | .hbm, ⟨17, _⟩ => ⟨S4x65536x1, .i32⟩
  | .hbm, ⟨18, _⟩ => ⟨S4x65536x1, .i32⟩
  | .hbm, ⟨19, _⟩ => ⟨S1, .i32⟩
  | .hbm, ⟨20, _⟩ => ⟨S_, .i32⟩
  | .hbm, ⟨21, _⟩ => ⟨S4x65536x1, .i32⟩
  | .hbm, ⟨22, _⟩ => ⟨S4x65536x1, .i1⟩
  | .hbm, ⟨23, _⟩ => ⟨S1x1x1, .i32⟩
  | .hbm, ⟨24, _⟩ => ⟨S4x65536x1, .i32⟩
  | .hbm, ⟨25, _⟩ => ⟨S4x65536x1, .i1⟩
  | .hbm, ⟨26, _⟩ => ⟨S4x65536x1, .i1⟩
  | .hbm, ⟨27, _⟩ => ⟨S_, .i1⟩
  | .hbm, ⟨28, _⟩ => ⟨S4x65536, .i1⟩
  | .hbm, ⟨29, _⟩ => ⟨S4x65536x128, .f32⟩
  | .hbm, ⟨30, _⟩ => ⟨S4x65536x128, .i1⟩
  | .hbm, ⟨31, _⟩ => ⟨S_, .f32⟩
  | .hbm, ⟨32, _⟩ => ⟨S4x65536x128, .f32⟩
  | .hbm, ⟨33, _⟩ => ⟨S4x65536x128, .f32⟩
  | .hbm, ⟨34, _⟩ => ⟨S4x4096x16x128, .f32⟩
  | .hbm, ⟨35, _⟩ => ⟨S1x4x4096x16, .i32⟩
  | .hbm, ⟨36, _⟩ => ⟨S4x4096x16, .i32⟩
  | .hbm, ⟨37, _⟩ => ⟨S4x65536, .i32⟩
  | .hbm, ⟨38, _⟩ => ⟨S4x65536x1, .i32⟩
  | .hbm, ⟨39, _⟩ => ⟨S_, .i32⟩
  | .hbm, ⟨40, _⟩ => ⟨S4x65536x1, .i32⟩
  | .hbm, ⟨41, _⟩ => ⟨S4x65536x1, .i1⟩
  | .hbm, ⟨42, _⟩ => ⟨S_, .i32⟩
  | .hbm, ⟨43, _⟩ => ⟨S4x65536x1, .i32⟩
  | .hbm, ⟨44, _⟩ => ⟨S4x65536x1, .i32⟩
  | .hbm, ⟨45, _⟩ => ⟨S4x65536x1, .i32⟩
  | .hbm, ⟨46, _⟩ => ⟨S1, .i32⟩
  | .hbm, ⟨47, _⟩ => ⟨S_, .i32⟩
  | .hbm, ⟨48, _⟩ => ⟨S4x65536x1, .i32⟩
  | .hbm, ⟨49, _⟩ => ⟨S4x65536x1, .i1⟩
  | .hbm, ⟨50, _⟩ => ⟨S1x1x1, .i32⟩
  | .hbm, ⟨51, _⟩ => ⟨S4x65536x1, .i32⟩
  | .hbm, ⟨52, _⟩ => ⟨S4x65536x1, .i1⟩
  | .hbm, ⟨53, _⟩ => ⟨S4x65536x1, .i1⟩
  | .hbm, ⟨54, _⟩ => ⟨S_, .i1⟩
  | .hbm, ⟨55, _⟩ => ⟨S4x65536, .i1⟩
  | .hbm, ⟨56, _⟩ => ⟨S4x65536x128, .f32⟩
  | .hbm, ⟨57, _⟩ => ⟨S4x65536x128, .i1⟩
  | .hbm, ⟨58, _⟩ => ⟨S_, .f32⟩
  | .hbm, ⟨59, _⟩ => ⟨S4x65536x128, .f32⟩
  | .hbm, ⟨60, _⟩ => ⟨S4x65536x128, .f32⟩
  | .hbm, ⟨61, _⟩ => ⟨S4x4096x16x128, .f32⟩
  | .hbm, ⟨62, _⟩ => ⟨S4x4096x16x128, .f32⟩
  | .hbm, ⟨63, _⟩ => ⟨S4x4096x16x256, .f32⟩
  | .hbm, ⟨64, _⟩ => ⟨S262144x256, .f32⟩
  | .hbm, ⟨65, _⟩ => ⟨S256x256, .f32⟩
  | .hbm, ⟨66, _⟩ => ⟨S256x256, .bf16⟩
  | .hbm, ⟨67, _⟩ => ⟨S1x256, .f32⟩
  | .hbm, ⟨68, _⟩ => ⟨S262144x256, .bf16⟩
  | .hbm, ⟨69, _⟩ => ⟨S1x256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | .hbm, ⟨74, _⟩ => ⟨S_, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S16384x16x256, .bf16⟩
  | .hbm, ⟨84, _⟩ => ⟨S1x1x256, .f32⟩
  | .hbm, ⟨85, _⟩ => ⟨S1x1x256, .f32⟩
  | .hbm, ⟨86, _⟩ => ⟨S1x1x256, .f32⟩
  | .hbm, ⟨87, _⟩ => ⟨S1x1x256, .f32⟩
  | .hbm, ⟨88, _⟩ => ⟨S16384x256, .f32⟩
  | .hbm, ⟨89, _⟩ => ⟨S4x4096x256, .f32⟩
  | .hbm, ⟨90, _⟩ => ⟨S4x256x4096, .f32⟩
  | .hbm, ⟨91, _⟩ => ⟨S4x256x4096x1, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .bf16⟩
  | .local _ .vmem, ⟨5, _⟩ => ⟨S4096x256, .bf16⟩
  | .local _ .vmem, ⟨6, _⟩ => ⟨S1x256, .f32⟩
  | .local _ .vmem, ⟨7, _⟩ => ⟨S1x256, .f32⟩
  | .local _ .vmem, ⟨8, _⟩ => ⟨S512x16x256, .bf16⟩
  | .local _ .vmem, ⟨9, _⟩ => ⟨S512x16x256, .bf16⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S512x256, .f32⟩
  | .local _ .vmem, ⟨15, _⟩ => ⟨S512x256, .f32⟩
  | _, _ => ⟨S4x128x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20_0 : Ref sig .tc := ⟨.hbm, 68, rfl⟩
abbrev main_v20_1 : Ref sig .tc := ⟨.hbm, 69, rfl⟩
abbrev main_v20_2 : Ref sig .tc := ⟨.hbm, 70, rfl⟩
abbrev main_cst : Ref sig .tc := ⟨.hbm, 71, rfl⟩
abbrev main_v21 : Ref sig .tc := ⟨.hbm, 72, rfl⟩
abbrev main_v22 : Ref sig .tc := ⟨.hbm, 73, rfl⟩
abbrev main_cst_0 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_1 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x16x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x128x4096x1_S4x128x4096 : S4x128x4096x1.ShapeCasts S4x128x4096
  transposes_S4x128x4096_S4x4096x128_0_2_1 : S4x128x4096.Transposes [0, 2, 1] S4x4096x128
  slices_S2x4x4096x16_S1x4x4096x16_1_0_0_0 : S2x4x4096x16.Slices ![1, 0, 0, 0] S1x4x4096x16
  shapeCasts_S1x4x4096x16_S4x4096x16 : S1x4x4096x16.ShapeCasts S4x4096x16
  shapeCasts_S4x4096x16_S4x65536 : S4x4096x16.ShapeCasts S4x65536
  bcast_S4x65536_S4x65536x1_0_1 : S4x65536.BroadcastsInDim S4x65536x1 (![0, 1] : Fin 2 → Fin S4x65536x1.rank)
  bcast_S_S4x65536x1 : S_.BroadcastsInDim S4x65536x1 (![] : Fin 0 → Fin S4x65536x1.rank)
  bcast_S1_S1x1x1_2 : S1.BroadcastsInDim S1x1x1 (![2] : Fin 1 → Fin S1x1x1.rank)
  bcast_S1x1x1_S4x65536x1_0_1_2 : S1x1x1.BroadcastsInDim S4x65536x1 (![0, 1, 2] : Fin 3 → Fin S4x65536x1.rank)
  reducesTo_S4x65536x1_S4x65536_d2 : S4x65536x1.ReducesTo [2] S4x65536
  h_S_ : 0 < S_.numel
  bcast_S4x65536_S4x65536x128_0_1 : S4x65536.BroadcastsInDim S4x65536x128 (![0, 1] : Fin 2 → Fin S4x65536x128.rank)
  bcast_S_S4x65536x128 : S_.BroadcastsInDim S4x65536x128 (![] : Fin 0 → Fin S4x65536x128.rank)
  shapeCasts_S4x65536x128_S4x4096x16x128 : S4x65536x128.ShapeCasts S4x4096x16x128
  slices_S2x4x4096x16_S1x4x4096x16_0_0_0_0 : S2x4x4096x16.Slices ![0, 0, 0, 0] S1x4x4096x16
  concatenates_S4x4096x16x128_S4x4096x16x128_S4x4096x16x256_d3 : Shape.Concatenates [S4x4096x16x128, S4x4096x16x128] S4x4096x16x256 3
  shapeCasts_S4x4096x16x256_S262144x256 : S4x4096x16x256.ShapeCasts S262144x256
  transposes_S256x256_S256x256_1_0 : S256x256.Transposes [1, 0] S256x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1x256_S1x256 : S1x256.ShapeCasts S1x256
  broadcasts_S1x256_S4096x256 : S1x256.Broadcasts S4096x256
  reduces_S4096x256_S256 : S4096x256.Reduces [0] S256
  packedbf16_S4096x256_S4096x256_0_0 : (Rect.unit (s := S4096x256) ![0, 0] S4096x256.size inb_S4096x256_S4096x256_0_0).PackedRows (EltTy.packing .bf16)
  bcast_S_S1x256 : S_.BroadcastsInDim S1x256 (![] : Fin 0 → Fin S1x256.rank)
  shapeCasts_S262144x256_S16384x16x256 : S262144x256.ShapeCasts S16384x16x256
  shapeCasts_S1x256_S1x1x256 : S1x256.ShapeCasts S1x1x256
  shapeCasts_S256_S1x1x256 : S256.ShapeCasts S1x1x256
  inb_S512x16x256_S512x16x256_0_0_0 : ∀ a, (![0, 0, 0] : Fin 3 → Nat) a + S512x16x256.size a ≤ S512x16x256.size a
  h_S512x16x256 : 0 < S512x16x256.numel
  shapeCasts_S512x16x256_S512x16x256 : S512x16x256.ShapeCasts S512x16x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S512x16x256 : S1x1x256.Broadcasts S512x16x256
  reduces_S512x16x256_S512x256 : S512x16x256.Reduces [1] S512x256
  inb_S512x256_S512x256_0_0 : ∀ a, (![0, 0] : Fin 2 → Nat) a + S512x256.size a ≤ S512x256.size a
  h_S512x256 : 0 < S512x256.numel
  shapeCasts_S16384x256_S4x4096x256 : S16384x256.ShapeCasts S4x4096x256
  transposes_S4x4096x256_S4x256x4096_0_2_1 : S4x4096x256.Transposes [0, 2, 1] S4x256x4096
  bcast_S4x256x4096_S4x256x4096x1_0_1_2 : S4x256x4096.BroadcastsInDim S4x256x4096x1 (![0, 1, 2] : Fin 3 → Fin S4x256x4096x1.rank)
  gather_S4x4096x128_S4x65536x1_S4x65536x128_2_1_0_0_1_2_11128_wf : GatherDims.WF S4x4096x128 S4x65536x1 S4x65536x128 [2] [1] [0] [1] [0] 2 ![1, 1, 128]
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .bf16 = 32 ∨ (Rect.block (s := S262144x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x16x256.size a ≤ S16384x16x256.size a
  hwx1_0 : ∀ i : grid1.Coords, EltTy.bits .bf16 = 32 ∨ (Rect.block (s := S16384x16x256) S512x16x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x256.size a ≤ S1x1x256.size a
  hwx1_1 : ∀ i : grid1.Coords, EltTy.bits .f32 = 32 ∨ (Rect.block (s := S1x1x256) S1x1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S1x1x256.size a
  hwx1_2 : ∀ i : grid1.Coords, EltTy.bits .f32 = 32 ∨ (Rect.block (s := S1x1x256) S1x1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S1x1x256.size a
  hwx1_3 : ∀ i : grid1.Coords, EltTy.bits .f32 = 32 ∨ (Rect.block (s := S1x1x256) S1x1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S1x1x256.size a
  hwx1_4 : ∀ i : grid1.Coords, EltTy.bits .f32 = 32 ∨ (Rect.block (s := S1x1x256) S1x1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S16384x256.size a
  hwx1_5 : ∀ i : grid1.Coords, EltTy.bits .f32 = 32 ∨ (Rect.block (s := S16384x256) S512x256.size (cc1_transform_5 i) (hinb1_5 i)).WholeWords (EltTy.packing .f32)

variable [Facts₀]

def gather_S4x4096x128_S4x65536x1_S4x65536x128_2_1_0_0_1_2_11128 : GatherDims S4x4096x128 S4x65536x1 S4x65536x128 where
  offsetDims := [2]
  collapsedSliceDims := [1]
  operandBatchingDims := [0]
  startIndicesBatchingDims := [0]
  startIndexMap := [1]
  indexVectorDim := 2
  sliceSizes := ![1, 1, 128]
  wf := gather_S4x4096x128_S4x65536x1_S4x65536x128_2_1_0_0_1_2_11128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v16) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S4096x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S512x16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x128x4096x1 : Shape := ⟨4, ![4, 128, 4096, 1]⟩
abbrev S256x256 : Shape := ⟨2, ![256, 256]⟩
abbrev S256 : Shape := ⟨1, ![256]⟩
abbrev S2x4x4096x16 : Shape := ⟨4, ![2, 4, 4096, 16]⟩
abbrev S4x128x4096 : Shape := ⟨3, ![4, 128, 4096]⟩
abbrev S4x4096x128 : Shape := ⟨3, ![4, 4096, 128]⟩
abbrev S1x4x4096x16 : Shape := ⟨4, ![1, 4, 4096, 16]⟩
abbrev S4x4096x16 : Shape := ⟨3, ![4, 4096, 16]⟩
abbrev S4x65536 : Shape := ⟨2, ![4, 65536]⟩
abbrev S4x65536x1 : Shape := ⟨3, ![4, 65536, 1]⟩
abbrev S_ : Shape := ⟨0, ![]⟩
abbrev S1 : Shape := ⟨1, ![1]⟩
abbrev S1x1x1 : Shape := ⟨3, ![1, 1, 1]⟩
abbrev S4x65536x128 : Shape := ⟨3, ![4, 65536, 128]⟩
abbrev S4x4096x16x128 : Shape := ⟨4, ![4, 4096, 16, 128]⟩
abbrev S4x4096x16x256 : Shape := ⟨4, ![4, 4096, 16, 256]⟩
abbrev S1x1x1x256 : Shape := ⟨4, ![1, 1, 1, 256]⟩
abbrev S4x4096x256 : Shape := ⟨3, ![4, 4096, 256]⟩
abbrev S4x256x4096 : Shape := ⟨3, ![4, 256, 4096]⟩
abbrev S4x256x4096x1 : Shape := ⟨4, ![4, 256, 4096, 1]⟩

abbrev nBuf : Space → Nat
  | .hbm => 104
  | .vmem => 0
  | .smem => 0
  | _ => 0

abbrev bufTy : (tb : Table) → Fin (tcTables nBuf tb) → BufTy
  | .hbm, ⟨0, _⟩ => ⟨S4x128x4096x1, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S2x4x4096x16, .i32⟩
  | .hbm, ⟨6, _⟩ => ⟨S4x128x4096, .f32⟩
  | .hbm, ⟨7, _⟩ => ⟨S4x4096x128, .f32⟩
  | .hbm, ⟨8, _⟩ => ⟨S1x4x4096x16, .i32⟩
  | .hbm, ⟨9, _⟩ => ⟨S4x4096x16, .i32⟩
  | .hbm, ⟨10, _⟩ => ⟨S4x65536, .i32⟩
  | .hbm, ⟨11, _⟩ => ⟨S4x65536x1, .i32⟩
  | .hbm, ⟨12, _⟩ => ⟨S_, .i32⟩
  | .hbm, ⟨13, _⟩ => ⟨S4x65536x1, .i32⟩
  | .hbm, ⟨14, _⟩ => ⟨S4x65536x1, .i1⟩
  | .hbm, ⟨15, _⟩ => ⟨S_, .i32⟩
  | .hbm, ⟨16, _⟩ => ⟨S4x65536x1, .i32⟩
  | .hbm, ⟨17, _⟩ => ⟨S4x65536x1, .i32⟩
  | .hbm, ⟨18, _⟩ => ⟨S4x65536x1, .i32⟩
  | .hbm, ⟨19, _⟩ => ⟨S1, .i32⟩
  | .hbm, ⟨20, _⟩ => ⟨S_, .i32⟩
  | .hbm, ⟨21, _⟩ => ⟨S4x65536x1, .i32⟩
  | .hbm, ⟨22, _⟩ => ⟨S4x65536x1, .i1⟩
  | .hbm, ⟨23, _⟩ => ⟨S1x1x1, .i32⟩
  | .hbm, ⟨24, _⟩ => ⟨S4x65536x1, .i32⟩
  | .hbm, ⟨25, _⟩ => ⟨S4x65536x1, .i1⟩
  | .hbm, ⟨26, _⟩ => ⟨S4x65536x1, .i1⟩
  | .hbm, ⟨27, _⟩ => ⟨S_, .i1⟩
  | .hbm, ⟨28, _⟩ => ⟨S4x65536, .i1⟩
  | .hbm, ⟨29, _⟩ => ⟨S4x65536x128, .f32⟩
  | .hbm, ⟨30, _⟩ => ⟨S4x65536x128, .i1⟩
  | .hbm, ⟨31, _⟩ => ⟨S_, .f32⟩
  | .hbm, ⟨32, _⟩ => ⟨S4x65536x128, .f32⟩
  | .hbm, ⟨33, _⟩ => ⟨S4x65536x128, .f32⟩
  | .hbm, ⟨34, _⟩ => ⟨S4x4096x16x128, .f32⟩
  | .hbm, ⟨35, _⟩ => ⟨S1x4x4096x16, .i32⟩
  | .hbm, ⟨36, _⟩ => ⟨S4x4096x16, .i32⟩
  | .hbm, ⟨37, _⟩ => ⟨S4x65536, .i32⟩
  | .hbm, ⟨38, _⟩ => ⟨S4x65536x1, .i32⟩
  | .hbm, ⟨39, _⟩ => ⟨S_, .i32⟩
  | .hbm, ⟨40, _⟩ => ⟨S4x65536x1, .i32⟩
  | .hbm, ⟨41, _⟩ => ⟨S4x65536x1, .i1⟩
  | .hbm, ⟨42, _⟩ => ⟨S_, .i32⟩
  | .hbm, ⟨43, _⟩ => ⟨S4x65536x1, .i32⟩
  | .hbm, ⟨44, _⟩ => ⟨S4x65536x1, .i32⟩
  | .hbm, ⟨45, _⟩ => ⟨S4x65536x1, .i32⟩
  | .hbm, ⟨46, _⟩ => ⟨S1, .i32⟩
  | .hbm, ⟨47, _⟩ => ⟨S_, .i32⟩
  | .hbm, ⟨48, _⟩ => ⟨S4x65536x1, .i32⟩
  | .hbm, ⟨49, _⟩ => ⟨S4x65536x1, .i1⟩
  | .hbm, ⟨50, _⟩ => ⟨S1x1x1, .i32⟩
  | .hbm, ⟨51, _⟩ => ⟨S4x65536x1, .i32⟩
  | .hbm, ⟨52, _⟩ => ⟨S4x65536x1, .i1⟩
  | .hbm, ⟨53, _⟩ => ⟨S4x65536x1, .i1⟩
  | .hbm, ⟨54, _⟩ => ⟨S_, .i1⟩
  | .hbm, ⟨55, _⟩ => ⟨S4x65536, .i1⟩
  | .hbm, ⟨56, _⟩ => ⟨S4x65536x128, .f32⟩
  | .hbm, ⟨57, _⟩ => ⟨S4x65536x128, .i1⟩
  | .hbm, ⟨58, _⟩ => ⟨S_, .f32⟩
  | .hbm, ⟨59, _⟩ => ⟨S4x65536x128, .f32⟩
  | .hbm, ⟨60, _⟩ => ⟨S4x65536x128, .f32⟩
  | .hbm, ⟨61, _⟩ => ⟨S4x4096x16x128, .f32⟩
  | .hbm, ⟨62, _⟩ => ⟨S4x4096x16x128, .f32⟩
  | .hbm, ⟨63, _⟩ => ⟨S4x4096x16x256, .f32⟩
  | .hbm, ⟨64, _⟩ => ⟨S4x4096x16x256, .f32⟩
  | .hbm, ⟨65, _⟩ => ⟨S1x1x1x256, .f32⟩
  | .hbm, ⟨66, _⟩ => ⟨S4x4096x16x256, .f32⟩
  | .hbm, ⟨67, _⟩ => ⟨S4x4096x16x256, .f32⟩
  | .hbm, ⟨68, _⟩ => ⟨S_, .f32⟩
  | .hbm, ⟨69, _⟩ => ⟨S4x4096x16x256, .f32⟩
  | .hbm, ⟨70, _⟩ => ⟨S4x4096x16x256, .f32⟩
  | .hbm, ⟨71, _⟩ => ⟨S_, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S4x4096x16x256, .f32⟩
  | .hbm, ⟨77, _⟩ => ⟨S_, .f32⟩
  | .hbm, ⟨78, _⟩ => ⟨S256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S1x1x1x256, .f32⟩
  | .hbm, ⟨85, _⟩ => ⟨S4x4096x16x256, .f32⟩
  | .hbm, ⟨86, _⟩ => ⟨S4x4096x16x256, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S1x1x1x256, .f32⟩
  | .hbm, ⟨92, _⟩ => ⟨S4x4096x16x256, .f32⟩
  | .hbm, ⟨93, _⟩ => ⟨S4x4096x16x256, .f32⟩
  | .hbm, ⟨94, _⟩ => ⟨S1x1x1x256, .f32⟩
  | .hbm, ⟨95, _⟩ => ⟨S4x4096x16x256, .f32⟩
  | .hbm, ⟨96, _⟩ => ⟨S4x4096x16x256, .f32⟩
  | .hbm, ⟨97, _⟩ => ⟨S1x1x1x256, .f32⟩
  | .hbm, ⟨98, _⟩ => ⟨S4x4096x16x256, .f32⟩
  | .hbm, ⟨99, _⟩ => ⟨S4x4096x16x256, .f32⟩
  | .hbm, ⟨100, _⟩ => ⟨S_, .f32⟩
  | .hbm, ⟨101, _⟩ => ⟨S4x4096x256, .f32⟩
  | .hbm, ⟨102, _⟩ => ⟨S4x256x4096, .f32⟩
  | .hbm, ⟨103, _⟩ => ⟨S4x256x4096x1, .f32⟩
  | _, _ => ⟨S4x128x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_call2_cst : Ref sig .tc := ⟨.hbm, 68, rfl⟩
abbrev main_call2_v0 : Ref sig .tc := ⟨.hbm, 69, rfl⟩
abbrev main_v20 : Ref sig .tc := ⟨.hbm, 70, rfl⟩
abbrev main_cst : Ref sig .tc := ⟨.hbm, 71, rfl⟩
abbrev main_v21 : Ref sig .tc := ⟨.hbm, 72, rfl⟩
abbrev main_cst_0 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_1 : Ref sig .tc := ⟨.hbm, 77, rfl⟩
abbrev main_v25 : Ref sig .tc := ⟨.hbm, 78, rfl⟩
abbrev main_cst_2 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_cst_3 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_4 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩

abbrev nD : Nat := 1
abbrev τ : Topo := Topo.v7x

variable {F : FTy → Type} [FloatOps F]

class Facts₀ : Prop where
  shapeCasts_S4x128x4096x1_S4x128x4096 : S4x128x4096x1.ShapeCasts S4x128x4096
  transposes_S4x128x4096_S4x4096x128_0_2_1 : S4x128x4096.Transposes [0, 2, 1] S4x4096x128
  slices_S2x4x4096x16_S1x4x4096x16_1_0_0_0 : S2x4x4096x16.Slices ![1, 0, 0, 0] S1x4x4096x16
  shapeCasts_S1x4x4096x16_S4x4096x16 : S1x4x4096x16.ShapeCasts S4x4096x16
  shapeCasts_S4x4096x16_S4x65536 : S4x4096x16.ShapeCasts S4x65536
  bcast_S4x65536_S4x65536x1_0_1 : S4x65536.BroadcastsInDim S4x65536x1 (![0, 1] : Fin 2 → Fin S4x65536x1.rank)
  bcast_S_S4x65536x1 : S_.BroadcastsInDim S4x65536x1 (![] : Fin 0 → Fin S4x65536x1.rank)
  bcast_S1_S1x1x1_2 : S1.BroadcastsInDim S1x1x1 (![2] : Fin 1 → Fin S1x1x1.rank)
  bcast_S1x1x1_S4x65536x1_0_1_2 : S1x1x1.BroadcastsInDim S4x65536x1 (![0, 1, 2] : Fin 3 → Fin S4x65536x1.rank)
  reducesTo_S4x65536x1_S4x65536_d2 : S4x65536x1.ReducesTo [2] S4x65536
  h_S_ : 0 < S_.numel
  bcast_S4x65536_S4x65536x128_0_1 : S4x65536.BroadcastsInDim S4x65536x128 (![0, 1] : Fin 2 → Fin S4x65536x128.rank)
  bcast_S_S4x65536x128 : S_.BroadcastsInDim S4x65536x128 (![] : Fin 0 → Fin S4x65536x128.rank)
  shapeCasts_S4x65536x128_S4x4096x16x128 : S4x65536x128.ShapeCasts S4x4096x16x128
  slices_S2x4x4096x16_S1x4x4096x16_0_0_0_0 : S2x4x4096x16.Slices ![0, 0, 0, 0] S1x4x4096x16
  concatenates_S4x4096x16x128_S4x4096x16x128_S4x4096x16x256_d3 : Shape.Concatenates [S4x4096x16x128, S4x4096x16x128] S4x4096x16x256 3
  bcast_S256_S1x1x1x256_3 : S256.BroadcastsInDim S1x1x1x256 (![3] : Fin 1 → Fin S1x1x1x256.rank)
  bcast_S1x1x1x256_S4x4096x16x256_0_1_2_3 : S1x1x1x256.BroadcastsInDim S4x4096x16x256 (![0, 1, 2, 3] : Fin 4 → Fin S4x4096x16x256.rank)
  bcast_S_S4x4096x16x256 : S_.BroadcastsInDim S4x4096x16x256 (![] : Fin 0 → Fin S4x4096x16x256.rank)
  reducesTo_S4x4096x16x256_S256_d0_1_2 : S4x4096x16x256.ReducesTo [0, 1, 2] S256
  bcast_S_S256 : S_.BroadcastsInDim S256 (![] : Fin 0 → Fin S256.rank)
  reducesTo_S4x4096x16x256_S4x4096x256_d2 : S4x4096x16x256.ReducesTo [2] S4x4096x256
  transposes_S4x4096x256_S4x256x4096_0_2_1 : S4x4096x256.Transposes [0, 2, 1] S4x256x4096
  bcast_S4x256x4096_S4x256x4096x1_0_1_2 : S4x256x4096.BroadcastsInDim S4x256x4096x1 (![0, 1, 2] : Fin 3 → Fin S4x256x4096x1.rank)
  gather_S4x4096x128_S4x65536x1_S4x65536x128_2_1_0_0_1_2_11128_wf : GatherDims.WF S4x4096x128 S4x65536x1 S4x65536x128 [2] [1] [0] [1] [0] 2 ![1, 1, 128]
  dot_S4x4096x16x256_S256x256_S4x4096x16x256_3_1_012_0_n_n_wf : DotDims.WF S4x4096x16x256 S256x256 S4x4096x16x256 [3] [1] [0, 1, 2] [0] [] []

variable [Facts₀]

def gather_S4x4096x128_S4x65536x1_S4x65536x128_2_1_0_0_1_2_11128 : GatherDims S4x4096x128 S4x65536x1 S4x65536x128 where
  offsetDims := [2]
  collapsedSliceDims := [1]
  operandBatchingDims := [0]
  startIndicesBatchingDims := [0]
  startIndexMap := [1]
  indexVectorDim := 2
  sliceSizes := ![1, 1, 128]
  wf := gather_S4x4096x128_S4x65536x1_S4x65536x128_2_1_0_0_1_2_11128_wf
def dot_S4x4096x16x256_S256x256_S4x4096x16x256_3_1_012_0_n_n : DotDims S4x4096x16x256 S256x256 S4x4096x16x256 where
  lhsContracting := [3]
  rhsContracting := [1]
  lhsNonContracting := [0, 1, 2]
  rhsNonContracting := [0]
  lhsBatch := []
  rhsBatch := []
  wf := dot_S4x4096x16x256_S256x256_S4x4096x16x256_3_1_012_0_n_n_wf

class Facts : Prop extends Facts₀ where

variable [Facts]
-- ==== Proof.KernelRun.lean ====
/-
  The idealized kernel program's run with its result named.

  The program is a sequence of segments — stretches of host operations and two grid launches — and the contents of every
  buffer at each segment boundary is a fold from the launch memory: a stretch applies its operations, a launch leaves each
  of its arrays at what its write-backs produce. The last boundary's contents is `W9`. Every weakly fair execution
  terminates without a fault in a state whose unscoped buffers hold exactly that; read at the result buffer this names the
  result, and read at the six argument buffers it gives them back as launched.
-/
import proofs.«101132_j28475633173124_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.ReferenceRun.lean ====
/-
  The reference program's run, with its result read back.

  The program is a straight line of 98 host operations, so every weakly fair execution terminates with each buffer at the
  fold of the operations' results over the launch contents. The result buffer is read in two stages, cut at the
  concatenation that joins the two gathered feature halves. Before the cut, the two halves are each a function of the two
  argument arrays they are gathered from (the input and the edge index), and no argument array is written. From the cut on,
  every buffer is a function of those two halves and of the weight, bias, scale and shift arrays, whatever the contents
  before the cut were. Composing the two stages gives the result as one function of the six argument arrays: the last of
  the per-operation stages `val_main_v47`. (Operations inside an outlined function act at references that carry their
  value's type; the transports along that type equation are identities and are removed by rewriting before two terms are
  compared, so that no reduction over a long axis is ever unfolded.)
-/
import proofs.«101132_j28475633173124_1_alg».proof.Proof.Gen.ReferenceIdeal
import proofs.«101132_j28475633173124_1_alg».proof.Proof.ReferenceRead
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The program's 98 operations, in order (an outlined function's operations stand in its call's place). -/
abbrev ops : List (HloOp τ sig (Elt F)) :=
  [ reshape main_arg0 main_v0 rfl shapeCasts_S4x128x4096x1_S4x128x4096,
    unary main_v0 main_v1 ((transpose S4x4096x128 [0, 2, 1] · transposes_S4x128x4096_S4x4096x128_0_2_1) : (⟨S4x128x4096, .f32⟩ : BufTy).Contents (Elt F) → (⟨S4x4096x128, .f32⟩ : BufTy).Contents (Elt F)),
    unary main_arg5 main_v2 ((extractStridedSlice S1x4x4096x16 ![1, 0, 0, 0] · slices_S2x4x4096x16_S1x4x4096x16_1_0_0_0) : (⟨S2x4x4096x16, .i32⟩ : BufTy).Contents (Elt F) → (⟨S1x4x4096x16, .i32⟩ : BufTy).Contents (Elt F)),
    reshape main_v2 main_v3 rfl shapeCasts_S1x4x4096x16_S4x4096x16,
    reshape main_v3 main_v4 rfl shapeCasts_S4x4096x16_S4x65536,
    unary main_v4 main_v5 (broadcastInDim S4x65536x1 ![0, 1] bcast_S4x65536_S4x65536x1_0_1 : (⟨S4x65536, .i32⟩ : BufTy).Contents (Elt F) → (⟨S4x65536x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x65536x1, .i32⟩) main_call0_v0) (broadcastInDim S4x65536x1 ![] bcast_S_S4x65536x1),
    TRef.binary (TRef.of (T := ⟨S4x65536x1, .i32⟩) main_v5) (TRef.of (T := ⟨S4x65536x1, .i32⟩) main_call0_v0) (TRef.of (T := ⟨S4x65536x1, .i1⟩) main_call0_v1) (cmpi .slt),
    TRef.nullary (TRef.of (T := ⟨S_, .i32⟩) main_call0_c_0) (constantI S_ 32 4096#32),
    TRef.unary (TRef.of (T := ⟨S_, .i32⟩) main_call0_c_0) (TRef.of (T := ⟨S4x65536x1, .i32⟩) main_call0_v2) (broadcastInDim S4x65536x1 ![] bcast_S_S4x65536x1),
    TRef.binary (TRef.of (T := ⟨S4x65536x1, .i32⟩) main_v5) (TRef.of (T := ⟨S4x65536x1, .i32⟩) main_call0_v2) (TRef.of (T := ⟨S4x65536x1, .i32⟩) main_call0_v3) addi,
    TRef.ternary (TRef.of (T := ⟨S4x65536x1, .i1⟩) main_call0_v1) (TRef.of (T := ⟨S4x65536x1, .i32⟩) main_call0_v3) (TRef.of (T := ⟨S4x65536x1, .i32⟩) main_v5) (TRef.of (T := ⟨S4x65536x1, .i32⟩) main_call0_v4) select,
    TRef.nullary (TRef.of (T := ⟨S1, .i32⟩) main_call0_c_1) (constantI S1 32 4095#32),
    TRef.nullary (TRef.of (T := ⟨S_, .i32⟩) main_call0_c_2) (constantI S_ 32 0#32),
    TRef.unary (TRef.of (T := ⟨S_, .i32⟩) main_call0_c_2) (TRef.of (T := ⟨S4x65536x1, .i32⟩) main_call0_v5) (broadcastInDim S4x65536x1 ![] bcast_S_S4x65536x1),
    TRef.binary (TRef.of (T := ⟨S4x65536x1, .i32⟩) main_call0_v4) (TRef.of (T := ⟨S4x65536x1, .i32⟩) main_call0_v5) (TRef.of (T := ⟨S4x65536x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x65536x1, .i32⟩) main_call0_v8) (broadcastInDim S4x65536x1 ![0, 1, 2] bcast_S1x1x1_S4x65536x1_0_1_2),
    TRef.binary (TRef.of (T := ⟨S4x65536x1, .i32⟩) main_call0_v4) (TRef.of (T := ⟨S4x65536x1, .i32⟩) main_call0_v8) (TRef.of (T := ⟨S4x65536x1, .i1⟩) main_call0_v9) (cmpi .sle),
    TRef.binary (TRef.of (T := ⟨S4x65536x1, .i1⟩) main_call0_v6) (TRef.of (T := ⟨S4x65536x1, .i1⟩) main_call0_v9) (TRef.of (T := ⟨S4x65536x1, .i1⟩) main_call0_v10) andi,
    TRef.nullary (TRef.of (T := ⟨S_, .i1⟩) main_call0_c_3) (constantI S_ 1 1#1),
    TRef.binary (TRef.of (T := ⟨S4x65536x1, .i1⟩) main_call0_v10) (TRef.of (T := ⟨S_, .i1⟩) main_call0_c_3) (TRef.of (T := ⟨S4x65536, .i1⟩) main_call0_v11) (fun x v => Host.reduce IntOp.andi x v reducesTo_S4x65536x1_S4x65536_d2 h_S_),
    TRef.binary (TRef.of (T := ⟨S4x4096x128, .f32⟩) main_v1) (TRef.of (T := ⟨S4x65536x1, .i32⟩) main_call0_v4) (TRef.of (T := ⟨S4x65536x128, .f32⟩) main_call0_v12) (fun x i => Host.gather gather_S4x4096x128_S4x65536x1_S4x65536x128_2_1_0_0_1_2_11128 x i),
    TRef.unary (TRef.of (T := ⟨S4x65536, .i1⟩) main_call0_v11) (TRef.of (T := ⟨S4x65536x128, .i1⟩) main_call0_v13) (broadcastInDim S4x65536x128 ![0, 1] bcast_S4x65536_S4x65536x128_0_1),
    TRef.nullary (TRef.of (T := ⟨S_, .f32⟩) main_call0_cst) (constant S_ .f32 0x7FC00000#32),
    TRef.unary (TRef.of (T := ⟨S_, .f32⟩) main_call0_cst) (TRef.of (T := ⟨S4x65536x128, .f32⟩) main_call0_v14) (broadcastInDim S4x65536x128 ![] bcast_S_S4x65536x128),
    TRef.ternary (TRef.of (T := ⟨S4x65536x128, .i1⟩) main_call0_v13) (TRef.of (T := ⟨S4x65536x128, .f32⟩) main_call0_v12) (TRef.of (T := ⟨S4x65536x128, .f32⟩) main_call0_v14) (TRef.of (T := ⟨S4x65536x128, .f32⟩) main_v6) select,
    reshape main_v6 main_v7 rfl shapeCasts_S4x65536x128_S4x4096x16x128,
    unary main_arg5 main_v8 ((extractStridedSlice S1x4x4096x16 ![0, 0, 0, 0] · slices_S2x4x4096x16_S1x4x4096x16_0_0_0_0) : (⟨S2x4x4096x16, .i32⟩ : BufTy).Contents (Elt F) → (⟨S1x4x4096x16, .i32⟩ : BufTy).Contents (Elt F)),
    reshape main_v8 main_v9 rfl shapeCasts_S1x4x4096x16_S4x4096x16,
    reshape main_v9 main_v10 rfl shapeCasts_S4x4096x16_S4x65536,
    unary main_v10 main_v11 (broadcastInDim S4x65536x1 ![0, 1] bcast_S4x65536_S4x65536x1_0_1 : (⟨S4x65536, .i32⟩ : BufTy).Contents (Elt F) → (⟨S4x65536x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x65536x1, .i32⟩) main_call1_v0) (broadcastInDim S4x65536x1 ![] bcast_S_S4x65536x1),
    TRef.binary (TRef.of (T := ⟨S4x65536x1, .i32⟩) main_v11) (TRef.of (T := ⟨S4x65536x1, .i32⟩) main_call1_v0) (TRef.of (T := ⟨S4x65536x1, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S4x65536x1, .i32⟩) main_call1_v2) (broadcastInDim S4x65536x1 ![] bcast_S_S4x65536x1),
    TRef.binary (TRef.of (T := ⟨S4x65536x1, .i32⟩) main_v11) (TRef.of (T := ⟨S4x65536x1, .i32⟩) main_call1_v2) (TRef.of (T := ⟨S4x65536x1, .i32⟩) main_call1_v3) addi,
    TRef.ternary (TRef.of (T := ⟨S4x65536x1, .i1⟩) main_call1_v1) (TRef.of (T := ⟨S4x65536x1, .i32⟩) main_call1_v3) (TRef.of (T := ⟨S4x65536x1, .i32⟩) main_v11) (TRef.of (T := ⟨S4x65536x1, .i32⟩) main_call1_v4) select,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S4x65536x1, .i32⟩) main_call1_v5) (broadcastInDim S4x65536x1 ![] bcast_S_S4x65536x1),
    TRef.binary (TRef.of (T := ⟨S4x65536x1, .i32⟩) main_call1_v4) (TRef.of (T := ⟨S4x65536x1, .i32⟩) main_call1_v5) (TRef.of (T := ⟨S4x65536x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4x65536x1, .i32⟩) main_call1_v8) (broadcastInDim S4x65536x1 ![0, 1, 2] bcast_S1x1x1_S4x65536x1_0_1_2),
    TRef.binary (TRef.of (T := ⟨S4x65536x1, .i32⟩) main_call1_v4) (TRef.of (T := ⟨S4x65536x1, .i32⟩) main_call1_v8) (TRef.of (T := ⟨S4x65536x1, .i1⟩) main_call1_v9) (cmpi .sle),
    TRef.binary (TRef.of (T := ⟨S4x65536x1, .i1⟩) main_call1_v6) (TRef.of (T := ⟨S4x65536x1, .i1⟩) main_call1_v9) (TRef.of (T := ⟨S4x65536x1, .i1⟩) main_call1_v10) andi,
    TRef.nullary (TRef.of (T := ⟨S_, .i1⟩) main_call1_c_3) (constantI S_ 1 1#1),
    TRef.binary (TRef.of (T := ⟨S4x65536x1, .i1⟩) main_call1_v10) (TRef.of (T := ⟨S_, .i1⟩) main_call1_c_3) (TRef.of (T := ⟨S4x65536, .i1⟩) main_call1_v11) (fun x v => Host.reduce IntOp.andi x v reducesTo_S4x65536x1_S4x65536_d2 h_S_),
    TRef.binary (TRef.of (T := ⟨S4x4096x128, .f32⟩) main_v1) (TRef.of (T := ⟨S4x65536x1, .i32⟩) main_call1_v4) (TRef.of (T := ⟨S4x65536x128, .f32⟩) main_call1_v12) (fun x i => Host.gather gather_S4x4096x128_S4x65536x1_S4x65536x128_2_1_0_0_1_2_11128 x i),
    TRef.unary (TRef.of (T := ⟨S4x65536, .i1⟩) main_call1_v11) (TRef.of (T := ⟨S4x65536x128, .i1⟩) main_call1_v13) (broadcastInDim S4x65536x128 ![0, 1] bcast_S4x65536_S4x65536x128_0_1),
    TRef.nullary (TRef.of (T := ⟨S_, .f32⟩) main_call1_cst) (constant S_ .f32 0x7FC00000#32),
    TRef.unary (TRef.of (T := ⟨S_, .f32⟩) main_call1_cst) (TRef.of (T := ⟨S4x65536x128, .f32⟩) main_call1_v14) (broadcastInDim S4x65536x128 ![] bcast_S_S4x65536x128),
    TRef.ternary (TRef.of (T := ⟨S4x65536x128, .i1⟩) main_call1_v13) (TRef.of (T := ⟨S4x65536x128, .f32⟩) main_call1_v12) (TRef.of (T := ⟨S4x65536x128, .f32⟩) main_call1_v14) (TRef.of (T := ⟨S4x65536x128, .f32⟩) main_v12) select,
    reshape main_v12 main_v13 rfl shapeCasts_S4x65536x128_S4x4096x16x128,
    binary main_v13 main_v7 main_v14 (subf : (⟨S4x4096x16x128, .f32⟩ : BufTy).Contents (Elt F) → (⟨S4x4096x16x128, .f32⟩ : BufTy).Contents (Elt F) → (⟨S4x4096x16x128, .f32⟩ : BufTy).Contents (Elt F)),
    binary main_v7 main_v14 main_v15 ((fun a b => concatenate S4x4096x16x256 3 [⟨S4x4096x16x128, a⟩, ⟨S4x4096x16x128, b⟩] concatenates_S4x4096x16x128_S4x4096x16x128_S4x4096x16x256_d3) : (⟨S4x4096x16x128, .f32⟩ : BufTy).Contents (Elt F) → (⟨S4x4096x16x128, .f32⟩ : BufTy).Contents (Elt F) → (⟨S4x4096x16x256, .f32⟩ : BufTy).Contents (Elt F)),
    binary main_v15 main_arg1 main_v16 ((fun l r => Host.dotGeneral dot_S4x4096x16x256_S256x256_S4x4096x16x256_3_1_012_0_n_n none l r) : (⟨S4x4096x16x256, .f32⟩ : BufTy).Contents (Elt F) → (⟨S256x256, .f32⟩ : BufTy).Contents (Elt F) → (⟨S4x4096x16x256, .f32⟩ : BufTy).Contents (Elt F)),
    unary main_arg2 main_v17 (broadcastInDim S1x1x1x256 ![3] bcast_S256_S1x1x1x256_3 : (⟨S256, .f32⟩ : BufTy).Contents (Elt F) → (⟨S1x1x1x256, .f32⟩ : BufTy).Contents (Elt F)),
    unary main_v17 main_v18 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v16 main_v18 main_v19 (addf : (⟨S4x4096x16x256, .f32⟩ : BufTy).Contents (Elt F) → (⟨S4x4096x16x256, .f32⟩ : BufTy).Contents (Elt F) → (⟨S4x4096x16x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4x4096x16x256, .f32⟩) main_call2_v0) (broadcastInDim S4x4096x16x256 ![] bcast_S_S4x4096x16x256),
    TRef.binary (TRef.of (T := ⟨S4x4096x16x256, .f32⟩) main_v19) (TRef.of (T := ⟨S4x4096x16x256, .f32⟩) main_call2_v0) (TRef.of (T := ⟨S4x4096x16x256, .f32⟩) main_v20) maximumf,
    nullary main_cst (constant S_ .f32 0x00000000#32),
    binary main_v20 main_cst main_v21 ((fun x v => Host.reduceAdd x v reducesTo_S4x4096x16x256_S256_d0_1_2 h_S_) : (⟨S4x4096x16x256, .f32⟩ : BufTy).Contents (Elt F) → (⟨S_, .f32⟩ : BufTy).Contents (Elt F) → (⟨S256, .f32⟩ : BufTy).Contents (Elt F)),
    nullary main_cst_0 (constant S_ .f32 0x48800000#32),
    unary main_cst_0 main_v22 (broadcastInDim S256 ![] bcast_S_S256 : (⟨S_, .f32⟩ : BufTy).Contents (Elt F) → (⟨S256, .f32⟩ : BufTy).Contents (Elt F)),
    binary main_v21 main_v22 main_v23 (Host.divf : (⟨S256, .f32⟩ : BufTy).Contents (Elt F) → (⟨S256, .f32⟩ : BufTy).Contents (Elt F) → (⟨S256, .f32⟩ : BufTy).Contents (Elt F)),
    binary main_v20 main_v20 main_v24 (mulf : (⟨S4x4096x16x256, .f32⟩ : BufTy).Contents (Elt F) → (⟨S4x4096x16x256, .f32⟩ : BufTy).Contents (Elt F) → (⟨S4x4096x16x256, .f32⟩ : BufTy).Contents (Elt F)),
    nullary main_cst_1 (constant S_ .f32 0x00000000#32),
    binary main_v24 main_cst_1 main_v25 ((fun x v => Host.reduceAdd x v reducesTo_S4x4096x16x256_S256_d0_1_2 h_S_) : (⟨S4x4096x16x256, .f32⟩ : BufTy).Contents (Elt F) → (⟨S_, .f32⟩ : BufTy).Contents (Elt F) → (⟨S256, .f32⟩ : BufTy).Contents (Elt F)),
    nullary main_cst_2 (constant S_ .f32 0x48800000#32),
    unary main_cst_2 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    binary main_v23 main_v23 main_v28 (mulf : (⟨S256, .f32⟩ : BufTy).Contents (Elt F) → (⟨S256, .f32⟩ : BufTy).Contents (Elt F) → (⟨S256, .f32⟩ : BufTy).Contents (Elt F)),
    binary main_v27 main_v28 main_v29 (subf : (⟨S256, .f32⟩ : BufTy).Contents (Elt F) → (⟨S256, .f32⟩ : BufTy).Contents (Elt F) → (⟨S256, .f32⟩ : BufTy).Contents (Elt F)),
    unary main_v23 main_v30 (broadcastInDim S1x1x1x256 ![3] bcast_S256_S1x1x1x256_3 : (⟨S256, .f32⟩ : BufTy).Contents (Elt F) → (⟨S1x1x1x256, .f32⟩ : BufTy).Contents (Elt F)),
    unary main_v30 main_v31 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v20 main_v31 main_v32 (subf : (⟨S4x4096x16x256, .f32⟩ : BufTy).Contents (Elt F) → (⟨S4x4096x16x256, .f32⟩ : BufTy).Contents (Elt F) → (⟨S4x4096x16x256, .f32⟩ : BufTy).Contents (Elt F)),
    nullary main_cst_3 (constant S_ .f32 0x3727C5AC#32),
    unary main_cst_3 main_v33 (broadcastInDim S256 ![] bcast_S_S256 : (⟨S_, .f32⟩ : BufTy).Contents (Elt F) → (⟨S256, .f32⟩ : BufTy).Contents (Elt F)),
    binary main_v29 main_v33 main_v34 (addf : (⟨S256, .f32⟩ : BufTy).Contents (Elt F) → (⟨S256, .f32⟩ : BufTy).Contents (Elt F) → (⟨S256, .f32⟩ : BufTy).Contents (Elt F)),
    unary main_v34 main_v35 (Host.rsqrt : (⟨S256, .f32⟩ : BufTy).Contents (Elt F) → (⟨S256, .f32⟩ : BufTy).Contents (Elt F)),
    unary main_v35 main_v36 (broadcastInDim S1x1x1x256 ![3] bcast_S256_S1x1x1x256_3 : (⟨S256, .f32⟩ : BufTy).Contents (Elt F) → (⟨S1x1x1x256, .f32⟩ : BufTy).Contents (Elt F)),
    unary main_v36 main_v37 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v32 main_v37 main_v38 (mulf : (⟨S4x4096x16x256, .f32⟩ : BufTy).Contents (Elt F) → (⟨S4x4096x16x256, .f32⟩ : BufTy).Contents (Elt F) → (⟨S4x4096x16x256, .f32⟩ : BufTy).Contents (Elt F)),
    unary main_arg3 main_v39 (broadcastInDim S1x1x1x256 ![3] bcast_S256_S1x1x1x256_3 : (⟨S256, .f32⟩ : BufTy).Contents (Elt F) → (⟨S1x1x1x256, .f32⟩ : BufTy).Contents (Elt F)),
    unary main_v39 main_v40 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v38 main_v40 main_v41 (mulf : (⟨S4x4096x16x256, .f32⟩ : BufTy).Contents (Elt F) → (⟨S4x4096x16x256, .f32⟩ : BufTy).Contents (Elt F) → (⟨S4x4096x16x256, .f32⟩ : BufTy).Contents (Elt F)),
    unary main_arg4 main_v42 (broadcastInDim S1x1x1x256 ![3] bcast_S256_S1x1x1x256_3 : (⟨S256, .f32⟩ : BufTy).Contents (Elt F) → (⟨S1x1x1x256, .f32⟩ : BufTy).Contents (Elt F)),
    unary main_v42 main_v43 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v41 main_v43 main_v44 (addf : (⟨S4x4096x16x256, .f32⟩ : BufTy).Contents (Elt F) → (⟨S4x4096x16x256, .f32⟩ : BufTy).Contents (Elt F) → (⟨S4x4096x16x256, .f32⟩ : BufTy).Contents (Elt F)),
    nullary main_cst_4 (constant S_ .f32 0xFF800000#32),
    binary main_v44 main_cst_4 main_v45 ((fun x v => Host.reduce FloatOps.maximumf x v reducesTo_S4x4096x16x256_S4x4096x256_d2 h_S_) : (⟨S4x4096x16x256, .f32⟩ : BufTy).Contents (Elt F) → (⟨S_, .f32⟩ : BufTy).Contents (Elt F) → (⟨S4x4096x256, .f32⟩ : BufTy).Contents (Elt F)),
    unary main_v45 main_v46 ((transpose S4x256x4096 [0, 2, 1] · transposes_S4x4096x256_S4x256x4096_0_2_1) : (⟨S4x4096x256, .f32⟩ : BufTy).Contents (Elt F) → (⟨S4x256x4096, .f32⟩ : BufTy).Contents (Elt F)),
    unary main_v46 main_v47 (broadcastInDim S4x256x4096x1 ![0, 1, 2] bcast_S4x256x4096_S4x256x4096x1_0_1_2 : (⟨S4x256x4096, .f32⟩ : BufTy).Contents (Elt F) → (⟨S4x256x4096x1, .f32⟩ : BufTy).Contents (Elt F)) ]

/-- The 57 operations before the concatenation: the two gathers and the difference. -/
abbrev opsA : List (HloOp τ sig (Elt F)) :=
  [ reshape main_arg0 main_v0 rfl shapeCasts_S4x128x4096x1_S4x128x4096,
    unary main_v0 main_v1 ((transpose S4x4096x128 [0, 2, 1] · transposes_S4x128x4096_S4x4096x128_0_2_1) : (⟨S4x128x4096, .f32⟩ : BufTy).Contents (Elt F) → (⟨S4x4096x128, .f32⟩ : BufTy).Contents (Elt F)),
    unary main_arg5 main_v2 ((extractStridedSlice S1x4x4096x16 ![1, 0, 0, 0] · slices_S2x4x4096x16_S1x4x4096x16_1_0_0_0) : (⟨S2x4x4096x16, .i32⟩ : BufTy).Contents (Elt F) → (⟨S1x4x4096x16, .i32⟩ : BufTy).Contents (Elt F)),
    reshape main_v2 main_v3 rfl shapeCasts_S1x4x4096x16_S4x4096x16,
    reshape main_v3 main_v4 rfl shapeCasts_S4x4096x16_S4x65536,
    unary main_v4 main_v5 (broadcastInDim S4x65536x1 ![0, 1] bcast_S4x65536_S4x65536x1_0_1 : (⟨S4x65536, .i32⟩ : BufTy).Contents (Elt F) → (⟨S4x65536x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x65536x1, .i32⟩) main_call0_v0) (broadcastInDim S4x65536x1 ![] bcast_S_S4x65536x1),
    TRef.binary (TRef.of (T := ⟨S4x65536x1, .i32⟩) main_v5) (TRef.of (T := ⟨S4x65536x1, .i32⟩) main_call0_v0) (TRef.of (T := ⟨S4x65536x1, .i1⟩) main_call0_v1) (cmpi .slt),
    TRef.nullary (TRef.of (T := ⟨S_, .i32⟩) main_call0_c_0) (constantI S_ 32 4096#32),
    TRef.unary (TRef.of (T := ⟨S_, .i32⟩) main_call0_c_0) (TRef.of (T := ⟨S4x65536x1, .i32⟩) main_call0_v2) (broadcastInDim S4x65536x1 ![] bcast_S_S4x65536x1),
    TRef.binary (TRef.of (T := ⟨S4x65536x1, .i32⟩) main_v5) (TRef.of (T := ⟨S4x65536x1, .i32⟩) main_call0_v2) (TRef.of (T := ⟨S4x65536x1, .i32⟩) main_call0_v3) addi,
    TRef.ternary (TRef.of (T := ⟨S4x65536x1, .i1⟩) main_call0_v1) (TRef.of (T := ⟨S4x65536x1, .i32⟩) main_call0_v3) (TRef.of (T := ⟨S4x65536x1, .i32⟩) main_v5) (TRef.of (T := ⟨S4x65536x1, .i32⟩) main_call0_v4) select,
    TRef.nullary (TRef.of (T := ⟨S1, .i32⟩) main_call0_c_1) (constantI S1 32 4095#32),
    TRef.nullary (TRef.of (T := ⟨S_, .i32⟩) main_call0_c_2) (constantI S_ 32 0#32),
    TRef.unary (TRef.of (T := ⟨S_, .i32⟩) main_call0_c_2) (TRef.of (T := ⟨S4x65536x1, .i32⟩) main_call0_v5) (broadcastInDim S4x65536x1 ![] bcast_S_S4x65536x1),
    TRef.binary (TRef.of (T := ⟨S4x65536x1, .i32⟩) main_call0_v4) (TRef.of (T := ⟨S4x65536x1, .i32⟩) main_call0_v5) (TRef.of (T := ⟨S4x65536x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x65536x1, .i32⟩) main_call0_v8) (broadcastInDim S4x65536x1 ![0, 1, 2] bcast_S1x1x1_S4x65536x1_0_1_2),
    TRef.binary (TRef.of (T := ⟨S4x65536x1, .i32⟩) main_call0_v4) (TRef.of (T := ⟨S4x65536x1, .i32⟩) main_call0_v8) (TRef.of (T := ⟨S4x65536x1, .i1⟩) main_call0_v9) (cmpi .sle),
    TRef.binary (TRef.of (T := ⟨S4x65536x1, .i1⟩) main_call0_v6) (TRef.of (T := ⟨S4x65536x1, .i1⟩) main_call0_v9) (TRef.of (T := ⟨S4x65536x1, .i1⟩) main_call0_v10) andi,
    TRef.nullary (TRef.of (T := ⟨S_, .i1⟩) main_call0_c_3) (constantI S_ 1 1#1),
    TRef.binary (TRef.of (T := ⟨S4x65536x1, .i1⟩) main_call0_v10) (TRef.of (T := ⟨S_, .i1⟩) main_call0_c_3) (TRef.of (T := ⟨S4x65536, .i1⟩) main_call0_v11) (fun x v => Host.reduce IntOp.andi x v reducesTo_S4x65536x1_S4x65536_d2 h_S_),
    TRef.binary (TRef.of (T := ⟨S4x4096x128, .f32⟩) main_v1) (TRef.of (T := ⟨S4x65536x1, .i32⟩) main_call0_v4) (TRef.of (T := ⟨S4x65536x128, .f32⟩) main_call0_v12) (fun x i => Host.gather gather_S4x4096x128_S4x65536x1_S4x65536x128_2_1_0_0_1_2_11128 x i),
    TRef.unary (TRef.of (T := ⟨S4x65536, .i1⟩) main_call0_v11) (TRef.of (T := ⟨S4x65536x128, .i1⟩) main_call0_v13) (broadcastInDim S4x65536x128 ![0, 1] bcast_S4x65536_S4x65536x128_0_1),
    TRef.nullary (TRef.of (T := ⟨S_, .f32⟩) main_call0_cst) (constant S_ .f32 0x7FC00000#32),
    TRef.unary (TRef.of (T := ⟨S_, .f32⟩) main_call0_cst) (TRef.of (T := ⟨S4x65536x128, .f32⟩) main_call0_v14) (broadcastInDim S4x65536x128 ![] bcast_S_S4x65536x128),
    TRef.ternary (TRef.of (T := ⟨S4x65536x128, .i1⟩) main_call0_v13) (TRef.of (T := ⟨S4x65536x128, .f32⟩) main_call0_v12) (TRef.of (T := ⟨S4x65536x128, .f32⟩) main_call0_v14) (TRef.of (T := ⟨S4x65536x128, .f32⟩) main_v6) select,
    reshape main_v6 main_v7 rfl shapeCasts_S4x65536x128_S4x4096x16x128,
    unary main_arg5 main_v8 ((extractStridedSlice S1x4x4096x16 ![0, 0, 0, 0] · slices_S2x4x4096x16_S1x4x4096x16_0_0_0_0) : (⟨S2x4x4096x16, .i32⟩ : BufTy).Contents (Elt F) → (⟨S1x4x4096x16, .i32⟩ : BufTy).Contents (Elt F)),
    reshape main_v8 main_v9 rfl shapeCasts_S1x4x4096x16_S4x4096x16,
    reshape main_v9 main_v10 rfl shapeCasts_S4x4096x16_S4x65536,
    unary main_v10 main_v11 (broadcastInDim S4x65536x1 ![0, 1] bcast_S4x65536_S4x65536x1_0_1 : (⟨S4x65536, .i32⟩ : BufTy).Contents (Elt F) → (⟨S4x65536x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x65536x1, .i32⟩) main_call1_v0) (broadcastInDim S4x65536x1 ![] bcast_S_S4x65536x1),
    TRef.binary (TRef.of (T := ⟨S4x65536x1, .i32⟩) main_v11) (TRef.of (T := ⟨S4x65536x1, .i32⟩) main_call1_v0) (TRef.of (T := ⟨S4x65536x1, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S4x65536x1, .i32⟩) main_call1_v2) (broadcastInDim S4x65536x1 ![] bcast_S_S4x65536x1),
    TRef.binary (TRef.of (T := ⟨S4x65536x1, .i32⟩) main_v11) (TRef.of (T := ⟨S4x65536x1, .i32⟩) main_call1_v2) (TRef.of (T := ⟨S4x65536x1, .i32⟩) main_call1_v3) addi,
    TRef.ternary (TRef.of (T := ⟨S4x65536x1, .i1⟩) main_call1_v1) (TRef.of (T := ⟨S4x65536x1, .i32⟩) main_call1_v3) (TRef.of (T := ⟨S4x65536x1, .i32⟩) main_v11) (TRef.of (T := ⟨S4x65536x1, .i32⟩) main_call1_v4) select,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S4x65536x1, .i32⟩) main_call1_v5) (broadcastInDim S4x65536x1 ![] bcast_S_S4x65536x1),
    TRef.binary (TRef.of (T := ⟨S4x65536x1, .i32⟩) main_call1_v4) (TRef.of (T := ⟨S4x65536x1, .i32⟩) main_call1_v5) (TRef.of (T := ⟨S4x65536x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4x65536x1, .i32⟩) main_call1_v8) (broadcastInDim S4x65536x1 ![0, 1, 2] bcast_S1x1x1_S4x65536x1_0_1_2),
    TRef.binary (TRef.of (T := ⟨S4x65536x1, .i32⟩) main_call1_v4) (TRef.of (T := ⟨S4x65536x1, .i32⟩) main_call1_v8) (TRef.of (T := ⟨S4x65536x1, .i1⟩) main_call1_v9) (cmpi .sle),
    TRef.binary (TRef.of (T := ⟨S4x65536x1, .i1⟩) main_call1_v6) (TRef.of (T := ⟨S4x65536x1, .i1⟩) main_call1_v9) (TRef.of (T := ⟨S4x65536x1, .i1⟩) main_call1_v10) andi,
    TRef.nullary (TRef.of (T := ⟨S_, .i1⟩) main_call1_c_3) (constantI S_ 1 1#1),
    TRef.binary (TRef.of (T := ⟨S4x65536x1, .i1⟩) main_call1_v10) (TRef.of (T := ⟨S_, .i1⟩) main_call1_c_3) (TRef.of (T := ⟨S4x65536, .i1⟩) main_call1_v11) (fun x v => Host.reduce IntOp.andi x v reducesTo_S4x65536x1_S4x65536_d2 h_S_),
    TRef.binary (TRef.of (T := ⟨S4x4096x128, .f32⟩) main_v1) (TRef.of (T := ⟨S4x65536x1, .i32⟩) main_call1_v4) (TRef.of (T := ⟨S4x65536x128, .f32⟩) main_call1_v12) (fun x i => Host.gather gather_S4x4096x128_S4x65536x1_S4x65536x128_2_1_0_0_1_2_11128 x i),
    TRef.unary (TRef.of (T := ⟨S4x65536, .i1⟩) main_call1_v11) (TRef.of (T := ⟨S4x65536x128, .i1⟩) main_call1_v13) (broadcastInDim S4x65536x128 ![0, 1] bcast_S4x65536_S4x65536x128_0_1),
    TRef.nullary (TRef.of (T := ⟨S_, .f32⟩) main_call1_cst) (constant S_ .f32 0x7FC00000#32),
    TRef.unary (TRef.of (T := ⟨S_, .f32⟩) main_call1_cst) (TRef.of (T := ⟨S4x65536x128, .f32⟩) main_call1_v14) (broadcastInDim S4x65536x128 ![] bcast_S_S4x65536x128),
    TRef.ternary (TRef.of (T := ⟨S4x65536x128, .i1⟩) main_call1_v13) (TRef.of (T := ⟨S4x65536x128, .f32⟩) main_call1_v12) (TRef.of (T := ⟨S4x65536x128, .f32⟩) main_call1_v14) (TRef.of (T := ⟨S4x65536x128, .f32⟩) main_v12) select,
    reshape main_v12 main_v13 rfl shapeCasts_S4x65536x128_S4x4096x16x128,
    binary main_v13 main_v7 main_v14 (subf : (⟨S4x4096x16x128, .f32⟩ : BufTy).Contents (Elt F) → (⟨S4x4096x16x128, .f32⟩ : BufTy).Contents (Elt F) → (⟨S4x4096x16x128, .f32⟩ : BufTy).Contents (Elt F)) ]

/-- The 41 operations from the concatenation on: the layer, its statistics, the normalization and the pooling. -/
abbrev opsB : List (HloOp τ sig (Elt F)) :=
  [ binary main_v7 main_v14 main_v15 ((fun a b => concatenate S4x4096x16x256 3 [⟨S4x4096x16x128, a⟩, ⟨S4x4096x16x128, b⟩] concatenates_S4x4096x16x128_S4x4096x16x128_S4x4096x16x256_d3) : (⟨S4x4096x16x128, .f32⟩ : BufTy).Contents (Elt F) → (⟨S4x4096x16x128, .f32⟩ : BufTy).Contents (Elt F) → (⟨S4x4096x16x256, .f32⟩ : BufTy).Contents (Elt F)),
    binary main_v15 main_arg1 main_v16 ((fun l r => Host.dotGeneral dot_S4x4096x16x256_S256x256_S4x4096x16x256_3_1_012_0_n_n none l r) : (⟨S4x4096x16x256, .f32⟩ : BufTy).Contents (Elt F) → (⟨S256x256, .f32⟩ : BufTy).Contents (Elt F) → (⟨S4x4096x16x256, .f32⟩ : BufTy).Contents (Elt F)),
    unary main_arg2 main_v17 (broadcastInDim S1x1x1x256 ![3] bcast_S256_S1x1x1x256_3 : (⟨S256, .f32⟩ : BufTy).Contents (Elt F) → (⟨S1x1x1x256, .f32⟩ : BufTy).Contents (Elt F)),
    unary main_v17 main_v18 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v16 main_v18 main_v19 (addf : (⟨S4x4096x16x256, .f32⟩ : BufTy).Contents (Elt F) → (⟨S4x4096x16x256, .f32⟩ : BufTy).Contents (Elt F) → (⟨S4x4096x16x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4x4096x16x256, .f32⟩) main_call2_v0) (broadcastInDim S4x4096x16x256 ![] bcast_S_S4x4096x16x256),
    TRef.binary (TRef.of (T := ⟨S4x4096x16x256, .f32⟩) main_v19) (TRef.of (T := ⟨S4x4096x16x256, .f32⟩) main_call2_v0) (TRef.of (T := ⟨S4x4096x16x256, .f32⟩) main_v20) maximumf,
    nullary main_cst (constant S_ .f32 0x00000000#32),
    binary main_v20 main_cst main_v21 ((fun x v => Host.reduceAdd x v reducesTo_S4x4096x16x256_S256_d0_1_2 h_S_) : (⟨S4x4096x16x256, .f32⟩ : BufTy).Contents (Elt F) → (⟨S_, .f32⟩ : BufTy).Contents (Elt F) → (⟨S256, .f32⟩ : BufTy).Contents (Elt F)),
    nullary main_cst_0 (constant S_ .f32 0x48800000#32),
    unary main_cst_0 main_v22 (broadcastInDim S256 ![] bcast_S_S256 : (⟨S_, .f32⟩ : BufTy).Contents (Elt F) → (⟨S256, .f32⟩ : BufTy).Contents (Elt F)),
    binary main_v21 main_v22 main_v23 (Host.divf : (⟨S256, .f32⟩ : BufTy).Contents (Elt F) → (⟨S256, .f32⟩ : BufTy).Contents (Elt F) → (⟨S256, .f32⟩ : BufTy).Contents (Elt F)),
    binary main_v20 main_v20 main_v24 (mulf : (⟨S4x4096x16x256, .f32⟩ : BufTy).Contents (Elt F) → (⟨S4x4096x16x256, .f32⟩ : BufTy).Contents (Elt F) → (⟨S4x4096x16x256, .f32⟩ : BufTy).Contents (Elt F)),
    nullary main_cst_1 (constant S_ .f32 0x00000000#32),
    binary main_v24 main_cst_1 main_v25 ((fun x v => Host.reduceAdd x v reducesTo_S4x4096x16x256_S256_d0_1_2 h_S_) : (⟨S4x4096x16x256, .f32⟩ : BufTy).Contents (Elt F) → (⟨S_, .f32⟩ : BufTy).Contents (Elt F) → (⟨S256, .f32⟩ : BufTy).Contents (Elt F)),
    nullary main_cst_2 (constant S_ .f32 0x48800000#32),
    unary main_cst_2 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    binary main_v23 main_v23 main_v28 (mulf : (⟨S256, .f32⟩ : BufTy).Contents (Elt F) → (⟨S256, .f32⟩ : BufTy).Contents (Elt F) → (⟨S256, .f32⟩ : BufTy).Contents (Elt F)),
    binary main_v27 main_v28 main_v29 (subf : (⟨S256, .f32⟩ : BufTy).Contents (Elt F) → (⟨S256, .f32⟩ : BufTy).Contents (Elt F) → (⟨S256, .f32⟩ : BufTy).Contents (Elt F)),
    unary main_v23 main_v30 (broadcastInDim S1x1x1x256 ![3] bcast_S256_S1x1x1x256_3 : (⟨S256, .f32⟩ : BufTy).Contents (Elt F) → (⟨S1x1x1x256, .f32⟩ : BufTy).Contents (Elt F)),
    unary main_v30 main_v31 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v20 main_v31 main_v32 (subf : (⟨S4x4096x16x256, .f32⟩ : BufTy).Contents (Elt F) → (⟨S4x4096x16x256, .f32⟩ : BufTy).Contents (Elt F) → (⟨S4x4096x16x256, .f32⟩ : BufTy).Contents (Elt F)),
    nullary main_cst_3 (constant S_ .f32 0x3727C5AC#32),
    unary main_cst_3 main_v33 (broadcastInDim S256 ![] bcast_S_S256 : (⟨S_, .f32⟩ : BufTy).Contents (Elt F) → (⟨S256, .f32⟩ : BufTy).Contents (Elt F)),
    binary main_v29 main_v33 main_v34 (addf : (⟨S256, .f32⟩ : BufTy).Contents (Elt F) → (⟨S256, .f32⟩ : BufTy).Contents (Elt F) → (⟨S256, .f32⟩ : BufTy).Contents (Elt F)),
    unary main_v34 main_v35 (Host.rsqrt : (⟨S256, .f32⟩ : BufTy).Contents (Elt F) → (⟨S256, .f32⟩ : BufTy).Contents (Elt F)),
    unary main_v35 main_v36 (broadcastInDim S1x1x1x256 ![3] bcast_S256_S1x1x1x256_3 : (⟨S256, .f32⟩ : BufTy).Contents (Elt F) → (⟨S1x1x1x256, .f32⟩ : BufTy).Contents (Elt F)),
    unary main_v36 main_v37 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v32 main_v37 main_v38 (mulf : (⟨S4x4096x16x256, .f32⟩ : BufTy).Contents (Elt F) → (⟨S4x4096x16x256, .f32⟩ : BufTy).Contents (Elt F) → (⟨S4x4096x16x256, .f32⟩ : BufTy).Contents (Elt F)),
    unary main_arg3 main_v39 (broadcastInDim S1x1x1x256 ![3] bcast_S256_S1x1x1x256_3 : (⟨S256, .f32⟩ : BufTy).Contents (Elt F) → (⟨S1x1x1x256, .f32⟩ : BufTy).Contents (Elt F)),
    unary main_v39 main_v40 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v38 main_v40 main_v41 (mulf : (⟨S4x4096x16x256, .f32⟩ : BufTy).Contents (Elt F) → (⟨S4x4096x16x256, .f32⟩ : BufTy).Contents (Elt F) → (⟨S4x4096x16x256, .f32⟩ : BufTy).Contents (Elt F)),
    unary main_arg4 main_v42 (broadcastInDim S1x1x1x256 ![3] bcast_S256_S1x1x1x256_3 : (⟨S256, .f32⟩ : BufTy).Contents (Elt F) → (⟨S1x1x1x256, .f32⟩ : BufTy).Contents (Elt F)),
    unary main_v42 main_v43 (broadcastInDim S4x4096x16x256 ![0, 1, 2, 3] bcast_S1x1x1x256_S4x4096x16x256_0_1_2_3 : (⟨S1x1x1x256, .f32⟩ : BufTy).Contents (Elt F) → (⟨S4x4096x16x256, .f32⟩ : BufTy).Contents (Elt F)),
    binary main_v41 main_v43 main_v44 (addf : (⟨S4x4096x16x256, .f32⟩ : BufTy).Contents (Elt F) → (⟨S4x4096x16x256, .f32⟩ : BufTy).Contents (Elt F) → (⟨S4x4096x16x256, .f32⟩ : BufTy).Contents (Elt F)),
    nullary main_cst_4 (constant S_ .f32 0xFF800000#32),
    binary main_v44 main_cst_4 main_v45 ((fun x v => Host.reduce FloatOps.maximumf x v reducesTo_S4x4096x16x256_S4x4096x256_d2 h_S_) : (⟨S4x4096x16x256, .f32⟩ : BufTy).Contents (Elt F) → (⟨S_, .f32⟩ : BufTy).Contents (Elt F) → (⟨S4x4096x256, .f32⟩ : BufTy).Contents (Elt F)),
    unary main_v45 main_v46 ((transpose S4x256x4096 [0, 2, 1] · transposes_S4x4096x256_S4x256x4096_0_2_1) : (⟨S4x4096x256, .f32⟩ : BufTy).Contents (Elt F) → (⟨S4x256x4096, .f32⟩ : BufTy).Contents (Elt F)),
    unary main_v46 main_v47 (broadcastInDim S4x256x4096x1 ![0, 1, 2] bcast_S4x256x4096_S4x256x4096x1_0_1_2 : (⟨S4x256x4096, .f32⟩ : BufTy).Contents (Elt F) → (⟨S4x256x4096x1, .f32⟩ : BufTy).Contents (Elt F)) ]

/-- The operation list is the two runs in a row. -/
theorem ops_split : (ops : List (HloOp τ sig (Elt F))) = opsA ++ opsB := rfl

set_option maxRecDepth 8192 in
set_option maxHeartbeats 4000000 in
/-- The printed program is the sequence of its operations. -/
theorem main_eq (c : Dev nD) : main (F := F) c = seq ops := rfl
/-- No buffer of the program is scoped to a region … -/
theorem scopedRefs_eq : (Finset.univ.filter fun b : Ref sig .tc => b.isScoped) = ∅ := by decide
/-- … and no semaphore is. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨reshape_bufs_sub .., unary_bufs_sub .., unary_bufs_sub .., reshape_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., reshape_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub ..⟩

/-- The contents after two runs of operations in a row are the second run's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

variable (V : Valuation τ sig (Elt F))

/-! ## Before the concatenation -/

set_option maxRecDepth 65536 in
/-- The first gathered half (the centre node's features, per edge) is its stage of the input and the edge index. -/
theorem half_centre : after (opsA (F := F)) V (Proc.devRef .tc main_v7)
    = Cert.ReferenceIdeal.ReadP.val_main_v7 (F := F) (V (Proc.devRef .tc main_arg0)) (V (Proc.devRef .tc main_arg5)) := by
  after_results_simp
  simp only [TRef.toBuf, TRef.ofBuf, cast_eq]
  rfl

set_option maxRecDepth 65536 in
/-- The second half (neighbour minus centre) likewise. -/
theorem half_diff : after (opsA (F := F)) V (Proc.devRef .tc main_v14)
    = Cert.ReferenceIdeal.ReadP.val_main_v14 (F := F) (V (Proc.devRef .tc main_arg0)) (V (Proc.devRef .tc main_arg5)) := by
  after_results_simp
  simp only [TRef.toBuf, TRef.ofBuf, cast_eq]
  rfl

set_option maxRecDepth 65536 in
/-- The operations before the concatenation write no argument array: the weight, … -/
theorem kept_arg1 : after (opsA (F := F)) V (Proc.devRef .tc main_arg1) = V (Proc.devRef .tc main_arg1) := by after_results_simp
set_option maxRecDepth 65536 in
/-- … the bias, … -/
theorem kept_arg2 : after (opsA (F := F)) V (Proc.devRef .tc main_arg2) = V (Proc.devRef .tc main_arg2) := by after_results_simp
set_option maxRecDepth 65536 in
/-- … the scale … -/
theorem kept_arg3 : after (opsA (F := F)) V (Proc.devRef .tc main_arg3) = V (Proc.devRef .tc main_arg3) := by after_results_simp
set_option maxRecDepth 65536 in
/-- … and the shift. -/
theorem kept_arg4 : after (opsA (F := F)) V (Proc.devRef .tc main_arg4) = V (Proc.devRef .tc main_arg4) := by after_results_simp

/-! ## From the concatenation on -/

set_option maxRecDepth 65536 in
/-- From contents `W` whose two halves are the stages of `x0`, `x5`, the result is the last stage at `x0`, `x5` and
    `W`'s weight, bias, scale and shift arrays. -/
theorem tail_eq (W : Valuation τ sig (Elt F)) (x0 : (⟨S4x128x4096x1, .f32⟩ : BufTy).Contents (Elt F))
    (x5 : (⟨S2x4x4096x16, .i32⟩ : BufTy).Contents (Elt F))
    (h7 : W (Proc.devRef .tc main_v7) = Cert.ReferenceIdeal.ReadP.val_main_v7 (F := F) x0 x5)
    (h14 : W (Proc.devRef .tc main_v14) = Cert.ReferenceIdeal.ReadP.val_main_v14 (F := F) x0 x5) :
    after (opsB (F := F)) W (Proc.devRef .tc main_v47)
      = Cert.ReferenceIdeal.ReadP.val_main_v47 (F := F) x0 (W (Proc.devRef .tc main_arg1)) (W (Proc.devRef .tc main_arg2))
          (W (Proc.devRef .tc main_arg3)) (W (Proc.devRef .tc main_arg4)) x5 := by
  after_results_simp
  simp only [TRef.toBuf, TRef.ofBuf, cast_eq]
  rw [h7, h14]
  rfl

/-! ## The result, and the run -/

/-- After all 98 operations the result buffer holds the last stage of the six argument arrays. -/
theorem result_eq : after (ops (F := F)) V (Proc.devRef .tc main_v47)
    = Cert.ReferenceIdeal.ReadP.val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append,
    tail_eq (after opsA V) (V (Proc.devRef .tc main_arg0)) (V (Proc.devRef .tc main_arg5)) (half_centre V) (half_diff V),
    kept_arg1, kept_arg2, kept_arg3, kept_arg4]

set_option maxRecDepth 65536 in
set_option maxHeartbeats 39200000 in
/-- On every device, from any memory with zero counters: every weakly fair execution of the program terminates with
    the result at the last stage of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = Cert.ReferenceIdeal.ReadP.val_main_v47 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v47).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.EdgeConv.lean ====
/-
  The layer both programs compute, written once over plain functions of coordinates.

  Rows `r < 262144` enumerate (batch, node, neighbour) in row-major order: `r = (b·4096 + n)·16 + k`; channels are
  `o < 256`. For edge features `h r c`, weights `w c o`, bias `b o`:

    act r o   = max (Σ_c h r c · w c o + b o) 0                      one row of the 1×1 convolution, clamped at zero
    S o, Q o  = Σ_r act r o,  Σ_r (act r o)²                          the batch statistics, over every row
    μ o       = S o / 262144,   σ o = rsqrt (Q o / 262144 − μ o · μ o + ε)
    out n o   = max over the 16 neighbours k of node n of ((act (16n+k) o − μ o) · σ o) · γ o + β o

  The sums are taken over all rows at once on one side and block by block (64 blocks of 4096 consecutive rows, each
  added to a running total that starts at zero) on the other; on the extended reals addition is commutative and
  associative at the infinities too, so the two groupings agree with no finiteness assumed (`blockTotal_eq`).
  The literals 262144, ε and −∞ stay the f32 words both programs print, so they are never evaluated.
-/
import Idealize.ShloMosaic.PureOps.Ideal
import Idealize.ShloMosaic.PureOps.Ideal.Laws

noncomputable section

namespace Cert.EdgeConv

open Idealize.ShloMosaic

/-- One row of the 1×1 convolution with its bias, clamped at zero. -/
def act (h : Fin 262144 → Fin 256 → EReal) (w : Fin 256 → Fin 256 → EReal) (b : Fin 256 → EReal)
    (r : Fin 262144) (o : Fin 256) : EReal :=
  max ((∑ c : Fin 256, h r c * w c o) + b o) 0

/-- The sum of a row-indexed quantity over every row. -/
def total (f : Fin 262144 → EReal) : EReal := ∑ r : Fin 262144, f r

/-- Row `p` of block `s`: blocks are 4096 consecutive rows. -/
def blockRow (s : Fin 64) (p : Fin 4096) : Fin 262144 :=
  ⟨s.val * 4096 + p.val, by have := s.isLt; have := p.isLt; omega⟩

/-- The same sum taken block by block. -/
def blockTotal (f : Fin 262144 → EReal) : EReal := ∑ s : Fin 64, ∑ p : Fin 4096, f (blockRow s p)

/-- Summing block by block is summing over every row: the blocks partition the rows, and addition on the extended
    reals is commutative and associative. -/
theorem blockTotal_eq (f : Fin 262144 → EReal) : blockTotal f = total f := by
  unfold blockTotal total
  rw [← Fintype.sum_prod_type' (f := fun s p => f (blockRow s p))]
  exact Fintype.sum_equiv
    (⟨fun x => blockRow x.1 x.2,
      fun r => (⟨r.val / 4096, by have := r.isLt; omega⟩, ⟨r.val % 4096, Nat.mod_lt _ (by norm_num)⟩),
      fun x => by
        obtain ⟨s, p⟩ := x
        have hs := s.isLt; have hp := p.isLt
        refine Prod.ext (Fin.ext ?_) (Fin.ext ?_)
        · show (s.val * 4096 + p.val) / 4096 = s.val
          omega
        · show (s.val * 4096 + p.val) % 4096 = p.val
          omega,
      fun r => Fin.ext (by
        show r.val / 4096 * 4096 + r.val % 4096 = r.val
        omega)⟩ : Fin 64 × Fin 4096 ≃ Fin 262144) _ _ (fun _ => rfl)

/-- The mean of a channel from its sum: the quotient by the f32 word of 262144. -/
def mean (S : EReal) : EReal := Ideal.div S (Ideal.ofBits .f32 0x48800000#32)

/-- The reciprocal standard deviation of a channel from its sum `S` and its sum of squares `Q`:
    `rsqrt (Q / 262144 − μ · μ + ε)`, ε the f32 word both programs print. -/
def invStd (S Q : EReal) : EReal :=
  Ideal.rsqrt ((Ideal.div Q (Ideal.ofBits .f32 0x48800000#32) - mean S * mean S) + Ideal.ofBits .f32 0x3727C5AC#32)

/-- The normalization of one value: `((y − μ) · σ) · γ + β`, in the order both programs multiply. -/
def normed (y mu sg ga bt : EReal) : EReal := ((y - mu) * sg) * ga + bt

/-- Neighbour `k` of node `n`: rows are 16 consecutive per node. -/
def nbrRow (n : Fin 16384) (k : Fin 16) : Fin 262144 :=
  ⟨n.val * 16 + k.val, by have := n.isLt; have := k.isLt; omega⟩

/-- The maximum over a node's 16 neighbours, from −∞ (the f32 word `0xFF800000`). -/
def pooled (y : Fin 262144 → EReal) (n : Fin 16384) : EReal :=
  (Finset.univ : Finset (Fin 16)).fold max (Ideal.ofBits .f32 0xFF800000#32) (fun k => y (nbrRow n k))

/-- The whole layer at node `n`, channel `o`, from the per-channel statistics `S`, `Q`. -/
def outOf (a : Fin 262144 → Fin 256 → EReal) (S Q g be : Fin 256 → EReal) (n : Fin 16384) (o : Fin 256) : EReal :=
  pooled (fun r => normed (a r o) (mean (S o)) (invStd (S o) (Q o)) (g o) (be o)) n

/-- The whole layer, statistics taken over every row. -/
def out (h : Fin 262144 → Fin 256 → EReal) (w : Fin 256 → Fin 256 → EReal) (b g be : Fin 256 → EReal)
    (n : Fin 16384) (o : Fin 256) : EReal :=
  outOf (act h w b) (fun o => total fun r => act h w b r o) (fun o => total fun r => act h w b r o * act h w b r o) g be n o

/-- With the statistics taken block by block the layer is the same. -/
theorem outOf_blockTotal (h : Fin 262144 → Fin 256 → EReal) (w : Fin 256 → Fin 256 → EReal) (b g be : Fin 256 → EReal)
    (n : Fin 16384) (o : Fin 256) :
    outOf (act h w b) (fun o => blockTotal fun r => act h w b r o)
      (fun o => blockTotal fun r => act h w b r o * act h w b r o) g be n o = out h w b g be n o := by
  unfold out
  simp only [blockTotal_eq]

end Cert.EdgeConv

end
-- ==== Proof.HostMid.lean ====
/-
  Between the two passes the program turns the first pass's per-channel sums into the statistics the second pass
  normalizes with, and re-indexes the stored activations by (node, neighbour). With S the channel sums and Q the
  channel sums of squares:

    μ = S / 262144,   σ = rsqrt (Q / 262144 − μ · μ + ε)        channel by channel, the operations in this order;
    row 16·n + k of the [262144, 256] activations is entry (n, k) of the [16384, 16, 256] array: the two shapes
    enumerate the same row-major positions, (16·n + k)·256 + o on both sides;
    the [1, 256] rows μ and σ and the [256] vectors γ and β become [1, 1, 256] arrays whose entry (0, 0, o) is entry o.

  Each statement below reads one of the five arrays the second pass takes, at an index, in terms of what the first
  pass left in its three outputs (which stay opaque here) or of the launch contents of an argument.
-/
import proofs.«101132_j28475633173124_1_alg».proof.Proof.Gen.KernelIdeal.Frame
import proofs.«101132_j28475633173124_1_alg».proof.Proof.EdgeConv
import Idealize.ShloMosaic.Lib.ValueIdx
import Idealize.ShloMosaic.Lib.Pipeline.Value
import Idealize.ShloMosaic.Lib.StableHlo.Run

noncomputable section

namespace Cert.KernelIdeal.HostMid

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- The activations re-indexed by node and neighbour. A reshape keeps every entry at its row-major position, and
    entry (n, k, o) of [16384, 16, 256] and entry (16·n + k, o) of [262144, 256] both sit at (16·n + k)·256 + o. -/
theorem v30_apply (n : Fin 16384) (k : Fin 16) (o : Fin 256) :
    V7 m ρ c main_v30 (ix3 n k o)
      = V6 m ρ c main_v20_0 (ix2 (⟨n.val * 16 + k.val, by have := n.isLt; have := k.isLt; omega⟩ : Fin 262144) o) := by
  -- the array as the stretch's one operation on it applied to what the first pass left
  have e : (V7 m ρ c main_v30 : S16384x16x256.Idx → EReal)
      = shapeCast S16384x16x256 (V6 m ρ c main_v20_0 : S262144x256.Idx → EReal) Facts₀.shapeCasts_S262144x256_S16384x16x256 := by
    dsimp only [V7, W7]; after_results; rfl
  rw [e]
  refine shapeCast_apply (s := S262144x256) (t := S16384x16x256) _ _ (ix3 n k o) (ix2 _ o) ?_
  rw [Shape.rowMajor_val_two, Shape.rowMajor_val_three]
  rfl

/-- The mean of channel `o`: the channel's sum divided, entry by entry, by the constant 262144 broadcast over the
    row; the reshape [1, 256] → [1, 1, 256] keeps entry `o` at position `o`. -/
theorem v31_apply (o : Fin 256) :
    V7 m ρ c main_v31 (ix3 0 0 o) = EdgeConv.mean (V6 m ρ c main_v20_1 (ix2 0 o)) := by
  have e : (V7 m ρ c main_v31 : S1x1x256.Idx → EReal)
      = shapeCast S1x1x256
          (Host.divf (F := Ideal) (V6 m ρ c main_v20_1 : FVec Ideal S1x256 .f32)
            (broadcastInDim S1x256 ![] Facts₀.bcast_S_S1x256 (constant (F := Ideal) S_ .f32 0x48800000#32)))
          Facts₀.shapeCasts_S1x256_S1x1x256 := by
    dsimp only [V7, W7]; after_results; rfl
  rw [e]
  refine (shapeCast_apply (s := S1x256) (t := S1x1x256) _ _ (ix3 0 0 o) (ix2 0 o) ?_).trans ?_
  · rw [Shape.rowMajor_val_two, Shape.rowMajor_val_three]
    rfl
  · -- the quotient and the broadcast constant are read entry by entry: this is the definition of the mean
    rfl

/-- The reciprocal standard deviation of channel `o`: every operation from the two sums to the `rsqrt` acts entry
    by entry on [1, 256] rows — two quotients by 262144, the square of the mean, a difference, the sum with ε, the
    reciprocal square root — and these are, in the same order, the operations that define `EdgeConv.invStd`. -/
theorem v32_apply (o : Fin 256) :
    V7 m ρ c main_v32 (ix3 0 0 o)
      = EdgeConv.invStd (V6 m ρ c main_v20_1 (ix2 0 o)) (V6 m ρ c main_v20_2 (ix2 0 o)) := by
  have e : (V7 m ρ c main_v32 : S1x1x256.Idx → EReal)
      = shapeCast S1x1x256
          (Host.rsqrt (F := Ideal)
            (addf
              (subf
                (Host.divf (F := Ideal) (V6 m ρ c main_v20_2 : FVec Ideal S1x256 .f32)
                  (broadcastInDim S1x256 ![] Facts₀.bcast_S_S1x256 (constant (F := Ideal) S_ .f32 0x48800000#32)))
                (mulf
                  (Host.divf (F := Ideal) (V6 m ρ c main_v20_1 : FVec Ideal S1x256 .f32)
                    (broadcastInDim S1x256 ![] Facts₀.bcast_S_S1x256 (constant (F := Ideal) S_ .f32 0x48800000#32)))
                  (Host.divf (F := Ideal) (V6 m ρ c main_v20_1 : FVec Ideal S1x256 .f32)
                    (broadcastInDim S1x256 ![] Facts₀.bcast_S_S1x256 (constant (F := Ideal) S_ .f32 0x48800000#32)))))
              (broadcastInDim S1x256 ![] Facts₀.bcast_S_S1x256 (constant (F := Ideal) S_ .f32 0x3727C5AC#32))))
          Facts₀.shapeCasts_S1x256_S1x1x256 := by
    dsimp only [V7, W7]; after_results_simp; rfl
  rw [e]
  refine (shapeCast_apply (s := S1x256) (t := S1x1x256) _ _ (ix3 0 0 o) (ix2 0 o) ?_).trans ?_
  · rw [Shape.rowMajor_val_two, Shape.rowMajor_val_three]
    rfl
  · rfl

/-- Closes "a reference's buffer is the same after a stretch of host operations as before it" when no operation of
    the stretch writes that reference: the stretch is a literal list, each operation writes one named reference, and
    that reference is a different one. -/
local macro "not_written" : tactic =>
  `(tactic| (refine StableHlo.after_of_forall_not_mem _ _ (List.forall_iff_forall_mem.mp ?_)
             simp only [hostOps0, hostOps0_1, hostOps0_2, hostOps0_3, hostOps0_4, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- The scale argument γ still holds its launch contents when the first pass has finished: the pass has no window on
    it, and none of the host operations before the pass writes an argument. -/
theorem W6_main_arg3 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by not_written
    _ = W3 m ρ c (Proc.devRef .tc main_arg3) := by not_written
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

/-- The same for the shift argument β. -/
theorem W6_main_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by not_written
    _ = W3 m ρ c (Proc.devRef .tc main_arg4) := by not_written
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

/-- The scale as the second pass takes it: entry (0, 0, o) of the [1, 1, 256] array is entry `o` of the argument,
    both at row-major position `o`. -/
theorem v33_apply (o : Fin 256) :
    V7 m ρ c main_v33 (ix3 0 0 o) = m ((c : Thread nD τ).loc main_arg3) (ix1 o) := by
  have e : (V7 m ρ c main_v33 : S1x1x256.Idx → EReal)
      = shapeCast S1x1x256 (W6 m ρ c (Proc.devRef .tc main_arg3) : S256.Idx → EReal) Facts₀.shapeCasts_S256_S1x1x256 := by
    dsimp only [V7, W7]; after_results; rfl
  rw [e, W6_main_arg3]
  refine shapeCast_apply (s := S256) (t := S1x1x256) _ _ (ix3 0 0 o) (ix1 o) ?_
  rw [Shape.rowMajor_val_one, Shape.rowMajor_val_three]
  show o.val = (0 * 1 + 0) * 256 + o.val
  omega

/-- The shift as the second pass takes it, in the same way. -/
theorem v34_apply (o : Fin 256) :
    V7 m ρ c main_v34 (ix3 0 0 o) = m ((c : Thread nD τ).loc main_arg4) (ix1 o) := by
  have e : (V7 m ρ c main_v34 : S1x1x256.Idx → EReal)
      = shapeCast S1x1x256 (W6 m ρ c (Proc.devRef .tc main_arg4) : S256.Idx → EReal) Facts₀.shapeCasts_S256_S1x1x256 := by
    dsimp only [V7, W7]; after_results; rfl
  rw [e, W6_main_arg4]
  refine shapeCast_apply (s := S256) (t := S1x1x256) _ _ (ix3 0 0 o) (ix1 o) ?_
  rw [Shape.rowMajor_val_one, Shape.rowMajor_val_three]
  show o.val = (0 * 1 + 0) * 256 + o.val
  omega

end Cert.KernelIdeal.HostMid

end
-- ==== Proof.HostTail.lean ====
/-
  After the second pass the program only re-arranges its [16384, 256] output, whose row 4096·b + n belongs to batch
  `b` and node `n`: a reshape to [4, 4096, 256] (same row-major positions), the exchange of the last two axes, and a
  unit axis appended. So entry (b, o, n, 0) of the result is entry (4096·b + n, o) of what the second pass left.
-/
import proofs.«101132_j28475633173124_1_alg».proof.Proof.Gen.KernelIdeal.Frame
import proofs.«101132_j28475633173124_1_alg».proof.Proof.EdgeConv
import Idealize.ShloMosaic.Lib.ValueIdx
import Idealize.ShloMosaic.Lib.Pipeline.Value
import Idealize.ShloMosaic.Lib.StableHlo.Run

noncomputable section

namespace Cert.KernelIdeal.HostMid

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- The result at (b, o, n, 0), read through the three layout operations from the outside in: the appended unit axis
    is dropped, the exchanged axes put (n, o) back in the order (node, channel), and the reshape keeps the row-major
    position (4096·b + n)·256 + o. -/
theorem v38_apply (b : Fin 4) (o : Fin 256) (n : Fin 4096) :
    W9 m ρ c (Proc.devRef .tc main_v38) (ix4 b o n 0)
      = V8 m ρ c main_v35 (ix2 (⟨b.val * 4096 + n.val, by have := b.isLt; have := n.isLt; omega⟩ : Fin 16384) o) := by
  -- the result as the stretch's three operations composed on what the second pass left
  have e : (W9 m ρ c (Proc.devRef .tc main_v38) : S4x256x4096x1.Idx → EReal)
      = broadcastInDim S4x256x4096x1 ![0, 1, 2] Facts₀.bcast_S4x256x4096_S4x256x4096x1_0_1_2
          (transpose S4x256x4096 [0, 2, 1]
            (shapeCast S4x4096x256 (V8 m ρ c main_v35 : S16384x256.Idx → EReal) Facts₀.shapeCasts_S16384x256_S4x4096x256)
            Facts₀.transposes_S4x4096x256_S4x256x4096_0_2_1) := by
    dsimp only [W9]; after_results; rfl
  rw [e]
  refine (broadcastInDim_apply (s := S4x256x4096) (t := S4x256x4096x1) _ _ _ (ix4 b o n 0) (ix3 b o n) ?_).trans ?_
  · intro a
    match a with
    | ⟨0, _⟩ => rfl
    | ⟨1, _⟩ => rfl
    | ⟨2, _⟩ => rfl
  refine (transpose_apply (s := S4x4096x256) (t := S4x256x4096) _ _ _ (ix3 b o n) (ix3 b n o) ?_).trans ?_
  · intro a
    match a with
    | ⟨0, _⟩ => rfl
    | ⟨1, _⟩ => rfl
    | ⟨2, _⟩ => rfl
  refine shapeCast_apply (s := S16384x256) (t := S4x4096x256) _ _ (ix3 b n o) (ix2 _ o) ?_
  rw [Shape.rowMajor_val_two, Shape.rowMajor_val_three]
  rfl

end Cert.KernelIdeal.HostMid

end
-- ==== Proof.PassBPayload.lean ====
import proofs.«101132_j28475633173124_1_alg».proof.Proof.Gen.KernelIdeal.Skeleton
import proofs.«101132_j28475633173124_1_alg».proof.Proof.EdgeConv
import Idealize.ShloMosaic.Lib.ValueIdx
import Idealize.ShloMosaic.Lib.Pipeline.Value
import Idealize.ShloMosaic.PureOps.Ideal.Laws

noncomputable section

namespace Cert.KernelIdeal.PassB

open Idealize.ShloMosaic Idealize.ShloMosaic.ValueIdx
open Cert.KernelIdeal Cert.KernelIdeal.Gen

/-- A per-channel row stretched over every node and neighbour of a block reads, at (p, k, q), the row at channel q. -/
theorem stretch_apply (x : FVec Ideal S1x1x256 .f32) (p : Fin 512) (k : Fin 16) (q : Fin 256) :
    broadcastTo S512x16x256 x broadcasts_S1x1x256_S512x16x256 (ix3 p k q) = x (ix3 0 0 q) := by
  refine broadcastTo_apply x _ (ix3 p k q) (ix3 0 0 q) (fun a => ?_)
  match a with
  | ⟨0, _⟩ => rfl
  | ⟨1, _⟩ => rfl
  | ⟨2, _⟩ => rfl

/-- Putting neighbour k back into the pooled index (p, q) gives (p, k, q). -/
theorem lift_eq (p : Fin 512) (k : Fin 16) (q : Fin 256) :
    reduces_S512x16x256_S512x256.lift (ix2 p q) k = ix3 p k q := by
  funext a
  match a with
  | ⟨0, _⟩ => rfl
  | ⟨1, _⟩ => rfl
  | ⟨2, _⟩ => rfl

/-- The maximum over the neighbour axis, read at node p and channel q: the fold of max, from the accumulator's
    value, over the 16 neighbours. -/
theorem pool_apply (src : FVec Ideal S512x16x256 .f32) (hφ : FKind.Formats .f32)
    (hacc : (0xFF800000#32 : BitVec 32) = FKind.maximumf.neutral .f32 hφ) (p : Fin 512) (q : Fin 256) :
    multiReduction (F := Ideal) .maximumf [1] S512x256 src 0xFF800000#32 reduces_S512x16x256_S512x256 hφ hacc (ix2 p q)
      = (Finset.univ : Finset (Fin 16)).fold max (Ideal.ofBits .f32 0xFF800000#32) (fun k => src (ix3 p k q)) :=
  (Ideal.multiReduction_maximumf_single src 0xFF800000#32 reduces_S512x16x256_S512x256 hφ hacc (ix2 p q)).trans
    (congrArg (fun f => (Finset.univ : Finset (Fin 16)).fold max (Ideal.ofBits .f32 0xFF800000#32) f)
      (funext fun k => congrArg src (lift_eq p k q)))

/-- The block's result at node p, channel q: the largest, over the 16 neighbours, of the normalized value. -/
theorem pay_apply (v0 : Vec Ideal S512x16x256 .bf16) (v3 v7 v11 v15 : Vec Ideal S1x1x256 .f32)
    (p : Fin 512) (q : Fin 256) :
    k1_pay1 v0 v3 v7 v11 v15 (ix2 p q)
      = (Finset.univ : Finset (Fin 16)).fold max (Ideal.ofBits .f32 0xFF800000#32)
          (fun k => EdgeConv.normed (v0 (ix3 p k q)) (v3 (ix3 0 0 q)) (v7 (ix3 0 0 q)) (v11 (ix3 0 0 q)) (v15 (ix3 0 0 q))) := by
  unfold k1_pay1
  refine (pool_apply _ _ _ p q).trans ?_
  refine congrArg (fun f => (Finset.univ : Finset (Fin 16)).fold max (Ideal.ofBits .f32 0xFF800000#32) f) (funext fun k => ?_)
  unfold EdgeConv.normed
  simp only [addf_apply, mulf_apply, subf_apply, extf_apply, shapeCast_self, stretch_apply]

end Cert.KernelIdeal.PassB

end
-- ==== Proof.PassBFinal.lean ====
import proofs.«101132_j28475633173124_1_alg».proof.Proof.Gen.KernelIdeal.Frame
import proofs.«101132_j28475633173124_1_alg».proof.Proof.PassBPayload
import Idealize.ShloMosaic.Lib.Pipeline.Value

noncomputable section

namespace Cert.KernelIdeal.PassB

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The pooled, normalized value at node n and channel o, read off the arrays the region is entered with. -/
def pooledAt (c : Dev nD) (n : Fin 16384) (o : Fin 256) : EReal :=
  (Finset.univ : Finset (Fin 16)).fold max (Ideal.ofBits .f32 0xFF800000#32)
    (fun k => EdgeConv.normed ((V c main_v30 : S16384x16x256.Idx → EReal) (ix3 n k o))
      ((V c main_v31 : S1x1x256.Idx → EReal) (ix3 0 0 o)) ((V c main_v32 : S1x1x256.Idx → EReal) (ix3 0 0 o))
      ((V c main_v33 : S1x1x256.Idx → EReal) (ix3 0 0 o)) ((V c main_v34 : S1x1x256.Idx → EReal) (ix3 0 0 o)))

/-- The whole result array as one function of its index. -/
def pooledArr (c : Dev nD) : S16384x256.Idx → EReal := fun i => pooledAt V c (i 0) (i 1)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Where each window's block sits at grid point t: the node blocks (windows 0 and 5) at block t along the node axis,
    the four per-channel rows always at their one block. -/
theorem block_indices : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 2) = t.val ∧ win1_5.index t (1 : Fin 2) = 0 :=
  (by decide +kernel : ∀ t : Fin grid1.N, _)

/-- The edge-feature block at point t holds nodes 512·t … 512·t + 511 of the array. -/
theorem feat_apply (c : Dev nD) (t : Fin cfg1.N) (p : Fin 512) (k : Fin 16) (q : Fin 256) (n : Fin 16384)
    (hn : n.val = t.val * 512 + p.val) :
    (iblk1 V c 0 t : Vec Ideal S512x16x256 .bf16) (ix3 p k q)
      = (V c main_v30 : S16384x16x256.Idx → EReal) (ix3 n k q) := by
  obtain ⟨e0, e1, e2, -⟩ := block_indices t
  unfold iblk1
  rw [View.read_apply]
  show (V c main_v30 : S16384x16x256.Idx → EReal) _ = _
  refine congrArg _ (funext fun a => Fin.ext ?_)
  match a with
  | ⟨0, _⟩ => show win1_0.index t (0 : Fin 3) * 512 + 1 * p.val = n.val; omega
  | ⟨1, _⟩ => show win1_0.index t (1 : Fin 3) * 16 + 1 * k.val = k.val; omega
  | ⟨2, _⟩ => show win1_0.index t (2 : Fin 3) * 256 + 1 * q.val = q.val; omega

/-- Each per-channel row's block is the row itself, at every point. -/
theorem mean_apply (c : Dev nD) (t : Fin cfg1.N) (q : Fin 256) :
    (iblk1 V c 1 t : Vec Ideal S1x1x256 .f32) (ix3 0 0 q) = (V c main_v31 : S1x1x256.Idx → EReal) (ix3 0 0 q) := by
  obtain ⟨-, -, -, e0, e1, e2, -⟩ := block_indices t
  unfold iblk1
  rw [View.read_apply]
  show (V c main_v31 : S1x1x256.Idx → EReal) _ = _
  refine congrArg _ (funext fun a => Fin.ext ?_)
  match a with
  | ⟨0, _⟩ => show win1_1.index t (0 : Fin 3) * 1 + 1 * 0 = 0; omega
  | ⟨1, _⟩ => show win1_1.index t (1 : Fin 3) * 1 + 1 * 0 = 0; omega
  | ⟨2, _⟩ => show win1_1.index t (2 : Fin 3) * 256 + 1 * q.val = q.val; omega

theorem scale_apply (c : Dev nD) (t : Fin cfg1.N) (q : Fin 256) :
    (iblk1 V c 2 t : Vec Ideal S1x1x256 .f32) (ix3 0 0 q) = (V c main_v32 : S1x1x256.Idx → EReal) (ix3 0 0 q) := by
  obtain ⟨-, -, -, -, -, -, e0, e1, e2, -⟩ := block_indices t
  unfold iblk1
  rw [View.read_apply]
  show (V c main_v32 : S1x1x256.Idx → EReal) _ = _
  refine congrArg _ (funext fun a => Fin.ext ?_)
  match a with
  | ⟨0, _⟩ => show win1_2.index t (0 : Fin 3) * 1 + 1 * 0 = 0; omega
  | ⟨1, _⟩ => show win1_2.index t (1 : Fin 3) * 1 + 1 * 0 = 0; omega
  | ⟨2, _⟩ => show win1_2.index t (2 : Fin 3) * 256 + 1 * q.val = q.val; omega

theorem gain_apply (c : Dev nD) (t : Fin cfg1.N) (q : Fin 256) :
    (iblk1 V c 3 t : Vec Ideal S1x1x256 .f32) (ix3 0 0 q) = (V c main_v33 : S1x1x256.Idx → EReal) (ix3 0 0 q) := by
  obtain ⟨-, -, -, -, -, -, -, -, -, e0, e1, e2, -⟩ := block_indices t
  unfold iblk1
  rw [View.read_apply]
  show (V c main_v33 : S1x1x256.Idx → EReal) _ = _
  refine congrArg _ (funext fun a => Fin.ext ?_)
  match a with
  | ⟨0, _⟩ => show win1_3.index t (0 : Fin 3) * 1 + 1 * 0 = 0; omega
  | ⟨1, _⟩ => show win1_3.index t (1 : Fin 3) * 1 + 1 * 0 = 0; omega
  | ⟨2, _⟩ => show win1_3.index t (2 : Fin 3) * 256 + 1 * q.val = q.val; omega

theorem shift_apply (c : Dev nD) (t : Fin cfg1.N) (q : Fin 256) :
    (iblk1 V c 4 t : Vec Ideal S1x1x256 .f32) (ix3 0 0 q) = (V c main_v34 : S1x1x256.Idx → EReal) (ix3 0 0 q) := by
  obtain ⟨-, -, -, -, -, -, -, -, -, -, -, -, e0, e1, e2, -⟩ := block_indices t
  unfold iblk1
  rw [View.read_apply]
  show (V c main_v34 : S1x1x256.Idx → EReal) _ = _
  refine congrArg _ (funext fun a => Fin.ext ?_)
  match a with
  | ⟨0, _⟩ => show win1_4.index t (0 : Fin 3) * 1 + 1 * 0 = 0; omega
  | ⟨1, _⟩ => show win1_4.index t (1 : Fin 3) * 1 + 1 * 0 = 0; omega
  | ⟨2, _⟩ => show win1_4.index t (2 : Fin 3) * 256 + 1 * q.val = q.val; omega

/-- Row p of the result block at point t is node 512·t + p of the result array. -/
theorem result_emb (t : Fin cfg1.N) (p : Fin 512) (q : Fin 256) (n : Fin 16384) (hn : n.val = t.val * 512 + p.val) :
    (((cfg1.win 5).blk t).view.emb (ix2 p q) : S16384x256.Idx) = ix2 n q := by
  obtain ⟨-, -, -, -, -, -, -, -, -, -, -, -, -, -, -, e0, e1⟩ := block_indices t
  refine funext fun a => Fin.ext ?_
  match a with
  | ⟨0, _⟩ => show win1_5.index t (0 : Fin 2) * 512 + 1 * p.val = n.val; omega
  | ⟨1, _⟩ => show win1_5.index t (1 : Fin 2) * 256 + 1 * q.val = q.val; omega

/-- What point t writes back is block t of the result array. -/
theorem flushed_eq (c : Dev nD) (t : Fin cfg1.N) :
    (dat1 V c).flushed 5 t = ((cfg1.win 5).blk t).view.read (Elt Ideal) (pooledArr V c) := by
  show (cfg1.win 5).cut (grid1.coords t) ((dat1 V c).after 5 t) = _
  rw [after1_5]
  unfold out1_5
  rw [View.canon_unit_zero zeros2]
  simp only [View.ld_unit_zero (S := S512x16x256) zeros3, View.ld_unit_zero (S := S1x1x256) zeros3]
  refine funext fun (j : S512x256.Idx) => ?_
  obtain ⟨p, q, rfl⟩ : ∃ (p : Fin 512) (q : Fin 256), j = ix2 p q := ⟨j 0, j 1, eq_ix2 j⟩
  have hN : cfg1.N = 32 := N_1
  have hn : t.val * 512 + p.val < 16384 := by have := t.isLt; have := p.isLt; omega
  rw [View.read_apply]
  show k1_pay1 (iblk1 V c 0 t) (iblk1 V c 1 t) (iblk1 V c 2 t) (iblk1 V c 3 t) (iblk1 V c 4 t) (ix2 p q)
    = pooledArr V c (((cfg1.win 5).blk t).view.emb (ix2 p q))
  rw [result_emb t p q ⟨_, hn⟩ rfl]
  refine (pay_apply (iblk1 V c 0 t) (iblk1 V c 1 t) (iblk1 V c 2 t) (iblk1 V c 3 t) (iblk1 V c 4 t) p q).trans ?_
  show _ = pooledAt V c ⟨_, hn⟩ q
  unfold pooledAt
  refine congrArg (fun f => (Finset.univ : Finset (Fin 16)).fold max (Ideal.ofBits .f32 0xFF800000#32) f) (funext fun k => ?_)
  rw [feat_apply V c t p k q ⟨_, hn⟩ rfl, mean_apply V c t q, scale_apply V c t q, gain_apply V c t q, shift_apply V c t q]

/-- An index of the result array is in point t's block iff each coordinate is in the block's range on its axis. -/
theorem mem_blk (t : Fin cfg1.N) (i : S16384x256.Idx) :
    i ∈ ((cfg1.win 5).blk t).view.set ↔ ∀ a : Fin 2, win1_5.index t a * S512x256.size a ≤ (i a).val ∧ (i a).val < win1_5.index t a * S512x256.size a + S512x256.size a := by
  show i ∈ ((View.whole main_v35).slice (win1_5.rect t)).set ↔ _
  rw [View.set_slice_whole, Rect.mem_set_unit]
  exact Iff.rfl

/-- Every node is in some point's block: node n in the block of point n / 512. -/
theorem cover (i : S16384x256.Idx) :
    ∃ t : Fin cfg1.N, (cfg1.win 5).flush t = true ∧ i ∈ ((cfg1.win 5).blk t).view.set := by
  have hi0 : (i 0).val < 16384 := (i 0).isLt
  have hi1 : (i 1).val < 256 := (i 1).isLt
  have hN : cfg1.N = 32 := N_1
  obtain ⟨t, ht⟩ : ∃ t : Fin cfg1.N, t.val = (i 0).val / 512 := ⟨⟨(i 0).val / 512, by omega⟩, rfl⟩
  obtain ⟨-, -, -, -, -, -, -, -, -, -, -, -, -, -, -, e0, e1⟩ := block_indices t
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 256 ≤ (i 1).val ∧ (i 1).val < win1_5.index t (1 : Fin 2) * 256 + 256; omega

/-- So the result array ends holding the pooled, normalized values everywhere. -/
theorem final (c : Dev nD) : (dat1 V c).arrAt 5 cfg1.N = pooledArr V c :=
  (dat1 V c).arrAt_eq_of_cover 5 (pooledArr V c) (fun t _ => flushed_eq V c t) cover

/-- The result array after the region, at node n and channel o. -/
theorem pooled_final (c : Dev nD) (n : Fin 16384) (o : Fin 256) :
    (dat1 V c).arrAt 5 cfg1.N (ix2 n o)
      = (Finset.univ : Finset (Fin 16)).fold max (Ideal.ofBits .f32 0xFF800000#32)
          (fun k => EdgeConv.normed (V c main_v30 (ix3 n k o)) (V c main_v31 (ix3 0 0 o)) (V c main_v32 (ix3 0 0 o))
                      (V c main_v33 (ix3 0 0 o)) (V c main_v34 (ix3 0 0 o))) :=
  congrFun (final V c) (ix2 n o)

end Cert.KernelIdeal.PassB

end
-- ==== Proof.PassABlocks.lean ====
import proofs.«101132_j28475633173124_1_alg».proof.Proof.Gen.KernelIdeal.Frame
import Idealize.ShloMosaic.Lib.ValueIdx
import Idealize.ShloMosaic.Lib.Pipeline.Value

/-!
# The statistics pass: what each grid point is shown, and what its first point leaves

The first pass walks the 262144 edge rows in 64 blocks of 4096 consecutive rows. At point `t` it is shown rows
`4096·t … 4096·t + 4095` of the edge-feature matrix (all 256 columns), and, at every point alike, the whole
256×256 weight matrix and the whole 1×256 bias row. The first three theorems say exactly that, element by element,
for whatever the three arrays hold when the pass begins.

At the first of the 64 points the body begins by storing a row of zeros into each of the two running-total rows, and
then does what every point does: it forms the activations of its 4096 rows, adds their column sums to the first
running total and the column sums of their squares to the second, and stores the rounded activations as its block
of the activation matrix. Each running-total row is therefore written twice at this point; the later store is the one
that remains, and the value it adds to is the row of zeros the earlier store left. Every load and store spans a whole
buffer, so what is loaded is the buffer's contents and what is stored becomes them. The last three theorems state the
three results as the arithmetic of the input blocks.
-/

noncomputable section

namespace Cert.KernelIdeal.PassA

open Cert.KernelIdeal Cert.KernelIdeal.Gen Idealize.ShloMosaic Idealize.ShloMosaic.ValueIdx
open Idealize.ShloMosaic.TcCoe Idealize.SL.Sem

variable {F : FTy → Type} [FloatOps F]

section InputBlocks
variable (V : (c : Dev nD) → (b : Ref sig .tc) → Buf (Elt F) ((c : Thread nD τ).loc b))

/-- Where the three input blocks sit at point `t`, in units of blocks: the feature block is the `t`-th along the rows
    and the first (only) one along the columns; the weight and bias blocks never move. A finite check over the 64
    points. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row `p`, column `k` of the feature block at point `t` is row `4096·t + p`, column `k` of the feature matrix:
    an element of a block sits at (block index × block extent + its place inside the block) on each axis. -/
theorem iblk0_0_apply (c : Dev nD) (t : Fin cfg0.N) (p : Fin 4096) (k : Fin 256) :
    iblk0 V c 0 t (ix2 p k) = V c main_v16 (ix2 (⟨t.val * 4096 + p.val, by have := t.isLt; have hN : cfg0.N = 64 := N_0; have := p.isLt; omega⟩ : Fin 262144) k) := by
  obtain ⟨e0, e1, -⟩ := idx_in t
  show V c main_v16 (((cfg0.win 0).blk t).view.emb (ix2 p k)) = V c main_v16 _
  refine congrArg (V c main_v16) ?_
  funext a; apply Fin.ext
  match a with
  | ⟨0, _⟩ => show win0_0.index t (0 : Fin 2) * 4096 + 1 * p.val = t.val * 4096 + p.val; omega
  | ⟨1, _⟩ => show win0_0.index t (1 : Fin 2) * 256 + 1 * k.val = k.val; omega

/-- The weight block at any point is the weight matrix itself. -/
theorem iblk0_1_apply (c : Dev nD) (t : Fin cfg0.N) (k o : Fin 256) :
    iblk0 V c 1 t (ix2 k o) = V c main_v18 (ix2 k o) := by
  obtain ⟨-, -, e0, e1, -⟩ := idx_in t
  show V c main_v18 (((cfg0.win 1).blk t).view.emb (ix2 k o)) = V c main_v18 _
  refine congrArg (V c main_v18) ?_
  funext a; apply Fin.ext
  match a with
  | ⟨0, _⟩ => show win0_1.index t (0 : Fin 2) * 256 + 1 * k.val = k.val; omega
  | ⟨1, _⟩ => show win0_1.index t (1 : Fin 2) * 256 + 1 * o.val = o.val; omega

/-- The bias block at any point is the bias row itself. -/
theorem iblk0_2_apply (c : Dev nD) (t : Fin cfg0.N) (o : Fin 256) :
    iblk0 V c 2 t (ix2 (0 : Fin 1) o) = V c main_v19 (ix2 (0 : Fin 1) o) := by
  obtain ⟨-, -, -, -, e0, e1⟩ := idx_in t
  show V c main_v19 (((cfg0.win 2).blk t).view.emb (ix2 (0 : Fin 1) o)) = V c main_v19 _
  refine congrArg (V c main_v19) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 256 + 1 * o.val = o.val; omega

end InputBlocks

/-- The zero offset of a two-axis block, spelt as the constant function. -/
private theorem hz : (![0, 0] : Fin 2 → Nat) = fun _ => 0 := funext fun a => by fin_cases a <;> rfl

/-- The activation block after the first point: the rounded activations of the point's rows. -/
theorem out0_A_3_eq (c : Dev nD) (i : grid0.Coords) (arg1 : Memref sig .tc .vmem S4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S4096x256 .f32) (x1 : Vec F S256x256 .bf16) (x2 : Vec F S1x256 .f32) :
    out0_A_3 c i arg1 harg1 arg2 harg2 arg3 harg3 arg4 harg4 arg5 harg5 arg6 harg6 hc0 x0 x1 x2 = k0_pay6 x0 x1 x2 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  rw [View.canon_unit_zero hz]
  simp only [View.readAt_eq_ld, harg1.read_unread, harg2.read_unread, harg3.read_unread,
    View.ld_unit_zero (S := S4096x256) hz, View.ld_unit_zero (S := S256x256) hz, View.ld_unit_zero (S := S1x256) hz]

/-- The running column sums after the first point: the zeros just stored plus this block's column sums. -/
theorem out0_A_4_eq (c : Dev nD) (i : grid0.Coords) (arg1 : Memref sig .tc .vmem S4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S4096x256 .f32) (x1 : Vec F S256x256 .bf16) (x2 : Vec F S1x256 .f32) :
    out0_A_4 c i arg1 harg1 arg2 harg2 arg3 harg3 arg4 harg4 arg5 harg5 arg6 harg6 hc0 x0 x1 x2 = k0_pay4 x0 x1 x2 (k0_pay1 (F := F)) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread,
    View.ld_unit_zero (S := S4096x256) hz, View.ld_unit_zero (S := S256x256) hz, View.ld_unit_zero (S := S1x256) hz]

/-- The running column sums of squares after the first point: the zeros just stored plus this block's. -/
theorem out0_A_5_eq (c : Dev nD) (i : grid0.Coords) (arg1 : Memref sig .tc .vmem S4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S4096x256 .f32) (x1 : Vec F S256x256 .bf16) (x2 : Vec F S1x256 .f32) :
    out0_A_5 c i arg1 harg1 arg2 harg2 arg3 harg3 arg4 harg4 arg5 harg5 arg6 harg6 hc0 x0 x1 x2 = k0_pay5 x0 x1 x2 (k0_pay2 (F := F)) := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread,
    View.ld_unit_zero (S := S4096x256) hz, View.ld_unit_zero (S := S256x256) hz, View.ld_unit_zero (S := S1x256) hz]

end Cert.KernelIdeal.PassA

end
-- ==== Proof.PassAPieces.lean ====
import proofs.«101132_j28475633173124_1_alg».proof.Proof.Gen.KernelIdeal.Frame
import Idealize.ShloMosaic.Lib.ValueIdx
import Idealize.ShloMosaic.Lib.Pipeline.Value
import proofs.«101132_j28475633173124_1_alg».proof.Proof.PassABlocks

/-!
# The statistics pass at its later points

At each of the other 63 points nothing is reset: the body forms the activations of its 4096 rows, adds their column
sums to the first running-total row as the point before left it, adds the column sums of their squares to the second
likewise, and stores the rounded activations as its block of the activation matrix. Each buffer is written once, by a
store that spans it, after loads that span the buffers they read. (The input blocks and the first point are in the
module imported above; together the nine theorems are everything the accumulation over the 64 points needs.)
-/

noncomputable section

namespace Cert.KernelIdeal.PassA

open Cert.KernelIdeal Cert.KernelIdeal.Gen Idealize.ShloMosaic Idealize.ShloMosaic.ValueIdx
open Idealize.ShloMosaic.TcCoe Idealize.SL.Sem

variable {F : FTy → Type} [FloatOps F]

/-- The zero offset of a two-axis block, spelt as the constant function. -/
private theorem hz : (![0, 0] : Fin 2 → Nat) = fun _ => 0 := funext fun a => by fin_cases a <;> rfl

/-- The activation block after a later point: the rounded activations of the point's rows. -/
theorem out0_B_3_eq (c : Dev nD) (i : grid0.Coords) (arg1 : Memref sig .tc .vmem S4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S4096x256 .f32) (x1 : Vec F S256x256 .bf16) (x2 : Vec F S1x256 .f32) (xo4 xo5 : Vec F S1x256 .f32) :
    out0_B_3 c i arg1 harg1 arg2 harg2 arg3 harg3 arg4 harg4 arg5 harg5 arg6 harg6 hc0 x0 x1 x2 xo4 xo5 = k0_pay6 x0 x1 x2 := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  rw [View.canon_unit_zero hz]
  simp only [View.readAt_eq_ld, harg1.read_unread, harg2.read_unread, harg3.read_unread,
    View.ld_unit_zero (S := S4096x256) hz, View.ld_unit_zero (S := S256x256) hz, View.ld_unit_zero (S := S1x256) hz]

/-- The running column sums after a later point: the carried row plus this block's column sums. -/
theorem out0_B_4_eq (c : Dev nD) (i : grid0.Coords) (arg1 : Memref sig .tc .vmem S4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S4096x256 .f32) (x1 : Vec F S256x256 .bf16) (x2 : Vec F S1x256 .f32) (xo4 xo5 : Vec F S1x256 .f32) :
    out0_B_4 c i arg1 harg1 arg2 harg2 arg3 harg3 arg4 harg4 arg5 harg5 arg6 harg6 hc0 x0 x1 x2 xo4 xo5 = k0_pay4 x0 x1 x2 xo4 := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  rw [View.canon_unit_zero hz]
  simp only [View.readAt_eq_ld, harg1.read_unread, harg2.read_unread, harg3.read_unread, harg5.read_unread,
    View.ld_unit_zero (S := S4096x256) hz, View.ld_unit_zero (S := S256x256) hz, View.ld_unit_zero (S := S1x256) hz]

/-- The running column sums of squares after a later point: the carried row plus this block's. -/
theorem out0_B_5_eq (c : Dev nD) (i : grid0.Coords) (arg1 : Memref sig .tc .vmem S4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S4096x256 .f32) (x1 : Vec F S256x256 .bf16) (x2 : Vec F S1x256 .f32) (xo4 xo5 : Vec F S1x256 .f32) :
    out0_B_5 c i arg1 harg1 arg2 harg2 arg3 harg3 arg4 harg4 arg5 harg5 arg6 harg6 hc0 x0 x1 x2 xo4 xo5 = k0_pay5 x0 x1 x2 xo5 := by
  unfold out0_B_5
  rw [View.read_writes_eq_canon _ _ _ (cover0_B_5 c i arg1 harg1 arg2 harg2 arg3 harg3 arg4 harg4 arg5 harg5 arg6 harg6 hc0 x0 x1 x2 xo4 xo5)]
  unfold kernelRun0_B
  dsimp only
  rw [View.canon_unit_zero hz]
  simp only [View.readAt_eq_ld, harg1.read_unread, harg2.read_unread, harg3.read_unread, harg6.read_unread,
    View.ld_unit_zero (S := S4096x256) hz, View.ld_unit_zero (S := S256x256) hz, View.ld_unit_zero (S := S1x256) hz]

end Cert.KernelIdeal.PassA

end
-- ==== Proof.PassAPayload.lean ====
/-
  The pass-A kernel body's arithmetic, read one element at a time on the extended reals.

  A block is 4096 consecutive rows of edge features, `x0` (4096 × 256), with the weights `x1` (256 × 256, laid
  out contraction-first) and the bias row `x2` (1 × 256). The body forms

    y p q = max (Σ_k x0 p k · x1 k q + x2 0 q) 0

  stores `y`, and adds the column sums of `y` and of `y · y` into two running rows. On the extended reals the
  format changes are the identity, so each of these is the formula as written.
-/
import proofs.«101132_j28475633173124_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PassA

open Idealize.ShloMosaic Idealize.ShloMosaic.ValueIdx Cert.KernelIdeal Cert.KernelIdeal.Gen

/-- The product's dimension numbers, under a short name. -/
abbrev mm : DotDims S4096x256 S256x256 S4096x256 := dot_S4096x256_S256x256_S4096x256_1_0_0_1_n_n

/-- The left operand is read at the output's row … -/
theorem mm_lhs_0 (j : S4096x256.Idx) (u : mm.contr.Idx) : (mm.lhsIdx j u 0).val = (j 0).val := by
  unfold DotDims.lhsIdx
  rw [dif_neg (show ¬(0 : Fin S4096x256.rank) ∈ mm.lhsBatch by decide),
    dif_pos (show (0 : Fin S4096x256.rank) ∈ mm.lhsNonContracting by decide)]
  rfl
/-- … and the contracted coordinate; -/
theorem mm_lhs_1 (j : S4096x256.Idx) (u : mm.contr.Idx) : (mm.lhsIdx j u 1).val = (u ⟨0, by decide⟩).val :=
  mm.lhsIdx_val_of_single rfl j u
/-- the right operand at the contracted coordinate … -/
theorem mm_rhs_0 (j : S4096x256.Idx) (u : mm.contr.Idx) : (mm.rhsIdx j u 0).val = (u ⟨0, by decide⟩).val :=
  mm.rhsIdx_val_of_single rfl j u
/-- … and the output's column. -/
theorem mm_rhs_1 (j : S4096x256.Idx) (u : mm.contr.Idx) : (mm.rhsIdx j u 1).val = (j 1).val := by
  unfold DotDims.rhsIdx
  rw [dif_neg (show ¬(1 : Fin S256x256.rank) ∈ mm.rhsBatch by decide),
    dif_pos (show (1 : Fin S256x256.rank) ∈ mm.rhsNonContracting by decide)]
  rfl

/-- The block's matrix product at row `p`, column `q`: the sum over the contracted axis. -/
theorem matmul_at (a : FVec Ideal S4096x256 .bf16) (b : FVec Ideal S256x256 .bf16) (p : Fin 4096) (q : Fin 256) :
    matmul mm none a b (constant S4096x256 .f32 0x00000000#32) (ix2 p q)
      = ∑ k : Fin 256, a (ix2 p k) * b (ix2 k q) := by
  refine (Ideal.matmul_constant_zero_apply mm none a b (ix2 p q)).trans ?_
  rw [← Equiv.sum_comp (contrEquiv1 mm 256 rfl rfl).symm]
  refine Finset.sum_congr rfl fun k _ => ?_
  have hk := contrEquiv1_symm_val mm 256 rfl rfl k
  have el : mm.lhsIdx (ix2 p q) ((contrEquiv1 mm 256 rfl rfl).symm k) = ix2 p k :=
    funext fun a => Fin.ext (by
      match a with
      | ⟨0, _⟩ => exact mm_lhs_0 _ _
      | ⟨1, _⟩ => exact (mm_lhs_1 _ _).trans hk)
  have er : mm.rhsIdx (ix2 p q) ((contrEquiv1 mm 256 rfl rfl).symm k) = ix2 k q :=
    funext fun a => Fin.ext (by
      match a with
      | ⟨0, _⟩ => exact (mm_rhs_0 _ _).trans hk
      | ⟨1, _⟩ => exact mm_rhs_1 _ _)
  rw [el, er]

/-- The clamped affine row map at row `p`, column `q` of the block. -/
theorem pay3_apply (x0 : Vec Ideal S4096x256 .f32) (x1 : Vec Ideal S256x256 .bf16) (x2 : Vec Ideal S1x256 .f32)
    (p : Fin 4096) (q : Fin 256) :
    (k0_pay3 (F := Ideal) x0 x1 x2 (ix2 p q) : EReal)
      = max ((∑ k : Fin 256, (x0 (ix2 p k) : EReal) * (x1 (ix2 k q) : EReal)) + (x2 (ix2 (0 : Fin 1) q) : EReal)) 0 := by
  unfold k0_pay3
  simp only [shapeCast_self]
  rw [maximumf_apply, addf_apply, matmul_at, broadcastTo_1b_ab_apply, broadcast_apply]
  simp only [truncf_apply]
  show max _ (Ideal.ofBits .f32 0x00000000#32) = _
  rw [Ideal.ofBits_zero_f32]

/-- The reduction over the block's rows, at column `q`: the sum of that column. -/
theorem colsum_at (v : FVec Ideal S4096x256 .f32) (hφ : FKind.Formats .f32)
    (hacc : (0x00000000#32 : BitVec 32) = 0x00000000#32) (q : Fin 256) :
    multiReduction .add [0] S256 v 0x00000000#32 reduces_S4096x256_S256 hφ hacc (ix1 q)
      = ∑ p : Fin 4096, v (ix2 p q) := by
  refine (Ideal.multiReduction_add_single v _ reduces_S4096x256_S256 hφ hacc (ix1 q)).trans ?_
  refine Finset.sum_congr rfl fun p _ => congrArg v ?_
  funext a
  match a with
  | ⟨0, _⟩ => rfl
  | ⟨1, _⟩ => rfl

/-- The running column sums after this block: what was there plus the block's column sums. -/
theorem pay4_apply (x0 : Vec Ideal S4096x256 .f32) (x1 : Vec Ideal S256x256 .bf16) (x2 : Vec Ideal S1x256 .f32)
    (xo : Vec Ideal S1x256 .f32) (q : Fin 256) :
    (k0_pay4 (F := Ideal) x0 x1 x2 xo (ix2 (0 : Fin 1) q) : EReal)
      = (xo (ix2 (0 : Fin 1) q) : EReal) + ∑ p : Fin 4096, (k0_pay3 (F := Ideal) x0 x1 x2 (ix2 p q) : EReal) := by
  unfold k0_pay4
  simp only [shapeCast_self]
  rw [addf_apply, shapeCast_a_1a_apply]
  exact congrArg (fun z : EReal => (xo (ix2 (0 : Fin 1) q) : EReal) + z) (colsum_at _ _ _ q)

/-- The running column sums of squares after this block. -/
theorem pay5_apply (x0 : Vec Ideal S4096x256 .f32) (x1 : Vec Ideal S256x256 .bf16) (x2 : Vec Ideal S1x256 .f32)
    (xo : Vec Ideal S1x256 .f32) (q : Fin 256) :
    (k0_pay5 (F := Ideal) x0 x1 x2 xo (ix2 (0 : Fin 1) q) : EReal)
      = (xo (ix2 (0 : Fin 1) q) : EReal)
        + ∑ p : Fin 4096, (k0_pay3 (F := Ideal) x0 x1 x2 (ix2 p q) : EReal) * (k0_pay3 (F := Ideal) x0 x1 x2 (ix2 p q) : EReal) := by
  unfold k0_pay5
  simp only [shapeCast_self]
  rw [addf_apply, shapeCast_a_1a_apply]
  exact congrArg (fun z : EReal => (xo (ix2 (0 : Fin 1) q) : EReal) + z)
    ((colsum_at _ _ _ q).trans (Finset.sum_congr rfl fun p _ => rfl))

/-- What is stored for the next pass is the clamped map itself. -/
theorem pay6_apply (x0 : Vec Ideal S4096x256 .f32) (x1 : Vec Ideal S256x256 .bf16) (x2 : Vec Ideal S1x256 .f32)
    (j : S4096x256.Idx) :
    (k0_pay6 (F := Ideal) x0 x1 x2 j : EReal) = (k0_pay3 (F := Ideal) x0 x1 x2 j : EReal) := rfl

/-- The running sums start from zero. -/
theorem pay1_apply (j : S1x256.Idx) : (k0_pay1 (F := Ideal) j : EReal) = 0 := by
  show Ideal.ofBits .f32 0x00000000#32 = 0
  exact Ideal.ofBits_zero_f32
theorem pay2_apply (j : S1x256.Idx) : (k0_pay2 (F := Ideal) j : EReal) = 0 := by
  show Ideal.ofBits .f32 0x00000000#32 = 0
  exact Ideal.ofBits_zero_f32

/-! ## The three arrays the kernel reads, as plain functions of coordinates -/

section Inputs

open Idealize.ShloMosaic.TcCoe Idealize.SL.Sem

variable (V : (c : Dev nD) → (b : Ref sig .tc) → Buf (Elt Ideal) ((c : Thread nD τ).loc b))

/-- The edge features, one row per (batch, node, neighbour). -/
def hK (c : Dev nD) : Fin 262144 → Fin 256 → EReal := fun r k => V c main_v16 (ix2 r k)
/-- The weights, contraction axis first. -/
def wK (c : Dev nD) : Fin 256 → Fin 256 → EReal := fun k o => V c main_v18 (ix2 k o)
/-- The bias. -/
def bK (c : Dev nD) : Fin 256 → EReal := fun o => V c main_v19 (ix2 (0 : Fin 1) o)

end Inputs

end Cert.KernelIdeal.PassA

end
-- ==== Proof.PassAAccum.lean ====
/-
  What the pass-A kernel's three output buffers hold after each grid point.

  Point `t` reads block `t` of the edge features (rows `4096·t … 4096·t + 4095`) and the whole weights and bias.
  It leaves the clamped row map of its block in the first buffer, and in the two running rows the sums, over the
  blocks `0 … t`, of each block's column sums of the map and of its square: the first point starts both from zero,
  every later point adds its block's column sums to what the point before left.
-/
import proofs.«101132_j28475633173124_1_alg».proof.Proof.PassAPieces
import proofs.«101132_j28475633173124_1_alg».proof.Proof.PassAPayload
import proofs.«101132_j28475633173124_1_alg».proof.Proof.EdgeConv

noncomputable section

namespace Cert.KernelIdeal.PassA

open Idealize.ShloMosaic Idealize.ShloMosaic.ValueIdx Cert.KernelIdeal Cert.KernelIdeal.Gen

open Idealize.ShloMosaic.TcCoe Idealize.SL.Sem
open Idealize.ShloMosaic.Pipeline (Dat)

variable (V : (c : Dev nD) → (b : Ref sig .tc) → Buf (Elt Ideal) ((c : Thread nD τ).loc b))

/-- Row `p` of the block point `t` reads, at output channel `q`: the layer's clamped row map at that row. -/
theorem block_act (c : Dev nD) (t : Fin cfg0.N) (ht : t.val < 64) (p : Fin 4096) (q : Fin 256) :
    (k0_pay3 (F := Ideal) (iblk0 V c 0 t) (iblk0 V c 1 t) (iblk0 V c 2 t) (ix2 p q) : EReal)
      = EdgeConv.act (hK V c) (wK V c) (bK V c) (EdgeConv.blockRow ⟨t.val, ht⟩ p) q := by
  refine (pay3_apply (iblk0 V c 0 t) (iblk0 V c 1 t) (iblk0 V c 2 t) p q).trans ?_
  unfold EdgeConv.act hK wK bK
  simp only [iblk0_0_apply, iblk0_1_apply, iblk0_2_apply]
  rfl

/-- The buffers after the first point of the run: the block's map, and its column sums added to zero. -/
theorem outs_first (c : Dev nD) (t : Fin cfg0.N) (h0 : t.val % 64 = 0) :
    outsAt0 V c t.val t.isLt
      = (k0_pay6 (iblk0 V c 0 t) (iblk0 V c 1 t) (iblk0 V c 2 t),
         k0_pay4 (iblk0 V c 0 t) (iblk0 V c 1 t) (iblk0 V c 2 t) (k0_pay1 (F := Ideal)),
         k0_pay5 (iblk0 V c 0 t) (iblk0 V c 1 t) (iblk0 V c 2 t) (k0_pay2 (F := Ideal))) :=
  (outsAt0_A V c t h0).trans
    (congrArg₂ Prod.mk
      (out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (congrArg₂ Prod.mk
        (out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
        (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))))

/-- The buffers after any later point: the block's map, and its column sums added to what the point before left. -/
theorem outs_next (c : Dev nD) (t : Fin cfg0.N) (h0 : ¬t.val % 64 = 0) :
    outsAt0 V c t.val t.isLt
      = (k0_pay6 (iblk0 V c 0 t) (iblk0 V c 1 t) (iblk0 V c 2 t),
         k0_pay4 (iblk0 V c 0 t) (iblk0 V c 1 t) (iblk0 V c 2 t) (outsAt0 V c (t.val - 1) (Nat.lt_of_le_of_lt (Nat.sub_le _ _) t.isLt)).2.1,
         k0_pay5 (iblk0 V c 0 t) (iblk0 V c 1 t) (iblk0 V c 2 t) (outsAt0 V c (t.val - 1) (Nat.lt_of_le_of_lt (Nat.sub_le _ _) t.isLt)).2.2) :=
  (outsAt0_B V c t h0).trans
    (congrArg₂ Prod.mk
      (out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
        (outsAt0 V c (t.val - 1) (Nat.lt_of_le_of_lt (Nat.sub_le _ _) t.isLt)).2.1
        (outsAt0 V c (t.val - 1) (Nat.lt_of_le_of_lt (Nat.sub_le _ _) t.isLt)).2.2)
      (congrArg₂ Prod.mk
        (out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
          (outsAt0 V c (t.val - 1) (Nat.lt_of_le_of_lt (Nat.sub_le _ _) t.isLt)).2.1
          (outsAt0 V c (t.val - 1) (Nat.lt_of_le_of_lt (Nat.sub_le _ _) t.isLt)).2.2)
        (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
          (outsAt0 V c (t.val - 1) (Nat.lt_of_le_of_lt (Nat.sub_le _ _) t.isLt)).2.1
          (outsAt0 V c (t.val - 1) (Nat.lt_of_le_of_lt (Nat.sub_le _ _) t.isLt)).2.2)))

/-- THE STORED MAP. After point `t` the first buffer holds, at row `p` and channel `q`, the layer's clamped row map
    at row `4096·t + p`. -/
theorem y_point (c : Dev nD) (t : Fin cfg0.N) (ht : t.val < 64) (p : Fin 4096) (q : Fin 256) :
    ((outsAt0 V c t.val t.isLt).1 (ix2 p q) : EReal) = EdgeConv.act (hK V c) (wK V c) (bK V c) (EdgeConv.blockRow ⟨t.val, ht⟩ p) q := by
  by_cases h0 : t.val % 64 = 0
  · rw [outs_first V c t h0]
    exact block_act V c t ht p q
  · rw [outs_next V c t h0]
    exact block_act V c t ht p q

/-- The sum of a row-indexed quantity over the rows of block number `s` (zero past the last block, so that it is a
    function of every natural number). -/
def blockSum (f : Fin 262144 → EReal) (s : ℕ) : EReal :=
  if h : s < 64 then ∑ p : Fin 4096, f (EdgeConv.blockRow ⟨s, h⟩ p) else 0

/-- Over all 64 blocks these are the block-by-block total. -/
theorem blockSum_total (f : Fin 262144 → EReal) : ∑ s ∈ Finset.range 64, blockSum f s = EdgeConv.blockTotal f := by
  rw [Finset.sum_range]
  unfold EdgeConv.blockTotal
  refine Finset.sum_congr rfl fun s _ => ?_
  unfold blockSum
  rw [dif_pos s.isLt]

/-- The column sums of the map over the block point `t` reads. -/
theorem block_sum (c : Dev nD) (t : Fin cfg0.N) (q : Fin 256) :
    ∑ p : Fin 4096, (k0_pay3 (F := Ideal) (iblk0 V c 0 t) (iblk0 V c 1 t) (iblk0 V c 2 t) (ix2 p q) : EReal)
      = blockSum (fun r => EdgeConv.act (hK V c) (wK V c) (bK V c) r q) t.val := by
  have ht : t.val < 64 := lt_of_lt_of_eq t.isLt (show cfg0.N = 64 from N_0)
  unfold blockSum
  rw [dif_pos ht]
  exact Finset.sum_congr rfl fun p _ => block_act V c t ht p q

/-- The column sums of the map's square over the block point `t` reads. -/
theorem block_sumsq (c : Dev nD) (t : Fin cfg0.N) (q : Fin 256) :
    ∑ p : Fin 4096, (k0_pay3 (F := Ideal) (iblk0 V c 0 t) (iblk0 V c 1 t) (iblk0 V c 2 t) (ix2 p q) : EReal)
        * (k0_pay3 (F := Ideal) (iblk0 V c 0 t) (iblk0 V c 1 t) (iblk0 V c 2 t) (ix2 p q) : EReal)
      = blockSum (fun r => EdgeConv.act (hK V c) (wK V c) (bK V c) r q * EdgeConv.act (hK V c) (wK V c) (bK V c) r q) t.val := by
  have ht : t.val < 64 := lt_of_lt_of_eq t.isLt (show cfg0.N = 64 from N_0)
  unfold blockSum
  rw [dif_pos ht]
  exact Finset.sum_congr rfl fun p _ => by rw [block_act V c t ht p q]

/-- THE RUNNING SUM. After point `n` the second buffer holds, at channel `q`, the sum over the blocks `0 … n` of the
    map's column sums: by induction on the point. -/
theorem sum_after (c : Dev nD) : ∀ (n : ℕ) (hn : n < cfg0.N) (q : Fin 256),
    ((outsAt0 V c n hn).2.1 (ix2 (0 : Fin 1) q) : EReal)
      = ∑ s ∈ Finset.range (n + 1), blockSum (fun r => EdgeConv.act (hK V c) (wK V c) (bK V c) r q) s
  | 0, hn, q => by
    rw [outs_first V c ⟨0, hn⟩ rfl]
    refine (pay4_apply (iblk0 V c 0 ⟨0, hn⟩) (iblk0 V c 1 ⟨0, hn⟩) (iblk0 V c 2 ⟨0, hn⟩) (k0_pay1 (F := Ideal)) q).trans ?_
    rw [pay1_apply, zero_add, Finset.sum_range_one]
    exact block_sum V c ⟨0, hn⟩ q
  | n + 1, hn, q => by
    have hN : cfg0.N = 64 := N_0
    have hB : ¬(⟨n + 1, hn⟩ : Fin cfg0.N).val % 64 = 0 := by dsimp only; omega
    rw [outs_next V c ⟨n + 1, hn⟩ hB]
    refine (pay4_apply (iblk0 V c 0 ⟨n + 1, hn⟩) (iblk0 V c 1 ⟨n + 1, hn⟩) (iblk0 V c 2 ⟨n + 1, hn⟩) _ q).trans ?_
    rw [Finset.sum_range_succ _ (n + 1)]
    exact congrArg₂ (· + ·) (sum_after c n (Nat.lt_of_succ_lt hn) q) (block_sum V c ⟨n + 1, hn⟩ q)

/-- THE RUNNING SUM OF SQUARES, likewise, in the third buffer. -/
theorem sumsq_after (c : Dev nD) : ∀ (n : ℕ) (hn : n < cfg0.N) (q : Fin 256),
    ((outsAt0 V c n hn).2.2 (ix2 (0 : Fin 1) q) : EReal)
      = ∑ s ∈ Finset.range (n + 1), blockSum (fun r => EdgeConv.act (hK V c) (wK V c) (bK V c) r q * EdgeConv.act (hK V c) (wK V c) (bK V c) r q) s
  | 0, hn, q => by
    rw [outs_first V c ⟨0, hn⟩ rfl]
    refine (pay5_apply (iblk0 V c 0 ⟨0, hn⟩) (iblk0 V c 1 ⟨0, hn⟩) (iblk0 V c 2 ⟨0, hn⟩) (k0_pay2 (F := Ideal)) q).trans ?_
    rw [pay2_apply, zero_add, Finset.sum_range_one]
    exact block_sumsq V c ⟨0, hn⟩ q
  | n + 1, hn, q => by
    have hN : cfg0.N = 64 := N_0
    have hB : ¬(⟨n + 1, hn⟩ : Fin cfg0.N).val % 64 = 0 := by dsimp only; omega
    rw [outs_next V c ⟨n + 1, hn⟩ hB]
    refine (pay5_apply (iblk0 V c 0 ⟨n + 1, hn⟩) (iblk0 V c 1 ⟨n + 1, hn⟩) (iblk0 V c 2 ⟨n + 1, hn⟩) _ q).trans ?_
    rw [Finset.sum_range_succ _ (n + 1)]
    exact congrArg₂ (· + ·) (sumsq_after c n (Nat.lt_of_succ_lt hn) q) (block_sumsq V c ⟨n + 1, hn⟩ q)

end Cert.KernelIdeal.PassA

end
-- ==== Proof.PassAFinal.lean ====
/-
  The three arrays the pass-A kernel writes, after its whole grid has run.

  The stored map is written back block by block: point `t` writes rows `4096·t … 4096·t + 4095`, the 64 blocks
  tile the array, and every block is the layer's clamped row map restricted to its rows; so the array ends holding
  that map at every row. The two rows of running sums are written back once, after the last point, when they hold
  the sums over all 64 blocks: the block-by-block totals of the map and of its square.
-/
import proofs.«101132_j28475633173124_1_alg».proof.Proof.PassAAccum

noncomputable section

namespace Cert.KernelIdeal.PassA

open Idealize.ShloMosaic Idealize.ShloMosaic.ValueIdx Cert.KernelIdeal Cert.KernelIdeal.Gen

open Idealize.ShloMosaic.TcCoe Idealize.SL.Sem
open Idealize.ShloMosaic.Pipeline (Dat)

variable (V : (c : Dev nD) → (b : Ref sig .tc) → Buf (Elt Ideal) ((c : Thread nD τ).loc b))

/-- The printed index maps of the three output windows, decided over the grid: the stored map's block moves with the
    point, the two rows of sums stay at block 0. -/
theorem idx_out : ∀ t : Fin cfg0.N, win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The last grid point. -/
abbrev tLast : Fin cfg0.N := ⟨63, by rw [show cfg0.N = 64 from N_0]; decide⟩

/-! ## The stored map -/

/-- The layer's clamped row map as contents of the whole array. -/
def yArr (c : Dev nD) : Vec Ideal S262144x256 .f32 := fun i => (EdgeConv.act (hK V c) (wK V c) (bK V c) (i 0) (i 1) : EReal)

/-- The first buffer after point `t`, at any index of the block. -/
theorem y_point' (c : Dev nD) (t : Fin cfg0.N) (ht : t.val < 64) (j : S4096x256.Idx) :
    ((outsAt0 V c t.val t.isLt).1 j : EReal) = EdgeConv.act (hK V c) (wK V c) (bK V c) (EdgeConv.blockRow ⟨t.val, ht⟩ (j 0)) (j 1) :=
  (congrArg (fun j' => ((outsAt0 V c t.val t.isLt).1 j' : EReal)) (eq_ix2 j)).trans (y_point V c t ht (j 0) (j 1))

/-- What point `t` writes back is block `t` of the map. -/
theorem flushed3 (c : Dev nD) (t : Fin cfg0.N) :
    (dat0 V c).flushed 3 t = ((cfg0.win 3).blk t).view.read (Elt Ideal) (yArr V c) := by
  have ht : t.val < 64 := lt_of_lt_of_eq t.isLt (show cfg0.N = 64 from N_0)
  show (cfg0.win 3).cut (grid0.coords t) ((dat0 V c).after 3 t) = _
  rw [after0_3]
  obtain ⟨e0, e1, -⟩ := idx_out t
  refine funext fun j => ?_
  show ((outsAt0 V c t.val t.isLt).1 j : EReal) = yArr V c (((cfg0.win 3).blk t).view.emb j)
  refine (y_point' V c t ht j).trans ?_
  unfold yArr
  refine congrArg₂ (EdgeConv.act (hK V c) (wK V c) (bK V c)) (Fin.ext ?_) (Fin.ext ?_)
  · show t.val * 4096 + (j 0).val = win0_3.index t (0 : Fin 2) * 4096 + 1 * (j 0).val
    rw [e0]; omega
  · show (j 1).val = win0_3.index t (1 : Fin 2) * 256 + 1 * (j 1).val
    rw [e1]; omega

/-- An index of the array is in point `t`'s block iff each coordinate is in the block's range on its axis. -/
theorem mem_blk3 (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v20_0).slice (win0_3.rect t)).set ↔ _
  rw [View.set_slice_whole, Rect.mem_set_unit]
  exact Iff.rfl

/-- Row `r` lies in the block of point `r / 4096`: the blocks tile the array. -/
theorem cover3 (i : S262144x256.Idx) :
    ∃ t : Fin cfg0.N, (cfg0.win 3).flush t = true ∧ i ∈ ((cfg0.win 3).blk t).view.set := by
  have hi0 : (i 0).val < 262144 := idx2_lt0 i
  have hi1 : (i 1).val < 256 := idx2_lt1 i
  refine ⟨⟨(i 0).val / 4096, by rw [show cfg0.N = 64 from N_0]; omega⟩, flush0_3 _, ?_⟩
  rw [mem_blk3]
  obtain ⟨e0, e1, -⟩ := idx_out ⟨(i 0).val / 4096, by rw [show cfg0.N = 64 from N_0]; omega⟩
  intro a
  match a with
  | ⟨0, _⟩ =>
    show win0_3.index _ (0 : Fin 2) * 4096 ≤ (i 0).val ∧ (i 0).val < win0_3.index _ (0 : Fin 2) * 4096 + 4096
    rw [e0]; dsimp only; omega
  | ⟨1, _⟩ =>
    show win0_3.index _ (1 : Fin 2) * 256 ≤ (i 1).val ∧ (i 1).val < win0_3.index _ (1 : Fin 2) * 256 + 256
    rw [e1]; omega

/-- The array of the stored map after the run. -/
theorem y_arr (c : Dev nD) : (dat0 V c).arrAt 3 cfg0.N = yArr V c :=
  (dat0 V c).arrAt_eq_of_cover 3 (yArr V c) (fun t _ => flushed3 V c t) cover3

theorem y_final (c : Dev nD) (r : Fin 262144) (o : Fin 256) :
    ((dat0 V c).arrAt 3 cfg0.N (ix2 r o) : EReal) = EdgeConv.act (hK V c) (wK V c) (bK V c) r o :=
  congrFun (y_arr V c) (ix2 r o)

/-! ## The sums -/

/-- The block-by-block total of the map, channel by channel, as contents of the row of sums. -/
def sumRow (c : Dev nD) : Vec Ideal S1x256 .f32 := fun i => (EdgeConv.blockTotal (fun r => EdgeConv.act (hK V c) (wK V c) (bK V c) r (i 1)) : EReal)

/-- After the last point the second buffer holds the totals over all 64 blocks. -/
theorem sum_last (c : Dev nD) (t : Fin cfg0.N) (h63 : t.val = 63) : (outsAt0 V c t.val t.isLt).2.1 = sumRow V c := by
  refine funext fun j => ?_
  obtain ⟨u, q, rfl⟩ : ∃ (u : Fin 1) (q : Fin 256), j = ix2 u q := ⟨j 0, j 1, eq_ix2 j⟩
  obtain rfl : u = 0 := Subsingleton.elim _ _
  refine (sum_after V c t.val t.isLt q).trans ?_
  rw [h63]
  exact blockSum_total _

/-- The one write-back of the row of sums, after the last point, writes the totals (its one block is the whole row). -/
theorem flushed4 (c : Dev nD) (t : Fin cfg0.N) (hf : (cfg0.win 4).flush t = true) :
    (dat0 V c).flushed 4 t = ((cfg0.win 4).blk t).view.read (Elt Ideal) (sumRow V c) := by
  have hN : cfg0.N = 64 := N_0
  have h63 : t.val = 63 := by have := (flush0_4 t).mp hf; have := t.isLt; omega
  show (cfg0.win 4).cut (grid0.coords t) ((dat0 V c).after 4 t) = _
  rw [after0_4, sum_last V c t h63]
  obtain ⟨-, -, e0, e1, -, -⟩ := idx_out t
  have hz' : (fun a => win0_4.index t a * main_v20_1.ty.shape.size a) = fun _ => 0 := funext fun a => by
    match a with
    | ⟨0, _⟩ => show win0_4.index t (0 : Fin 2) * 1 = 0; rw [e0]
    | ⟨1, _⟩ => show win0_4.index t (1 : Fin 2) * 256 = 0; rw [e1]
  exact (Memref.read_access_unit_zero (Elt Ideal) main_v20_1 hz' (fun a => by rw [congrFun hz' a]; simp) (sumRow V c)).symm

/-- The one block is the whole row: every index is in the last point's block. -/
theorem cover4 (i : S1x256.Idx) :
    ∃ t : Fin cfg0.N, (cfg0.win 4).flush t = true ∧ i ∈ ((cfg0.win 4).blk t).view.set := by
  have hi0 : (i 0).val < 1 := idx2_lt0 i
  have hi1 : (i 1).val < 256 := idx2_lt1 i
  refine ⟨tLast, (flush0_4 tLast).mpr rfl, ?_⟩
  show i ∈ ((View.whole main_v20_1).slice (win0_4.rect tLast)).set
  rw [View.set_slice_whole, Rect.mem_set_unit]
  obtain ⟨-, -, e0, e1, -, -⟩ := idx_out tLast
  intro a
  match a with
  | ⟨0, _⟩ =>
    show win0_4.index tLast (0 : Fin 2) * 1 ≤ (i 0).val ∧ (i 0).val < win0_4.index tLast (0 : Fin 2) * 1 + 1
    rw [e0]; omega
  | ⟨1, _⟩ =>
    show win0_4.index tLast (1 : Fin 2) * 256 ≤ (i 1).val ∧ (i 1).val < win0_4.index tLast (1 : Fin 2) * 256 + 256
    rw [e1]; omega

/-- The row of sums after the run. -/
theorem sum_arr (c : Dev nD) : (dat0 V c).arrAt 4 cfg0.N = sumRow V c :=
  (dat0 V c).arrAt_eq_of_cover 4 (sumRow V c) (fun t hf => flushed4 V c t hf) cover4

theorem sum_final (c : Dev nD) (o : Fin 256) :
    ((dat0 V c).arrAt 4 cfg0.N (ix2 (0 : Fin 1) o) : EReal)
      = EdgeConv.blockTotal (fun r => EdgeConv.act (hK V c) (wK V c) (bK V c) r o) :=
  congrFun (sum_arr V c) (ix2 (0 : Fin 1) o)

/-- The block-by-block total of the map's square, channel by channel, as contents of the row of sums of squares. -/
def sumsqRow (c : Dev nD) : Vec Ideal S1x256 .f32 := fun i => (EdgeConv.blockTotal (fun r => EdgeConv.act (hK V c) (wK V c) (bK V c) r (i 1) * EdgeConv.act (hK V c) (wK V c) (bK V c) r (i 1)) : EReal)

/-- After the last point the third buffer holds the totals of the squares over all 64 blocks. -/
theorem sumsq_last (c : Dev nD) (t : Fin cfg0.N) (h63 : t.val = 63) : (outsAt0 V c t.val t.isLt).2.2 = sumsqRow V c := by
  refine funext fun j => ?_
  obtain ⟨u, q, rfl⟩ : ∃ (u : Fin 1) (q : Fin 256), j = ix2 u q := ⟨j 0, j 1, eq_ix2 j⟩
  obtain rfl : u = 0 := Subsingleton.elim _ _
  refine (sumsq_after V c t.val t.isLt q).trans ?_
  rw [h63]
  exact blockSum_total _

/-- The one write-back of the row of sums of squares, after the last point, writes the totals. -/
theorem flushed5 (c : Dev nD) (t : Fin cfg0.N) (hf : (cfg0.win 5).flush t = true) :
    (dat0 V c).flushed 5 t = ((cfg0.win 5).blk t).view.read (Elt Ideal) (sumsqRow V c) := by
  have hN : cfg0.N = 64 := N_0
  have h63 : t.val = 63 := by have := (flush0_5 t).mp hf; have := t.isLt; omega
  show (cfg0.win 5).cut (grid0.coords t) ((dat0 V c).after 5 t) = _
  rw [after0_5, sumsq_last V c t h63]
  obtain ⟨-, -, -, -, e0, e1⟩ := idx_out t
  have hz' : (fun a => win0_5.index t a * main_v20_2.ty.shape.size a) = fun _ => 0 := funext fun a => by
    match a with
    | ⟨0, _⟩ => show win0_5.index t (0 : Fin 2) * 1 = 0; rw [e0]
    | ⟨1, _⟩ => show win0_5.index t (1 : Fin 2) * 256 = 0; rw [e1]
  exact (Memref.read_access_unit_zero (Elt Ideal) main_v20_2 hz' (fun a => by rw [congrFun hz' a]; simp) (sumsqRow V c)).symm

/-- The one block is the whole row: every index is in the last point's block. -/
theorem cover5 (i : S1x256.Idx) :
    ∃ t : Fin cfg0.N, (cfg0.win 5).flush t = true ∧ i ∈ ((cfg0.win 5).blk t).view.set := by
  have hi0 : (i 0).val < 1 := idx2_lt0 i
  have hi1 : (i 1).val < 256 := idx2_lt1 i
  refine ⟨tLast, (flush0_5 tLast).mpr rfl, ?_⟩
  show i ∈ ((View.whole main_v20_2).slice (win0_5.rect tLast)).set
  rw [View.set_slice_whole, Rect.mem_set_unit]
  obtain ⟨-, -, -, -, e0, e1⟩ := idx_out tLast
  intro a
  match a with
  | ⟨0, _⟩ =>
    show win0_5.index tLast (0 : Fin 2) * 1 ≤ (i 0).val ∧ (i 0).val < win0_5.index tLast (0 : Fin 2) * 1 + 1
    rw [e0]; omega
  | ⟨1, _⟩ =>
    show win0_5.index tLast (1 : Fin 2) * 256 ≤ (i 1).val ∧ (i 1).val < win0_5.index tLast (1 : Fin 2) * 256 + 256
    rw [e1]; omega

/-- The row of sums of squares after the run. -/
theorem sumsq_arr (c : Dev nD) : (dat0 V c).arrAt 5 cfg0.N = sumsqRow V c :=
  (dat0 V c).arrAt_eq_of_cover 5 (sumsqRow V c) (fun t hf => flushed5 V c t hf) cover5

theorem sumsq_final (c : Dev nD) (o : Fin 256) :
    ((dat0 V c).arrAt 5 cfg0.N (ix2 (0 : Fin 1) o) : EReal)
      = EdgeConv.blockTotal (fun r => EdgeConv.act (hK V c) (wK V c) (bK V c) r o * EdgeConv.act (hK V c) (wK V c) (bK V c) r o) :=
  congrFun (sumsq_arr V c) (ix2 (0 : Fin 1) o)

end Cert.KernelIdeal.PassA

end
-- ==== Proof.KernelValue.lean ====
/-
  The kernel program's result, entry by entry, as the layer of its own inputs.

  Reading backwards from the result: the closing layout operations pick entry (4096·b + n, o) of the second pass's
  output; the second pass left there the maximum, over the 16 neighbours k of that node, of the normalized activation
  ((y − μ) · σ) · γ + β read from the five arrays it was given; those five arrays are, entry by entry, the first
  pass's stored activations at row 16·(4096·b + n) + k, the mean and the reciprocal standard deviation computed from
  the first pass's two rows of sums, and the two arguments γ and β; and the first pass left the layer's clamped row map
  and its block-by-block totals. Put together this is the layer with its statistics taken block by block, which is the
  layer with its statistics taken over all rows at once, addition on the extended reals being commutative and
  associative.
-/
import proofs.«101132_j28475633173124_1_alg».proof.Proof.HostMid
import proofs.«101132_j28475633173124_1_alg».proof.Proof.HostTail
import proofs.«101132_j28475633173124_1_alg».proof.Proof.PassBFinal
import proofs.«101132_j28475633173124_1_alg».proof.Proof.PassAFinal

noncomputable section

namespace Cert.KernelIdeal.KernelValue

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- What the first pass stored, row by row: the layer's clamped row map of the pass's own inputs. The array named
    here is, by the frame's bookkeeping, the pass's third window's array after its last write-back. -/
theorem act_at (r : Fin 262144) (o : Fin 256) :
    V6 m ρ c main_v20_0 (ix2 r o)
      = EdgeConv.act (PassA.hK (V5 m ρ) c) (PassA.wK (V5 m ρ) c) (PassA.bK (V5 m ρ) c) r o :=
  (congrFun (hF0 m ρ c 3) (ix2 r o)).symm.trans (PassA.y_final (V5 m ρ) c r o)

/-- The row of channel sums the first pass left: the block-by-block total of the row map. -/
theorem sum_at (o : Fin 256) :
    V6 m ρ c main_v20_1 (ix2 0 o)
      = EdgeConv.blockTotal (fun r => EdgeConv.act (PassA.hK (V5 m ρ) c) (PassA.wK (V5 m ρ) c) (PassA.bK (V5 m ρ) c) r o) :=
  (congrFun (hF0 m ρ c 4) (ix2 0 o)).symm.trans (PassA.sum_final (V5 m ρ) c o)

/-- The row of channel sums of squares the first pass left. -/
theorem sumsq_at (o : Fin 256) :
    V6 m ρ c main_v20_2 (ix2 0 o)
      = EdgeConv.blockTotal (fun r => EdgeConv.act (PassA.hK (V5 m ρ) c) (PassA.wK (V5 m ρ) c) (PassA.bK (V5 m ρ) c) r o
          * EdgeConv.act (PassA.hK (V5 m ρ) c) (PassA.wK (V5 m ρ) c) (PassA.bK (V5 m ρ) c) r o) :=
  (congrFun (hF0 m ρ c 5) (ix2 0 o)).symm.trans (PassA.sumsq_final (V5 m ρ) c o)

/-- The result at batch `b`, channel `o`, node `n` is the layer of the first pass's inputs (edge features, weights,
    bias) and of the arguments γ, β at node 4096·b + n and channel `o`. Each step replaces one read by what the step
    before it in the program left there; under the maximum the two sides are then the same expression in neighbour
    `k`, row 16·(4096·b + n) + k being that node's `k`-th neighbour row. -/
theorem result_apply (b : Fin 4) (o : Fin 256) (n : Fin 4096) :
    W9 m ρ c (Proc.devRef .tc main_v38) (ix4 b o n 0)
      = EdgeConv.out (PassA.hK (V5 m ρ) c) (PassA.wK (V5 m ρ) c) (PassA.bK (V5 m ρ) c)
          (fun o => m ((c : Thread nD τ).loc main_arg3) (ix1 o)) (fun o => m ((c : Thread nD τ).loc main_arg4) (ix1 o))
          (⟨b.val * 4096 + n.val, by have := b.isLt; have := n.isLt; omega⟩ : Fin 16384) o := by
  rw [HostMid.v38_apply m ρ c b o n]
  refine (congrFun (hF1 m ρ c 5) (ix2 _ o)).symm.trans ?_
  rw [PassB.pooled_final (V7 m ρ) c _ o, ← EdgeConv.outOf_blockTotal]
  unfold EdgeConv.outOf EdgeConv.pooled
  refine congrArg (fun f => (Finset.univ : Finset (Fin 16)).fold max (Ideal.ofBits .f32 0xFF800000#32) f) (funext fun k => ?_)
  rw [HostMid.v30_apply, HostMid.v31_apply, HostMid.v32_apply, HostMid.v33_apply, HostMid.v34_apply,
    act_at, sum_at, sumsq_at]
  rfl

end Cert.KernelIdeal.KernelValue

end
-- ==== Proof.HostPrefixDefs.lean ====
/-
  The edge features of the graph convolution as one pure function of the node features and the neighbour table.

  For every edge (batch b, node n, neighbour slot j) the layer gathers the 128 features of the node named by the
  plane-1 entry of the neighbour table and those of the node named by the plane-0 entry, and joins, along the channel
  axis, the first with the difference of the second and the first: 256 channels per edge. A node number is taken
  modulo wrap-around (a negative number counts from the end) and a number that still names no node reads the fill value.
  The pieces below are that computation stage by stage; `featK` is their composite.
-/
import proofs.«101132_j28475633173124_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostPre

open Cert.KernelIdeal Cert.KernelIdeal.Gen Idealize.ShloMosaic Idealize.ShloMosaic.TcCoe Idealize.SL.Sem Idealize.ShloMosaic.StableHlo

/-! ## The edge features as one function of the node features and the neighbour table -/

/-- The node features with the channel axis last: the unit axis dropped, then nodes and channels exchanged. -/
def nodeRows (x : Vec Ideal S4x128x4096x1 .f32) : Vec Ideal S4x4096x128 .f32 :=
  transpose S4x4096x128 [0, 2, 1] (shapeCast S4x128x4096 x shapeCasts_S4x128x4096x1_S4x128x4096) transposes_S4x128x4096_S4x4096x128_0_2_1

/-- One endpoint's plane of the neighbour table (the plane the offset names), its node and neighbour axes merged
    into one axis of positions, a unit axis appended. -/
def endpoints (off : Fin 4 → Nat) (h : S2x4x4096x16.Slices off S1x4x4096x16) (ei : Vec Ideal S2x4x4096x16 .i32) :
    Vec Ideal S4x65536x1 .i32 :=
  broadcastInDim S4x65536x1 ![0, 1] bcast_S4x65536_S4x65536x1_0_1
    (shapeCast S4x65536 (shapeCast S4x4096x16 (extractStridedSlice S1x4x4096x16 off ei h) shapeCasts_S1x4x4096x16_S4x4096x16)
      shapeCasts_S4x4096x16_S4x65536)

/-- A negative node number counts from the end: the number of nodes is added to it. -/
def wrapped (i : Vec Ideal S4x65536x1 .i32) : Vec Ideal S4x65536x1 .i32 :=
  select (cmpi .slt i (broadcastInDim S4x65536x1 ![] bcast_S_S4x65536x1 (constantI S_ 32 0#32)))
    (addi i (broadcastInDim S4x65536x1 ![] bcast_S_S4x65536x1 (constantI S_ 32 4096#32))) i

/-- Whether a (wrapped) node number names a node: between 0 and 4095. -/
def inRange (j : Vec Ideal S4x65536x1 .i32) : Vec Ideal S4x65536 .i1 :=
  Host.reduce IntOp.andi
    (andi (cmpi .sge j (broadcastInDim S4x65536x1 ![] bcast_S_S4x65536x1 (constantI S_ 32 0#32)))
      (cmpi .sle j (broadcastInDim S4x65536x1 ![0, 1, 2] bcast_S1x1x1_S4x65536x1_0_1_2
        (broadcastInDim S1x1x1 ![2] bcast_S1_S1x1x1_2 (constantI S1 32 4095#32)))))
    (constantI S_ 1 1#1) reducesTo_S4x65536x1_S4x65536_d2 h_S_

/-- The rows of `x` the positions name, one per position: the row of the wrapped node number where that names a node, the
    fill value's row elsewhere. -/
def takeRows (x : Vec Ideal S4x4096x128 .f32) (i : Vec Ideal S4x65536x1 .i32) : Vec Ideal S4x65536x128 .f32 :=
  select (broadcastInDim S4x65536x128 ![0, 1] bcast_S4x65536_S4x65536x128_0_1 (inRange (wrapped i)))
    (Host.gather gather_S4x4096x128_S4x65536x1_S4x65536x128_2_1_0_0_1_2_11128 x (wrapped i))
    (broadcastInDim S4x65536x128 ![] bcast_S_S4x65536x128 (constant (F := Ideal) S_ .f32 0x7FC00000#32))

/-- The gathered rows with the positions split back into node and neighbour. -/
def perEdge (g : Vec Ideal S4x65536x128 .f32) : Vec Ideal S4x4096x16x128 .f32 :=
  shapeCast S4x4096x16x128 g shapeCasts_S4x65536x128_S4x4096x16x128

/-- The two halves side by side along the channel axis: the first, then the second less the first. -/
def sideBySide (a d : Vec Ideal S4x4096x16x128 .f32) : Vec Ideal S4x4096x16x256 .f32 :=
  concatenate S4x4096x16x256 3 [⟨S4x4096x16x128, a⟩, ⟨S4x4096x16x128, subf (F := Ideal) (φ := .f32) d a⟩]
    concatenates_S4x4096x16x128_S4x4096x16x128_S4x4096x16x256_d3

/-- The edge features: for every edge the features of the node at its plane-1 endpoint, then the plane-0 endpoint's
    features less those. A function of the node features `x` and the neighbour table `ei` alone. -/
def featK (x : Vec Ideal S4x128x4096x1 .f32) (ei : Vec Ideal S2x4x4096x16 .i32) : Vec Ideal S4x4096x16x256 .f32 :=
  sideBySide
    (perEdge (takeRows (nodeRows x) (endpoints ![1, 0, 0, 0] slices_S2x4x4096x16_S1x4x4096x16_1_0_0_0 ei)))
    (perEdge (takeRows (nodeRows x) (endpoints ![0, 0, 0, 0] slices_S2x4x4096x16_S1x4x4096x16_0_0_0_0 ei)))

end Cert.KernelIdeal.HostPre

end
-- ==== Proof.HostPrefixTakeA.lean ====
/-
  The first of the two gathers of node features, as one stretch of operations from arbitrary contents at its start.

  The stretch wraps the node numbers it is given, marks the positions whose wrapped number names a node, gathers the rows
  of the node features at the wrapped numbers and puts the fill value where the mark is off: `takeRows` of the node
  features and the node numbers. The operations carry their operands through transports along equalities of buffer
  types that hold by computation; composing two such transports there and back is the identity, and removing them
  leaves `takeRows` spelt out. The buffers the later stretches read and this one does not write are unchanged.
-/
import proofs.«101132_j28475633173124_1_alg».proof.Proof.HostPrefixDefs
import Idealize.ShloMosaic.Lib.StableHlo.Run

noncomputable section

namespace Cert.KernelIdeal.HostPre

open Cert.KernelIdeal Cert.KernelIdeal.Gen Idealize.ShloMosaic Idealize.ShloMosaic.TcCoe Idealize.SL.Sem Idealize.ShloMosaic.StableHlo

variable (V : Valuation τ sig (Elt Ideal))

theorem s1_v6 : after (hostOps0_1 (F := Ideal)) V (Proc.devRef .tc main_v6)
    = takeRows (V (Proc.devRef .tc main_v1)) (V (Proc.devRef .tc main_v5)) := by
  after_results_simp
  simp only [cast_cast, cast_eq]
  rfl
theorem s1_v1 : after (hostOps0_1 (F := Ideal)) V (Proc.devRef .tc main_v1)
    = V (Proc.devRef .tc main_v1) := by
  after_results_simp <;> rfl
theorem s1_arg1 : after (hostOps0_1 (F := Ideal)) V (Proc.devRef .tc main_arg1)
    = V (Proc.devRef .tc main_arg1) := by
  after_results_simp <;> rfl
theorem s1_arg2 : after (hostOps0_1 (F := Ideal)) V (Proc.devRef .tc main_arg2)
    = V (Proc.devRef .tc main_arg2) := by
  after_results_simp <;> rfl
theorem s1_arg5 : after (hostOps0_1 (F := Ideal)) V (Proc.devRef .tc main_arg5)
    = V (Proc.devRef .tc main_arg5) := by
  after_results_simp <;> rfl

end Cert.KernelIdeal.HostPre

end
-- ==== Proof.HostPrefixTakeB.lean ====
/-
  The second of the two gathers of node features, as one stretch of operations from arbitrary contents at its start.

  The stretch wraps the node numbers it is given, marks the positions whose wrapped number names a node, gathers the rows
  of the node features at the wrapped numbers and puts the fill value where the mark is off: `takeRows` of the node
  features and the node numbers. The operations carry their operands through transports along equalities of buffer
  types that hold by computation; composing two such transports there and back is the identity, and removing them
  leaves `takeRows` spelt out. The buffers the later stretches read and this one does not write are unchanged.
-/
import proofs.«101132_j28475633173124_1_alg».proof.Proof.HostPrefixDefs
import Idealize.ShloMosaic.Lib.StableHlo.Run

noncomputable section

namespace Cert.KernelIdeal.HostPre

open Cert.KernelIdeal Cert.KernelIdeal.Gen Idealize.ShloMosaic Idealize.ShloMosaic.TcCoe Idealize.SL.Sem Idealize.ShloMosaic.StableHlo

variable (V : Valuation τ sig (Elt Ideal))

theorem s3_v12 : after (hostOps0_3 (F := Ideal)) V (Proc.devRef .tc main_v12)
    = takeRows (V (Proc.devRef .tc main_v1)) (V (Proc.devRef .tc main_v11)) := by
  after_results_simp
  simp only [cast_cast, cast_eq]
  rfl
theorem s3_v7 : after (hostOps0_3 (F := Ideal)) V (Proc.devRef .tc main_v7)
    = V (Proc.devRef .tc main_v7) := by
  after_results_simp <;> rfl
theorem s3_arg1 : after (hostOps0_3 (F := Ideal)) V (Proc.devRef .tc main_arg1)
    = V (Proc.devRef .tc main_arg1) := by
  after_results_simp <;> rfl
theorem s3_arg2 : after (hostOps0_3 (F := Ideal)) V (Proc.devRef .tc main_arg2)
    = V (Proc.devRef .tc main_arg2) := by
  after_results_simp <;> rfl

end Cert.KernelIdeal.HostPre

end
-- ==== Proof.HostPrefix.lean ====
/-
  What the kernel program's host operations leave in the buffers its first grid region reads, read back to the
  arguments.

  Before the first region the program runs five stretches of host operations: the node features are brought to
  (batch, node, channel) order and the plane-1 endpoints of the neighbour table are flattened; the first gather; the
  gathered rows are split per edge and the plane-0 endpoints flattened; the second gather; and last the two halves are
  joined into the edge features, these are flattened to a matrix with one row per edge, the weights are transposed and
  converted, and the bias becomes a one-row matrix. Each stretch is read from ARBITRARY contents at its start — the buffer
  it computes as the pure composite of the buffers it reads, the buffers it leaves alone unchanged — and the five are
  then chained from the launch memory, where an argument's buffer holds the argument.

  Results: the edge features are `featK` of the node-feature and neighbour-table arguments, which is the reference
  program's own composite of the same sixteen operations; the edge-feature matrix reads them in row-major order of
  (batch, node, neighbour); the weights read the weight argument transposed; the bias row reads the bias argument.
-/
import proofs.«101132_j28475633173124_1_alg».proof.Proof.HostPrefixDefs
import proofs.«101132_j28475633173124_1_alg».proof.Proof.HostPrefixTakeA
import proofs.«101132_j28475633173124_1_alg».proof.Proof.HostPrefixTakeB
import proofs.«101132_j28475633173124_1_alg».proof.Proof.ReferenceRead

noncomputable section

namespace Cert.KernelIdeal.HostPre

open Cert.KernelIdeal Cert.KernelIdeal.Gen Idealize.ShloMosaic Idealize.ShloMosaic.TcCoe Idealize.SL.Sem Idealize.ShloMosaic.StableHlo
open Idealize.ShloMosaic.ValueIdx

/-! ## The stretches that only rearrange, from arbitrary contents `V` at their start -/

section Stretches
variable (V : Valuation τ sig (Elt Ideal))

theorem s0_v1 : after (hostOps0 (F := Ideal)) V (Proc.devRef .tc main_v1)
    = nodeRows (V (Proc.devRef .tc main_arg0)) := by
  after_results <;> rfl
theorem s0_v5 : after (hostOps0 (F := Ideal)) V (Proc.devRef .tc main_v5)
    = endpoints ![1, 0, 0, 0] slices_S2x4x4096x16_S1x4x4096x16_1_0_0_0 (V (Proc.devRef .tc main_arg5)) := by
  after_results <;> rfl
theorem s0_arg1 : after (hostOps0 (F := Ideal)) V (Proc.devRef .tc main_arg1)
    = V (Proc.devRef .tc main_arg1) := by
  after_results <;> rfl
theorem s0_arg2 : after (hostOps0 (F := Ideal)) V (Proc.devRef .tc main_arg2)
    = V (Proc.devRef .tc main_arg2) := by
  after_results <;> rfl
theorem s0_arg5 : after (hostOps0 (F := Ideal)) V (Proc.devRef .tc main_arg5)
    = V (Proc.devRef .tc main_arg5) := by
  after_results <;> rfl

theorem s2_v7 : after (hostOps0_2 (F := Ideal)) V (Proc.devRef .tc main_v7)
    = perEdge (V (Proc.devRef .tc main_v6)) := by
  after_results <;> rfl
theorem s2_v11 : after (hostOps0_2 (F := Ideal)) V (Proc.devRef .tc main_v11)
    = endpoints ![0, 0, 0, 0] slices_S2x4x4096x16_S1x4x4096x16_0_0_0_0 (V (Proc.devRef .tc main_arg5)) := by
  after_results <;> rfl
theorem s2_v1 : after (hostOps0_2 (F := Ideal)) V (Proc.devRef .tc main_v1)
    = V (Proc.devRef .tc main_v1) := by
  after_results <;> rfl
theorem s2_arg1 : after (hostOps0_2 (F := Ideal)) V (Proc.devRef .tc main_arg1)
    = V (Proc.devRef .tc main_arg1) := by
  after_results <;> rfl
theorem s2_arg2 : after (hostOps0_2 (F := Ideal)) V (Proc.devRef .tc main_arg2)
    = V (Proc.devRef .tc main_arg2) := by
  after_results <;> rfl

theorem s4_v15 : after (hostOps0_4 (F := Ideal)) V (Proc.devRef .tc main_v15)
    = sideBySide (V (Proc.devRef .tc main_v7)) (perEdge (V (Proc.devRef .tc main_v12))) := by
  after_results <;> rfl
theorem s4_v16 : after (hostOps0_4 (F := Ideal)) V (Proc.devRef .tc main_v16)
    = shapeCast S262144x256 (after (hostOps0_4 (F := Ideal)) V (Proc.devRef .tc main_v15)) shapeCasts_S4x4096x16x256_S262144x256 := by
  after_results <;> rfl
theorem s4_v18 : after (hostOps0_4 (F := Ideal)) V (Proc.devRef .tc main_v18)
    = truncf (F := Ideal) .bf16 (transpose S256x256 [1, 0] (V (Proc.devRef .tc main_arg1)) transposes_S256x256_S256x256_1_0) bitsLt_bf16_f32 := by
  after_results <;> rfl
theorem s4_v19 : after (hostOps0_4 (F := Ideal)) V (Proc.devRef .tc main_v19)
    = shapeCast S1x256 (V (Proc.devRef .tc main_arg2)) shapeCasts_S256_S1x256 := by
  after_results <;> rfl

end Stretches

/-! ## The contents the first region is entered with, read back to the launch memory

Boundary by boundary: what a stretch leaves is its composite of what the stretch before left, and at launch an argument's
buffer holds the argument. -/

section Entry
variable (m : (ℓ : Loc nD τ sig) → Buf (Elt Ideal) ℓ) (ρ : Dev nD → PrngReg) (c : Dev nD)

theorem W1_v1 : W1 m ρ c (Proc.devRef .tc main_v1) = nodeRows (m ((c.tc : Thread nD τ).loc main_arg0)) := s0_v1 _
theorem W1_v5 : W1 m ρ c (Proc.devRef .tc main_v5) = endpoints ![1, 0, 0, 0] slices_S2x4x4096x16_S1x4x4096x16_1_0_0_0 (m ((c.tc : Thread nD τ).loc main_arg5)) := s0_v5 _
theorem W1_arg1 : W1 m ρ c (Proc.devRef .tc main_arg1) = (m ((c.tc : Thread nD τ).loc main_arg1)) := s0_arg1 _
theorem W1_arg2 : W1 m ρ c (Proc.devRef .tc main_arg2) = (m ((c.tc : Thread nD τ).loc main_arg2)) := s0_arg2 _
theorem W1_arg5 : W1 m ρ c (Proc.devRef .tc main_arg5) = (m ((c.tc : Thread nD τ).loc main_arg5)) := s0_arg5 _

theorem W2_v6 : W2 m ρ c (Proc.devRef .tc main_v6) = (takeRows (nodeRows (m ((c.tc : Thread nD τ).loc main_arg0))) (endpoints ![1, 0, 0, 0] slices_S2x4x4096x16_S1x4x4096x16_1_0_0_0 (m ((c.tc : Thread nD τ).loc main_arg5)))) :=
  (s1_v6 _).trans (congrArg₂ takeRows (W1_v1 m ρ c) (W1_v5 m ρ c))
theorem W2_v1 : W2 m ρ c (Proc.devRef .tc main_v1) = nodeRows (m ((c.tc : Thread nD τ).loc main_arg0)) := (s1_v1 _).trans (W1_v1 m ρ c)
theorem W2_arg1 : W2 m ρ c (Proc.devRef .tc main_arg1) = (m ((c.tc : Thread nD τ).loc main_arg1)) := (s1_arg1 _).trans (W1_arg1 m ρ c)
theorem W2_arg2 : W2 m ρ c (Proc.devRef .tc main_arg2) = (m ((c.tc : Thread nD τ).loc main_arg2)) := (s1_arg2 _).trans (W1_arg2 m ρ c)
theorem W2_arg5 : W2 m ρ c (Proc.devRef .tc main_arg5) = (m ((c.tc : Thread nD τ).loc main_arg5)) := (s1_arg5 _).trans (W1_arg5 m ρ c)

theorem W3_v7 : W3 m ρ c (Proc.devRef .tc main_v7) = perEdge (takeRows (nodeRows (m ((c.tc : Thread nD τ).loc main_arg0))) (endpoints ![1, 0, 0, 0] slices_S2x4x4096x16_S1x4x4096x16_1_0_0_0 (m ((c.tc : Thread nD τ).loc main_arg5)))) := (s2_v7 _).trans (congrArg perEdge (W2_v6 m ρ c))
theorem W3_v11 : W3 m ρ c (Proc.devRef .tc main_v11) = endpoints ![0, 0, 0, 0] slices_S2x4x4096x16_S1x4x4096x16_0_0_0_0 (m ((c.tc : Thread nD τ).loc main_arg5)) :=
  (s2_v11 _).trans (congrArg (endpoints ![0, 0, 0, 0] slices_S2x4x4096x16_S1x4x4096x16_0_0_0_0) (W2_arg5 m ρ c))
theorem W3_v1 : W3 m ρ c (Proc.devRef .tc main_v1) = nodeRows (m ((c.tc : Thread nD τ).loc main_arg0)) := (s2_v1 _).trans (W2_v1 m ρ c)
theorem W3_arg1 : W3 m ρ c (Proc.devRef .tc main_arg1) = (m ((c.tc : Thread nD τ).loc main_arg1)) := (s2_arg1 _).trans (W2_arg1 m ρ c)
theorem W3_arg2 : W3 m ρ c (Proc.devRef .tc main_arg2) = (m ((c.tc : Thread nD τ).loc main_arg2)) := (s2_arg2 _).trans (W2_arg2 m ρ c)

theorem W4_v12 : W4 m ρ c (Proc.devRef .tc main_v12) = (takeRows (nodeRows (m ((c.tc : Thread nD τ).loc main_arg0))) (endpoints ![0, 0, 0, 0] slices_S2x4x4096x16_S1x4x4096x16_0_0_0_0 (m ((c.tc : Thread nD τ).loc main_arg5)))) :=
  (s3_v12 _).trans (congrArg₂ takeRows (W3_v1 m ρ c) (W3_v11 m ρ c))
theorem W4_v7 : W4 m ρ c (Proc.devRef .tc main_v7) = perEdge (takeRows (nodeRows (m ((c.tc : Thread nD τ).loc main_arg0))) (endpoints ![1, 0, 0, 0] slices_S2x4x4096x16_S1x4x4096x16_1_0_0_0 (m ((c.tc : Thread nD τ).loc main_arg5)))) := (s3_v7 _).trans (W3_v7 m ρ c)
theorem W4_arg1 : W4 m ρ c (Proc.devRef .tc main_arg1) = (m ((c.tc : Thread nD τ).loc main_arg1)) := (s3_arg1 _).trans (W3_arg1 m ρ c)
theorem W4_arg2 : W4 m ρ c (Proc.devRef .tc main_arg2) = (m ((c.tc : Thread nD τ).loc main_arg2)) := (s3_arg2 _).trans (W3_arg2 m ρ c)

/-- The edge features the first region reads are `featK` of the two argument arrays they are computed from. -/
theorem v15_featK : V5 m ρ c main_v15 = featK (m ((c.tc : Thread nD τ).loc main_arg0)) (m ((c.tc : Thread nD τ).loc main_arg5)) :=
  (s4_v15 _).trans (congrArg₂ sideBySide (W4_v7 m ρ c) (congrArg perEdge (W4_v12 m ρ c)))

end Entry

/-! ## The same composite as the reference program spells it

The reference program computes its edge features by the same sixteen operations on the same literal shapes; its
stage-by-stage composite and `featK` unfold to one and the same term. -/

theorem featK_eq_ref (x : Vec Ideal S4x128x4096x1 .f32) (ei : Vec Ideal S2x4x4096x16 .i32) :
    featK x ei = Cert.ReferenceIdeal.ReadP.val_main_v15 (F := Ideal) x ei := rfl

section Targets
variable (m : (ℓ : Loc nD τ sig) → Buf (Elt Ideal) ℓ) (ρ : Dev nD → PrngReg) (c : Dev nD)

/-- The edge features the first region reads are the reference program's edge features of the same two arguments. -/
theorem v15_eq : V5 m ρ c main_v15
    = Cert.ReferenceIdeal.ReadP.val_main_v15 (F := Ideal) (m ((c.tc : Thread nD τ).loc main_arg0)) (m ((c.tc : Thread nD τ).loc main_arg5)) :=
  (v15_featK m ρ c).trans (featK_eq_ref _ _)

/-- The edge features as a matrix of rows: row `r` is edge `(r / 65536, r / 16 % 4096, r % 16)`, rows being numbered in
    row-major order of (batch, node, neighbour). -/
theorem v16_apply (r : Fin 262144) (k : Fin 256) :
    V5 m ρ c main_v16 (ix2 r k)
      = V5 m ρ c main_v15 (ix4 (⟨r.val / 65536, by have := r.isLt; omega⟩ : Fin 4)
          (⟨r.val / 16 % 4096, Nat.mod_lt _ (by norm_num)⟩ : Fin 4096) (⟨r.val % 16, Nat.mod_lt _ (by norm_num)⟩ : Fin 16) k) := by
  have e : V5 m ρ c main_v16
      = shapeCast S262144x256 (V5 m ρ c main_v15) shapeCasts_S4x4096x16x256_S262144x256 := s4_v16 _
  have hk : (S4x4096x16x256.rowMajor (ix4 (⟨r.val / 65536, by have := r.isLt; omega⟩ : Fin 4)
        (⟨r.val / 16 % 4096, Nat.mod_lt _ (by norm_num)⟩ : Fin 4096) (⟨r.val % 16, Nat.mod_lt _ (by norm_num)⟩ : Fin 16) k)).val
      = (S262144x256.rowMajor (ix2 r k)).val := by
    rw [Shape.rowMajor_val_four, Shape.rowMajor_val_two]
    show ((r.val / 65536 * 4096 + r.val / 16 % 4096) * 16 + r.val % 16) * 256 + k.val = r.val * 256 + k.val
    have := r.isLt
    omega
  exact (congrFun e _).trans (shapeCast_apply _ _ _ _ hk)

/-- The weights the first region reads are the weight argument transposed (the conversion to the narrower float format is
    the identity on extended reals). -/
theorem v18_apply (k o : Fin 256) : V5 m ρ c main_v18 (ix2 k o) = (m ((c.tc : Thread nD τ).loc main_arg1)) (ix2 o k) := by
  have e : V5 m ρ c main_v18
      = truncf (F := Ideal) .bf16 (transpose S256x256 [1, 0] (m ((c.tc : Thread nD τ).loc main_arg1)) transposes_S256x256_S256x256_1_0) bitsLt_bf16_f32 :=
    (s4_v18 _).trans (congrArg (fun a => truncf (F := Ideal) .bf16 (transpose S256x256 [1, 0] a transposes_S256x256_S256x256_1_0) bitsLt_bf16_f32) (W4_arg1 m ρ c))
  refine (congrFun e _).trans ?_
  exact transpose_ix2_apply _ _ k o

/-- The bias row the first region reads is the bias argument. -/
theorem v19_apply (o : Fin 256) : V5 m ρ c main_v19 (ix2 0 o) = (m ((c.tc : Thread nD τ).loc main_arg2)) (ix1 o) := by
  have e : V5 m ρ c main_v19 = shapeCast S1x256 (m ((c.tc : Thread nD τ).loc main_arg2)) shapeCasts_S256_S1x256 :=
    (s4_v19 _).trans (congrArg (fun a => shapeCast S1x256 a shapeCasts_S256_S1x256) (W4_arg2 m ρ c))
  refine (congrFun e _).trans ?_
  exact shapeCast_a_1a_apply _ _ 0 o

end Targets

end Cert.KernelIdeal.HostPre

end
-- ==== Proof.RefArgs.lean ====
/-
  The reference's operands as plain functions of coordinates.

  The edge features are the value of the concatenation (batch, node, neighbour, channel); row `r` of the flattened
  features is (batch `r / 65536`, node `r / 16 % 4096`, neighbour `r % 16`), the row-major order. The weight is stored
  (output channel, input channel), so `w c o` reads it transposed. The features themselves — two gathers, a difference
  and a concatenation of the two argument arrays they read — are never opened.
-/
import proofs.«101132_j28475633173124_1_alg».proof.Proof.ReferenceRead
import proofs.«101132_j28475633173124_1_alg».proof.Proof.EdgeConv
import Idealize.ShloMosaic.Lib.ValueIdx

noncomputable section

namespace Cert.ReferenceIdeal.RefValue

open Cert.ReferenceIdeal Idealize.ShloMosaic Idealize.ShloMosaic.ValueIdx

/-- The flattened row of (batch `b`, node `n`, neighbour `k`). -/
def rowOf (b : Fin 4) (n : Fin 4096) (k : Fin 16) : Fin 262144 :=
  ⟨(b.val * 4096 + n.val) * 16 + k.val, by have := b.isLt; have := n.isLt; have := k.isLt; omega⟩

/-- The node (batch `b`, position `n`) among all 16384 nodes. -/
def nodeOf (b : Fin 4) (n : Fin 4096) : Fin 16384 :=
  ⟨b.val * 4096 + n.val, by have := b.isLt; have := n.isLt; omega⟩

theorem nbrRow_nodeOf (b : Fin 4) (n : Fin 4096) (k : Fin 16) : EdgeConv.nbrRow (nodeOf b n) k = rowOf b n k := rfl

/-- The edge features by flattened row. -/
def hR (x0 : (⟨S4x128x4096x1, .f32⟩ : BufTy).Contents (Elt Ideal)) (x5 : (⟨S2x4x4096x16, .i32⟩ : BufTy).Contents (Elt Ideal)) :
    Fin 262144 → Fin 256 → EReal := fun r c =>
  Cert.ReferenceIdeal.ReadP.val_main_v15 (F := Ideal) x0 x5
    (ix4 (⟨r.val / 65536, by have := r.isLt; omega⟩ : Fin 4) (⟨r.val / 16 % 4096, Nat.mod_lt _ (by norm_num)⟩ : Fin 4096)
      (⟨r.val % 16, Nat.mod_lt _ (by norm_num)⟩ : Fin 16) c)

theorem hR_rowOf (x0 : (⟨S4x128x4096x1, .f32⟩ : BufTy).Contents (Elt Ideal)) (x5 : (⟨S2x4x4096x16, .i32⟩ : BufTy).Contents (Elt Ideal))
    (b : Fin 4) (n : Fin 4096) (k : Fin 16) (c : Fin 256) :
    hR x0 x5 (rowOf b n k) c = Cert.ReferenceIdeal.ReadP.val_main_v15 (F := Ideal) x0 x5 (ix4 b n k c) := by
  have hb := b.isLt; have hn := n.isLt; have hk := k.isLt
  have key : ∀ (b' : Fin 4) (n' : Fin 4096) (k' : Fin 16), b' = b → n' = n → k' = k →
      Cert.ReferenceIdeal.ReadP.val_main_v15 (F := Ideal) x0 x5 (ix4 b' n' k' c)
        = Cert.ReferenceIdeal.ReadP.val_main_v15 (F := Ideal) x0 x5 (ix4 b n k c) := by
    rintro _ _ _ rfl rfl rfl; rfl
  unfold hR rowOf
  exact key _ _ _
    (Fin.ext (by show ((b.val * 4096 + n.val) * 16 + k.val) / 65536 = b.val; omega))
    (Fin.ext (by show ((b.val * 4096 + n.val) * 16 + k.val) / 16 % 4096 = n.val; omega))
    (Fin.ext (by show ((b.val * 4096 + n.val) * 16 + k.val) % 16 = k.val; omega))

/-- The weight read (input channel, output channel). -/
def wR (x1 : (⟨S256x256, .f32⟩ : BufTy).Contents (Elt Ideal)) : Fin 256 → Fin 256 → EReal := fun c o => x1 (ix2 o c)

/-- A per-channel vector. -/
def vR (x : (⟨S256, .f32⟩ : BufTy).Contents (Elt Ideal)) : Fin 256 → EReal := fun o => x (ix1 o)

end Cert.ReferenceIdeal.RefValue

end
-- ==== Proof.RefNorm.lean ====
/-
  The reference's normalization, one element at a time.

  After the clamped convolution the reference forms, per output channel, the mean and the reciprocal standard
  deviation from the channel's sum and sum of squares over all 262144 rows, and then maps every element of the
  clamped convolution through ((y − μ) · σ) · γ + β. Every step is an elementwise operation or a broadcast of a
  per-channel vector along the other three axes, so an element of the result at (batch, node, neighbour, channel)
  depends on the clamped convolution at the same place and on four per-channel numbers at the same channel.
-/
import proofs.«101132_j28475633173124_1_alg».proof.Proof.RefArgs
import Idealize.ShloMosaic.PureOps.Ideal.Laws

noncomputable section

namespace Cert.ReferenceIdeal.RefValue

open Cert.ReferenceIdeal Cert.ReferenceIdeal.ReadP Idealize.ShloMosaic Idealize.ShloMosaic.ValueIdx

variable (x0 : (⟨S4x128x4096x1, .f32⟩ : BufTy).Contents (Elt Ideal)) (x1 : (⟨S256x256, .f32⟩ : BufTy).Contents (Elt Ideal))
  (x2 x3 x4 : (⟨S256, .f32⟩ : BufTy).Contents (Elt Ideal)) (x5 : (⟨S2x4x4096x16, .i32⟩ : BufTy).Contents (Elt Ideal))

/-- The per-channel mean is the channel's sum divided by the number of rows. -/
theorem v23_apply (o : Fin 256) :
    val_main_v23 (F := Ideal) x0 x1 x2 x5 (ix1 o) = EdgeConv.mean (val_main_v21 (F := Ideal) x0 x1 x2 x5 (ix1 o)) := by
  rw [val_main_v23_apply, val_main_v22_apply, val_main_cst_0_apply]
  rfl

/-- The per-channel reciprocal standard deviation from the channel's sum and sum of squares. -/
theorem v35_apply (o : Fin 256) :
    val_main_v35 (F := Ideal) x0 x1 x2 x5 (ix1 o)
      = EdgeConv.invStd (val_main_v21 (F := Ideal) x0 x1 x2 x5 (ix1 o)) (val_main_v25 (F := Ideal) x0 x1 x2 x5 (ix1 o)) := by
  rw [val_main_v35_apply, val_main_v34_apply, val_main_v33_apply, val_main_cst_3_apply, val_main_v29_apply,
    val_main_v27_apply, val_main_v26_apply, val_main_cst_2_apply, val_main_v28_apply, v23_apply]
  rfl

/-- One element of the normalized array: the clamped convolution there, shifted by the channel's mean, scaled by the
    channel's reciprocal deviation and gain, shifted by the channel's offset. -/
theorem v44_apply (b : Fin 4) (n : Fin 4096) (k : Fin 16) (o : Fin 256) :
    val_main_v44 (F := Ideal) x0 x1 x2 x3 x4 x5 (ix4 b n k o)
      = EdgeConv.normed (val_main_v20 (F := Ideal) x0 x1 x2 x5 (ix4 b n k o)) (val_main_v23 (F := Ideal) x0 x1 x2 x5 (ix1 o))
          (val_main_v35 (F := Ideal) x0 x1 x2 x5 (ix1 o)) (x3 (ix1 o)) (x4 (ix1 o)) := by
  have e31 : idx_main_v30 (idx_main_v31 (ix4 b n k o)) = ix1 o :=
    funext fun a => Fin.ext (by match a with | ⟨0, _⟩ => rfl)
  have e37 : idx_main_v36 (idx_main_v37 (ix4 b n k o)) = ix1 o :=
    funext fun a => Fin.ext (by match a with | ⟨0, _⟩ => rfl)
  have e40 : idx_main_v39 (idx_main_v40 (ix4 b n k o)) = ix1 o :=
    funext fun a => Fin.ext (by match a with | ⟨0, _⟩ => rfl)
  have e43 : idx_main_v42 (idx_main_v43 (ix4 b n k o)) = ix1 o :=
    funext fun a => Fin.ext (by match a with | ⟨0, _⟩ => rfl)
  rw [val_main_v44_apply, val_main_v41_apply, val_main_v38_apply, val_main_v32_apply, val_main_v31_apply,
    val_main_v30_apply, val_main_v37_apply, val_main_v36_apply, val_main_v40_apply, val_main_v39_apply,
    val_main_v43_apply, val_main_v42_apply, e31, e37, e40, e43]
  rfl

end Cert.ReferenceIdeal.RefValue

end
-- ==== Proof.RefPool.lean ====
/-
  The reference's pooling and its tail, one element at a time.

  The maximum over the 16 neighbours is a reduction along one axis of the normalized array: at (batch, node, channel)
  it is the maximum, started from −∞, of the 16 elements that differ from that place only in the neighbour
  coordinate. The two layout operations after it only rename coordinates: the transposition swaps node and channel,
  and the final broadcast appends an axis of length one. Reading the result at (batch, channel, node, 0) therefore
  gives the pooled value at (batch, node, channel), and with the elementwise reading of the normalization this is the
  layer's closed form at that node and channel.
-/
import proofs.«101132_j28475633173124_1_alg».proof.Proof.RefNorm
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-- Dropping the neighbour axis of (batch, node, neighbour, channel) leaves (batch, node, channel). -/
theorem reduces_d2 : S4x4096x16x256.Reduces [2] S4x4096x256 := by decide

/-- Putting neighbour `k` back into (batch, node, channel) gives (batch, node, `k`, channel). -/
theorem lift_ix3 (b : Fin 4) (n : Fin 4096) (o : Fin 256) (k : Fin (S4x4096x16x256.size 2)) :
    reduces_d2.lift (ix3 b n o) k = ix4 b n (⟨k.val, k.isLt⟩ : Fin 16) o := by
  funext c; apply Fin.ext
  fin_cases c <;> rfl

/-- A maximum-reduction along the neighbour axis, started from the word of −∞, is at (batch, node, channel) the
    maximum from that word over the 16 neighbours. The maximum is commutative and associative, so the order in which
    the reduction visits the neighbours does not matter. -/
theorem hostReduce_max_axis2 (y : (⟨S4x4096x16x256, .f32⟩ : BufTy).Contents (Elt Ideal)) (b : Fin 4) (n : Fin 4096) (o : Fin 256) :
    Host.reduce FloatOps.maximumf y (val_main_cst_4 (F := Ideal)) reducesTo_S4x4096x16x256_S4x4096x256_d2 h_S_ (ix3 b n o)
      = (Finset.univ : Finset (Fin 16)).fold max (Ideal.ofBits .f32 0xFF800000#32) (fun k => y (ix4 b n k o)) := by
  have e := Host.reduce_eq_fold_single (α := Ideal .f32) (s := S4x4096x16x256) (t := S4x4096x256) (a := 2)
    FloatOps.maximumf y (val_main_cst_4 (F := Ideal)) reducesTo_S4x4096x16x256_S4x4096x256_d2 reduces_d2 h_S_ (ix3 b n o)
  refine e.trans ?_
  have hf : (y ∘ reduces_d2.lift (ix3 b n o)) = fun k : Fin 16 => y (ix4 b n k o) :=
    funext fun k => congrArg y (lift_ix3 b n o k)
  exact congrArg (fun f => Finset.fold max (Ideal.ofBits .f32 0xFF800000#32) f (Finset.univ : Finset (Fin 16))) hf

variable (x0 : (⟨S4x128x4096x1, .f32⟩ : BufTy).Contents (Elt Ideal)) (x1 : (⟨S256x256, .f32⟩ : BufTy).Contents (Elt Ideal))
  (x2 x3 x4 : (⟨S256, .f32⟩ : BufTy).Contents (Elt Ideal)) (x5 : (⟨S2x4x4096x16, .i32⟩ : BufTy).Contents (Elt Ideal))

/-- The pooled array at (batch, node, channel): the maximum from −∞ of the normalized array over the 16 neighbours. -/
theorem v45_apply (b : Fin 4) (n : Fin 4096) (o : Fin 256) :
    val_main_v45 (F := Ideal) x0 x1 x2 x3 x4 x5 (ix3 b n o)
      = (Finset.univ : Finset (Fin 16)).fold max (Ideal.ofBits .f32 0xFF800000#32)
          (fun k => val_main_v44 (F := Ideal) x0 x1 x2 x3 x4 x5 (ix4 b n k o)) := by
  unfold val_main_v45
  generalize val_main_v44 (F := Ideal) x0 x1 x2 x3 x4 x5 = y
  exact hostReduce_max_axis2 y b n o

/-- The result at (batch, channel, node, 0) is the pooled array at (batch, node, channel). -/
theorem v47_pool (b : Fin 4) (o : Fin 256) (n : Fin 4096) :
    val_main_v47 (F := Ideal) x0 x1 x2 x3 x4 x5 (ix4 b o n 0)
      = (Finset.univ : Finset (Fin 16)).fold max (Ideal.ofBits .f32 0xFF800000#32)
          (fun k => val_main_v44 (F := Ideal) x0 x1 x2 x3 x4 x5 (ix4 b n k o)) := by
  have e : idx_main_v46 (idx_main_v47 (ix4 b o n (0 : Fin 1))) = ix3 b n o :=
    funext fun a => Fin.ext (by match a with | ⟨0, _⟩ => rfl | ⟨1, _⟩ => rfl | ⟨2, _⟩ => rfl)
  rw [val_main_v47_apply, val_main_v46_apply, e, v45_apply]

/-- The reference's result is the layer's closed form, given that the clamped convolution and the two per-channel
    sums are what the closed form says they are. -/
theorem v47_apply_of
    (h20 : ∀ (b : Fin 4) (n : Fin 4096) (k : Fin 16) (o : Fin 256),
      val_main_v20 (F := Ideal) x0 x1 x2 x5 (ix4 b n k o) = EdgeConv.act (hR x0 x5) (wR x1) (vR x2) (rowOf b n k) o)
    (h21 : ∀ o : Fin 256, val_main_v21 (F := Ideal) x0 x1 x2 x5 (ix1 o)
      = EdgeConv.total (fun r => EdgeConv.act (hR x0 x5) (wR x1) (vR x2) r o))
    (h25 : ∀ o : Fin 256, val_main_v25 (F := Ideal) x0 x1 x2 x5 (ix1 o)
      = EdgeConv.total (fun r => EdgeConv.act (hR x0 x5) (wR x1) (vR x2) r o * EdgeConv.act (hR x0 x5) (wR x1) (vR x2) r o))
    (b : Fin 4) (o : Fin 256) (n : Fin 4096) :
    val_main_v47 (F := Ideal) x0 x1 x2 x3 x4 x5 (ix4 b o n 0)
      = EdgeConv.out (hR x0 x5) (wR x1) (vR x2) (vR x3) (vR x4) (nodeOf b n) o := by
  rw [v47_pool]
  unfold EdgeConv.out EdgeConv.outOf EdgeConv.pooled
  refine congrArg (fun f => Finset.fold max (Ideal.ofBits .f32 0xFF800000#32) f (Finset.univ : Finset (Fin 16)))
    (funext fun k => ?_)
  rw [v44_apply, v23_apply, v35_apply, h20, h21, h25, nbrRow_nodeOf]
  rfl

end Cert.ReferenceIdeal.RefValue

end
-- ==== Proof.RefLayer.lean ====
/-
  The reference's layer before normalization, read at one edge and one output channel.

  The reference contracts the edge features with the weight along the input channel, adds the bias broadcast along the
  three leading axes, and clamps at zero. At (batch b, node n, neighbour k, channel o) that is
  max (∑ c, h(b, n, k, c) · w(o, c) + bias(o)) 0, which is the layer's activation at the flattened row of (b, n, k):
  the weight is stored (output channel, input channel), so the contraction reads it transposed.
-/
import proofs.«101132_j28475633173124_1_alg».proof.Proof.ReferenceRead
import proofs.«101132_j28475633173124_1_alg».proof.Proof.EdgeConv
import proofs.«101132_j28475633173124_1_alg».proof.Proof.RefArgs
import Idealize.ShloMosaic.Lib.ValueIdx
import Idealize.ShloMosaic.PureOps.Ideal.Laws

noncomputable section

open scoped BigOperators

namespace Cert.ReferenceIdeal.RefValue

open Cert.ReferenceIdeal Idealize.ShloMosaic Idealize.ShloMosaic.ValueIdx

/-- The contraction reads the features at the same edge, input channel `c`. -/
theorem lidx_v16_ix4 (b : Fin 4) (n : Fin 4096) (k : Fin 16) (o c : Fin 256) :
    ReadP.lidx_main_v16 (ix4 b n k o) c = ix4 b n k c :=
  funext fun a => Fin.ext (by match a with | ⟨0, _⟩ => rfl | ⟨1, _⟩ => rfl | ⟨2, _⟩ => rfl | ⟨3, _⟩ => rfl)

/-- The contraction reads the weight at (output channel `o`, input channel `c`). -/
theorem ridx_v16_ix4 (b : Fin 4) (n : Fin 4096) (k : Fin 16) (o c : Fin 256) :
    ReadP.ridx_main_v16 (ix4 b n k o) c = ix2 o c :=
  funext fun a => Fin.ext (by match a with | ⟨0, _⟩ => rfl | ⟨1, _⟩ => rfl)

/-- The broadcast bias is read at the output channel. -/
theorem idx_v17_v18_ix4 (b : Fin 4) (n : Fin 4096) (k : Fin 16) (o : Fin 256) :
    ReadP.idx_main_v17 (ReadP.idx_main_v18 (ix4 b n k o)) = ix1 o :=
  funext fun a => Fin.ext (by match a with | ⟨0, _⟩ => rfl)

/-- The reference's clamped convolution at an edge and a channel is the layer's activation at the edge's row. -/
theorem v20_apply (x0 : (⟨S4x128x4096x1, .f32⟩ : BufTy).Contents (Elt Ideal)) (x1 : (⟨S256x256, .f32⟩ : BufTy).Contents (Elt Ideal))
    (x2 : (⟨S256, .f32⟩ : BufTy).Contents (Elt Ideal)) (x5 : (⟨S2x4x4096x16, .i32⟩ : BufTy).Contents (Elt Ideal))
    (b : Fin 4) (n : Fin 4096) (k : Fin 16) (o : Fin 256) :
    ReadP.val_main_v20 (F := Ideal) x0 x1 x2 x5 (ix4 b n k o)
      = EdgeConv.act (hR x0 x5) (wR x1) (vR x2) (rowOf b n k) o := by
  rw [ReadP.val_main_v20_apply, ReadP.val_main_v19_apply, ReadP.val_main_v16_apply, ReadP.val_main_v18_apply,
    ReadP.val_main_v17_apply, ReadP.val_main_call2_v0_apply, ReadP.val_main_call2_cst_apply]
  unfold EdgeConv.act wR vR
  simp only [lidx_v16_ix4, ridx_v16_ix4, idx_v17_v18_ix4, hR_rowOf, Ideal.maximumf_def, Ideal.addf_def, Ideal.ofBits_def,
    Ideal.ofBits_zero_f32]

end Cert.ReferenceIdeal.RefValue

end
-- ==== Proof.LibSumFirstThree.lean ====
/-
  A sum over the three leading axes of a rank-4 array, read as one sum over the flattened leading index.

  A reduction over axes 0, 1, 2 of an array of shape [4, 4096, 16, 256] keeps the last axis: the source indices that
  land on the kept coordinate `o` are exactly the (a, b, c, o). Those are in bijection with the 262144 flattened
  rows `r = (a · 4096 + b) · 16 + c`, the row-major order, with `a = r / 65536`, `b = r / 16 % 4096`, `c = r % 16`.
  So the sum of any quantity over the indices that land on `o` is the sum over the rows `r` of the quantity at
  (r / 65536, r / 16 % 4096, r % 16, o); only commutativity and associativity of the addition are used.
-/
import Idealize.ShloMosaic.Lib.ValueIdx
import Idealize.ShloMosaic.Lib.IdealHost
import Idealize.ShloMosaic.PureOps.Reduce
import Idealize.ShloMosaic.PureOps.Ideal.Laws

noncomputable section

open scoped BigOperators

namespace Cert.Lib

open Idealize.ShloMosaic Idealize.ShloMosaic.ValueIdx

/-- The rank-4 shape whose three leading axes are summed away. -/
abbrev Src : Shape := ⟨4, ![4, 4096, 16, 256]⟩
/-- What is left: the last axis. -/
abbrev Dst : Shape := ⟨1, ![256]⟩

/-- The index (batch, node, neighbour, channel) of flattened row `r` at channel `o`, rows in row-major order. -/
def rowIdx (r : Fin 262144) (o : Fin 256) : Src.Idx :=
  ix4 (⟨r.val / 65536, by have := r.isLt; omega⟩ : Fin 4) (⟨r.val / 16 % 4096, Nat.mod_lt _ (by norm_num)⟩ : Fin 4096)
    (⟨r.val % 16, Nat.mod_lt _ (by norm_num)⟩ : Fin 16) o

/-- The flattened row of an index: `(a · 4096 + b) · 16 + c`. -/
def rowOfIdx (i : Src.Idx) : Fin 262144 :=
  ⟨((i 0).val * 4096 + (i 1).val) * 16 + (i 2).val, by
    have h0 : (i 0).val < 4 := (i 0).isLt
    have h1 : (i 1).val < 4096 := (i 1).isLt
    have h2 : (i 2).val < 16 := (i 2).isLt
    omega⟩

/-- Dropping the three leading axes keeps the channel coordinate. -/
theorem drop_firstThree_val (h : Src.ReducesTo [0, 1, 2] Dst) (i : Src.Idx) : (h.drop i 0 : Nat) = (i 3).val :=
  Shape.ReducesTo.drop_apply_val_of_eq h i 0 3

/-- An index lands on channel `o` exactly when its last coordinate is `o`. -/
theorem drop_firstThree_eq_iff (h : Src.ReducesTo [0, 1, 2] Dst) (i : Src.Idx) (o : Fin 256) :
    h.drop i = ix1 o ↔ i 3 = o := by
  constructor
  · intro e
    have e0 := congrArg (fun j : Dst.Idx => (j 0 : Nat)) e
    exact Fin.ext ((drop_firstThree_val h i).symm.trans e0)
  · intro e
    funext d
    match d with
    | ⟨0, _⟩ => exact Fin.ext ((drop_firstThree_val h i).trans (congrArg Fin.val e))

/-- A row's index has the row's channel. -/
theorem rowIdx_three (r : Fin 262144) (o : Fin 256) : rowIdx r o 3 = o := rfl

/-- Flattening the index of a row gives the row back. -/
theorem rowOfIdx_rowIdx (r : Fin 262144) (o : Fin 256) : rowOfIdx (rowIdx r o) = r := by
  apply Fin.ext
  show (r.val / 65536 * 4096 + r.val / 16 % 4096) * 16 + r.val % 16 = r.val
  have := r.isLt
  omega

/-- An index with channel `o` is the index of its flattened row. -/
theorem rowIdx_rowOfIdx (i : Src.Idx) (o : Fin 256) (e : i 3 = o) : rowIdx (rowOfIdx i) o = i := by
  have h0 : (i 0).val < 4 := (i 0).isLt
  have h1 : (i 1).val < 4096 := (i 1).isLt
  have h2 : (i 2).val < 16 := (i 2).isLt
  funext d
  match d with
  | ⟨0, _⟩ =>
    apply Fin.ext
    show (((i 0).val * 4096 + (i 1).val) * 16 + (i 2).val) / 65536 = (i 0).val
    omega
  | ⟨1, _⟩ =>
    apply Fin.ext
    show (((i 0).val * 4096 + (i 1).val) * 16 + (i 2).val) / 16 % 4096 = (i 1).val
    omega
  | ⟨2, _⟩ =>
    apply Fin.ext
    show (((i 0).val * 4096 + (i 1).val) * 16 + (i 2).val) % 16 = (i 2).val
    omega
  | ⟨3, _⟩ => exact e.symm

/-- The indices that land on channel `o`, summed, are the flattened rows, summed. -/
theorem sum_filter_drop_firstThree {M : Type*} [AddCommMonoid M] (h : Src.ReducesTo [0, 1, 2] Dst) (y : Src.Idx → M)
    (o : Fin 256) :
    ∑ i ∈ Finset.univ.filter (fun i => h.drop i = ix1 o), y i = ∑ r : Fin 262144, y (rowIdx r o) := by
  refine Finset.sum_nbij' (fun i => rowOfIdx i) (fun r => rowIdx r o) ?_ ?_ ?_ ?_ ?_
  · intro i _; exact Finset.mem_univ _
  · intro r _; exact Finset.mem_filter.2 ⟨Finset.mem_univ _, (drop_firstThree_eq_iff h _ o).2 (rowIdx_three r o)⟩
  · intro i hi; exact rowIdx_rowOfIdx i o ((drop_firstThree_eq_iff h i o).1 (Finset.mem_filter.1 hi).2)
  · intro r _; exact rowOfIdx_rowIdx r o
  · intro i hi; rw [rowIdx_rowOfIdx i o ((drop_firstThree_eq_iff h i o).1 (Finset.mem_filter.1 hi).2)]

/-- The host's sum over the three leading axes, read at channel `o` on the extended reals: the initial value plus the
    sum over the flattened rows. -/
theorem hostReduceAdd_firstThree (h : Src.ReducesTo [0, 1, 2] Dst) (y : Src.Idx → EReal) (init : EReal) (o : Fin 256) :
    Ideal.hostReduceAdd h y init (ix1 o) = init + ∑ r : Fin 262144, y (rowIdx r o) := by
  unfold Ideal.hostReduceAdd
  rw [sum_filter_drop_firstThree h y o]

end Cert.Lib

end
-- ==== Proof.RefSums.lean ====
/-
  The reference's two batch statistics, read at one output channel.

  The reference sums the clamped convolution, and its square, over the batch, node and neighbour axes, from the initial
  value zero. The indices that land on channel `o` are the (b, n, k, o); flattened in row-major order they are the
  262144 rows, so each statistic at `o` is the total over every row of the activation, or of its square, at that row
  and channel.
-/
import proofs.«101132_j28475633173124_1_alg».proof.Proof.ReferenceRead
import proofs.«101132_j28475633173124_1_alg».proof.Proof.EdgeConv
import proofs.«101132_j28475633173124_1_alg».proof.Proof.RefArgs
import proofs.«101132_j28475633173124_1_alg».proof.Proof.RefLayer
import proofs.«101132_j28475633173124_1_alg».proof.Proof.LibSumFirstThree
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.ValueIdx

/-- A row is the flattened row of its own (batch, node, neighbour). -/
theorem rowOf_div_mod (r : Fin 262144) :
    rowOf (⟨r.val / 65536, by have := r.isLt; omega⟩ : Fin 4) (⟨r.val / 16 % 4096, Nat.mod_lt _ (by norm_num)⟩ : Fin 4096)
      (⟨r.val % 16, Nat.mod_lt _ (by norm_num)⟩ : Fin 16) = r := by
  apply Fin.ext
  show (r.val / 65536 * 4096 + r.val / 16 % 4096) * 16 + r.val % 16 = r.val
  have := r.isLt
  omega

/-- The clamped convolution at the index of row `r`, channel `o`, is the activation at that row. -/
theorem v20_rowIdx (x0 : (⟨S4x128x4096x1, .f32⟩ : BufTy).Contents (Elt Ideal)) (x1 : (⟨S256x256, .f32⟩ : BufTy).Contents (Elt Ideal))
    (x2 : (⟨S256, .f32⟩ : BufTy).Contents (Elt Ideal)) (x5 : (⟨S2x4x4096x16, .i32⟩ : BufTy).Contents (Elt Ideal))
    (r : Fin 262144) (o : Fin 256) :
    ReadP.val_main_v20 (F := Ideal) x0 x1 x2 x5 (Cert.Lib.rowIdx r o) = EdgeConv.act (hR x0 x5) (wR x1) (vR x2) r o := by
  unfold Cert.Lib.rowIdx
  rw [v20_apply, rowOf_div_mod]

/-- The reference's sum of the activations over batch, node and neighbour, at channel `o`, is the total over every row. -/
theorem v21_apply (x0 : (⟨S4x128x4096x1, .f32⟩ : BufTy).Contents (Elt Ideal)) (x1 : (⟨S256x256, .f32⟩ : BufTy).Contents (Elt Ideal))
    (x2 : (⟨S256, .f32⟩ : BufTy).Contents (Elt Ideal)) (x5 : (⟨S2x4x4096x16, .i32⟩ : BufTy).Contents (Elt Ideal)) (o : Fin 256) :
    ReadP.val_main_v21 (F := Ideal) x0 x1 x2 x5 (ix1 o)
      = EdgeConv.total (fun r => EdgeConv.act (hR x0 x5) (wR x1) (vR x2) r o) := by
  have key : ∀ r : Fin 262144, ReadP.val_main_v20 (F := Ideal) x0 x1 x2 x5 (Cert.Lib.rowIdx r o)
      = EdgeConv.act (hR x0 x5) (wR x1) (vR x2) r o := fun r => v20_rowIdx x0 x1 x2 x5 r o
  unfold ReadP.val_main_v21
  generalize ReadP.val_main_v20 (F := Ideal) x0 x1 x2 x5 = y at key ⊢
  rw [hostReduceAdd_apply, Cert.Lib.hostReduceAdd_firstThree, ReadP.val_main_cst_apply, Ideal.ofBits_def,
    Ideal.ofBits_zero_f32, zero_add]
  unfold EdgeConv.total
  exact Finset.sum_congr rfl fun r _ => key r

/-- The reference's sum of the squared activations, at channel `o`, is the total over every row of the square. -/
theorem v25_apply (x0 : (⟨S4x128x4096x1, .f32⟩ : BufTy).Contents (Elt Ideal)) (x1 : (⟨S256x256, .f32⟩ : BufTy).Contents (Elt Ideal))
    (x2 : (⟨S256, .f32⟩ : BufTy).Contents (Elt Ideal)) (x5 : (⟨S2x4x4096x16, .i32⟩ : BufTy).Contents (Elt Ideal)) (o : Fin 256) :
    ReadP.val_main_v25 (F := Ideal) x0 x1 x2 x5 (ix1 o)
      = EdgeConv.total (fun r => EdgeConv.act (hR x0 x5) (wR x1) (vR x2) r o * EdgeConv.act (hR x0 x5) (wR x1) (vR x2) r o) := by
  have key : ∀ r : Fin 262144, ReadP.val_main_v24 (F := Ideal) x0 x1 x2 x5 (Cert.Lib.rowIdx r o)
      = EdgeConv.act (hR x0 x5) (wR x1) (vR x2) r o * EdgeConv.act (hR x0 x5) (wR x1) (vR x2) r o := fun r => by
    rw [ReadP.val_main_v24_apply, Ideal.mulf_def, v20_rowIdx]
  unfold ReadP.val_main_v25
  generalize ReadP.val_main_v24 (F := Ideal) x0 x1 x2 x5 = y at key ⊢
  rw [hostReduceAdd_apply, Cert.Lib.hostReduceAdd_firstThree, ReadP.val_main_cst_1_apply, Ideal.ofBits_def,
    Ideal.ofBits_zero_f32, zero_add]
  unfold EdgeConv.total
  exact Finset.sum_congr rfl fun r _ => key r

end Cert.ReferenceIdeal.RefValue

end
-- ==== Proof.RefOut.lean ====
/-
  The reference's result in closed form.

  The reading of the normalization, the pooling and the tail reduces the result at (batch, channel, node, 0) to the
  layer's formula in terms of the clamped convolution and its two per-channel sums; the clamped convolution at a row
  and the two sums over all rows are exactly the quantities the formula names, so the result is the layer's closed
  form at that node and channel.
-/
import proofs.«101132_j28475633173124_1_alg».proof.Proof.RefPool
import proofs.«101132_j28475633173124_1_alg».proof.Proof.RefLayer
import proofs.«101132_j28475633173124_1_alg».proof.Proof.RefSums

noncomputable section

namespace Cert.ReferenceIdeal.RefValue

open Cert.ReferenceIdeal Cert.ReferenceIdeal.ReadP Idealize.ShloMosaic Idealize.ShloMosaic.ValueIdx

/-- The reference's result at (batch `b`, channel `o`, node `n`, 0) is the layer at node (`b`, `n`), channel `o`. -/
theorem v47_apply (x0 : (⟨S4x128x4096x1, .f32⟩ : BufTy).Contents (Elt Ideal)) (x1 : (⟨S256x256, .f32⟩ : BufTy).Contents (Elt Ideal))
    (x2 x3 x4 : (⟨S256, .f32⟩ : BufTy).Contents (Elt Ideal)) (x5 : (⟨S2x4x4096x16, .i32⟩ : BufTy).Contents (Elt Ideal))
    (b : Fin 4) (o : Fin 256) (n : Fin 4096) :
    val_main_v47 (F := Ideal) x0 x1 x2 x3 x4 x5 (ix4 b o n 0)
      = EdgeConv.out (hR x0 x5) (wR x1) (vR x2) (vR x3) (vR x4) (nodeOf b n) o :=
  v47_apply_of x0 x1 x2 x3 x4 x5 (v20_apply x0 x1 x2 x5) (v21_apply x0 x1 x2 x5) (v25_apply x0 x1 x2 x5) b o n

end Cert.ReferenceIdeal.RefValue

end
-- ==== Proof.Layer.lean ====
/-
  Both programs compute one function of the six argument arrays.

  `layer` is the result array: at (batch b, channel o, node n) the pooled, normalized, clamped 1×1 convolution of
  `EdgeConv.out`, over the edge features gathered from the input and the edge index, the weight read transposed, and
  the bias, scale and shift vectors. The reference's last stage is `layer` index by index. The kernel program's result
  buffer at the last segment boundary is `layer` too: its two launches and the host operations between them compute the
  same layer with the batch sums taken block by block, from entry contents that are the same edge features flattened
  row-major, the weight transposed and the bias as a row.
-/
import proofs.«101132_j28475633173124_1_alg».proof.Proof.KernelValue
import proofs.«101132_j28475633173124_1_alg».proof.Proof.HostPrefix
import proofs.«101132_j28475633173124_1_alg».proof.Proof.RefOut
import proofs.«101132_j28475633173124_1_alg».proof.Proof.RefArgs

noncomputable section

namespace Cert.Proof.Layer

open Idealize.ShloMosaic Idealize.ShloMosaic.ValueIdx Idealize.SL.Sem
open Cert.ReferenceIdeal.RefValue

/-- The result array [4, 256, 4096, 1] as a function of the six argument arrays. -/
def layer (x0 : (⟨Cert.ReferenceIdeal.S4x128x4096x1, .f32⟩ : BufTy).Contents (Elt Ideal))
    (x1 : (⟨Cert.ReferenceIdeal.S256x256, .f32⟩ : BufTy).Contents (Elt Ideal))
    (x2 x3 x4 : (⟨Cert.ReferenceIdeal.S256, .f32⟩ : BufTy).Contents (Elt Ideal))
    (x5 : (⟨Cert.ReferenceIdeal.S2x4x4096x16, .i32⟩ : BufTy).Contents (Elt Ideal)) :
    (⟨Cert.ReferenceIdeal.S4x256x4096x1, .f32⟩ : BufTy).Contents (Elt Ideal) := fun j =>
  EdgeConv.out (hR x0 x5) (wR x1) (vR x2) (vR x3) (vR x4) (nodeOf (j 0) (j 2)) (j 1)

/-- The reference's last stage is the layer. -/
theorem ref_value (x0 : (⟨Cert.ReferenceIdeal.S4x128x4096x1, .f32⟩ : BufTy).Contents (Elt Ideal))
    (x1 : (⟨Cert.ReferenceIdeal.S256x256, .f32⟩ : BufTy).Contents (Elt Ideal))
    (x2 x3 x4 : (⟨Cert.ReferenceIdeal.S256, .f32⟩ : BufTy).Contents (Elt Ideal))
    (x5 : (⟨Cert.ReferenceIdeal.S2x4x4096x16, .i32⟩ : BufTy).Contents (Elt Ideal)) :
    Cert.ReferenceIdeal.ReadP.val_main_v47 (F := Ideal) x0 x1 x2 x3 x4 x5 = layer x0 x1 x2 x3 x4 x5 := by
  funext j
  obtain ⟨b, o, n, z, rfl⟩ : ∃ (b : Fin 4) (o : Fin 256) (n : Fin 4096) (z : Fin 1), j = ix4 b o n z :=
    ⟨j 0, j 1, j 2, j 3, eq_ix4 j⟩
  obtain rfl : z = 0 := Subsingleton.elim z 0
  exact v47_apply x0 x1 x2 x3 x4 x5 b o n

section Kernel

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Region 0 is entered with the reference's edge features flattened row-major. -/
theorem feat_eq : Cert.KernelIdeal.PassA.hK (V5 m ρ) c
    = hR (m ((c.tc : Thread nD τ).loc main_arg0)) (m ((c.tc : Thread nD τ).loc main_arg5)) := by
  funext r k
  show V5 m ρ c main_v16 (ix2 r k) = _
  rw [Cert.KernelIdeal.HostPre.v16_apply m ρ c r k, Cert.KernelIdeal.HostPre.v15_eq m ρ c]
  rfl

/-- … with the weight transposed … -/
theorem weight_eq : Cert.KernelIdeal.PassA.wK (V5 m ρ) c = wR (m ((c.tc : Thread nD τ).loc main_arg1)) := by
  funext k o
  exact Cert.KernelIdeal.HostPre.v18_apply m ρ c k o

/-- … and the bias as a row. -/
theorem bias_eq : Cert.KernelIdeal.PassA.bK (V5 m ρ) c = vR (m ((c.tc : Thread nD τ).loc main_arg2)) := by
  funext o
  exact Cert.KernelIdeal.HostPre.v19_apply m ρ c o

/-- The kernel program's result buffer at the last boundary is the layer of the launch contents of its arguments. -/
theorem kernel_value : W9 m ρ c (Proc.devRef .tc main_v38)
    = layer (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  funext j
  obtain ⟨b, o, n, z, rfl⟩ : ∃ (b : Fin 4) (o : Fin 256) (n : Fin 4096) (z : Fin 1), j = ix4 b o n z :=
    ⟨j 0, j 1, j 2, j 3, eq_ix4 j⟩
  obtain rfl : z = 0 := Subsingleton.elim z 0
  rw [Cert.KernelIdeal.KernelValue.result_apply m ρ c b o n, feat_eq m ρ c, weight_eq m ρ c, bias_eq m ρ c]
  rfl

end Kernel

end Cert.Proof.Layer

end
-- ==== Proof.lean ====
/-
  The five claims.

  Frames: the two kernel programs' are their generated frame certificates; the reference's is its run with the result
  forgotten. The idealization rewrote no operation, so `preserves` has nothing to state. The algebraic claim: run from
  memories that agree on the six argument arrays, the idealized kernel program ends with its result buffer at the last
  segment boundary's contents and the idealized reference with its result at the last of its per-operation stages; both
  are the one array `Layer.layer` of the argument arrays — the clamped 1×1 convolution over gathered edge features,
  normalized by its batch statistics and pooled over each node's sixteen neighbours. The only law joining the two sides is
  that a sum over all rows may be taken block by block, which holds on the extended reals without any finiteness, so the
  precondition is never opened.
-/
import proofs.«101132_j28475633173124_1_alg».proof.Defs
import proofs.«101132_j28475633173124_1_alg».proof.Proof.Gen.Kernel
import proofs.«101132_j28475633173124_1_alg».proof.Proof.Gen.Kernel.Frame
import proofs.«101132_j28475633173124_1_alg».proof.Proof.Gen.KernelIdeal
import proofs.«101132_j28475633173124_1_alg».proof.Proof.Gen.KernelIdeal.Frame
import proofs.«101132_j28475633173124_1_alg».proof.Proof.Gen.ReferenceIdeal
import proofs.«101132_j28475633173124_1_alg».proof.Proof.Gen.Pre_finite_inputs
import proofs.«101132_j28475633173124_1_alg».proof.Proof.KernelRun
import proofs.«101132_j28475633173124_1_alg».proof.Proof.ReferenceRun
import proofs.«101132_j28475633173124_1_alg».proof.Proof.Layer

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RunValue.run (F := Ideal) m ρ)

theorem preserves : Cert.preserves_Kernel_KernelIdeal := trivial

/-- Both runs end at the layer of the (agreeing) argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Proof.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Proof.Layer.kernel_value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RunValue.run (F := Ideal) m' ρ')
    rw [Cert.Proof.Layer.ref_value, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
